-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S64x10 .f32) (main_arg9 : FVec F S10 .f32) (main_v33 : IVec S_ 1) : IVec S_ 1 :=
  let main_v34 : FVec F S64x10 .f32 := Host.absf main_arg8
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S128 .f32) (main_arg6 : FVec F S4x128x64 .f32) (main_arg7 : FVec F S64 .f32) (main_arg8 : FVec F S64x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x64 .f32 := Host.absf main_arg6
  let main_cst_8 : FVec F S_ .f32 := constant S_ .f32 0x7F800000#32
  let main_v25 : FVec F S4x128x64 .f32 := broadcastInDim S4x128x64 ![] bcast_S_S4x128x64 main_cst_8
  let main_v26 : IVec S4x128x64 1 := cmpf .olt main_v24 main_v25
  let main_c_9 : IVec S_ 1 := constantI S_ 1 1#1
  let main_v27 : IVec S_ 1 := (fun x v => Host.reduce IntOp.andi x v reducesTo_S4x128x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S4x128x128 .f32) (main_arg3 : FVec F S128 .f32) (main_arg4 : FVec F S128 .f32) (main_arg5 : FVec F S128 .f32) (main_arg6 : FVec F S4x128x64 .f32) (main_arg7 : FVec F S64 .f32) (main_arg8 : FVec F S64x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x512 : Shape := ⟨2, ![50000, 512]⟩
abbrev S512x128 : Shape := ⟨2, ![512, 128]⟩
abbrev S5000x512 : Shape := ⟨2, ![5000, 512]⟩
abbrev S5000x128 : Shape := ⟨2, ![5000, 128]⟩
abbrev S1x128 : Shape := ⟨2, ![1, 128]⟩
abbrev S512x64 : Shape := ⟨2, ![512, 64]⟩
abbrev S50000x64 : Shape := ⟨2, ![50000, 64]⟩
abbrev S5000x64 : Shape := ⟨2, ![5000, 64]⟩
abbrev S1x64 : Shape := ⟨2, ![1, 64]⟩
abbrev S50000x10 : Shape := ⟨2, ![50000, 10]⟩
abbrev S5000x10 : Shape := ⟨2, ![5000, 10]⟩
abbrev S1x10 : Shape := ⟨2, ![1, 10]⟩

abbrev nBuf : Space → Nat
  | .hbm => 200
  | .vmem => 18
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S128, .f32⟩
  | 5 => ⟨S128, .f32⟩
  | 6 => ⟨S4x128x64, .f32⟩
  | 7 => ⟨S64, .f32⟩
  | 8 => ⟨S64x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x512, .f32⟩
  | 108 => ⟨S512x128, .f32⟩
  | 109 => ⟨S50000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S800000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x128, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S50000x512, .f32⟩
  | 69 => ⟨S512x64, .f32⟩
  | 70 => ⟨S50000x64, .f32⟩
  | 71 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x512, .f32⟩
  | .local _ .vmem, ⟨7, _⟩ => ⟨S5000x512, .f32⟩
  | .local _ .vmem, ⟨8, _⟩ => ⟨S512x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x10, .f32⟩
  | .local _ .vmem, ⟨15, _⟩ => ⟨S10, .f32⟩
  | .local _ .vmem, ⟨16, _⟩ => ⟨S5000x10, .f32⟩
  | .local _ .vmem, ⟨17, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_20 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_23 : Ref sig .tc := ⟨.hbm, 141, rfl⟩
abbrev main_v104 : Ref sig .tc := ⟨.hbm, 142, rfl⟩
abbrev main_v105 : Ref sig .tc := ⟨.hbm, 143, rfl⟩
abbrev main_c_24 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_25 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_26 : Ref sig .tc := ⟨.hbm, 157, rfl⟩
abbrev main_v117 : Ref sig .tc := ⟨.hbm, 158, rfl⟩
abbrev main_v118 : Ref sig .tc := ⟨.hbm, 159, rfl⟩
abbrev main_c_27 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_28 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_30 : Ref sig .tc := ⟨.hbm, 177, rfl⟩
abbrev main_v133 : Ref sig .tc := ⟨.hbm, 178, rfl⟩
abbrev main_v134 : Ref sig .tc := ⟨.hbm, 179, rfl⟩
abbrev main_c_31 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_32 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_33 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  shapeCasts_S4x128x128_S512x128 : S4x128x128.ShapeCasts S512x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S4x128x64_S512x64 : S4x128x64.ShapeCasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x512_S512x128_S5000x128_1_0_0_1_n_n_wf : DotDims.WF S5000x512 S512x128 S5000x128 [1] [0] [0] [1] [] []
  dot_S5000x512_S512x64_S5000x64_1_0_0_1_n_n_wf : DotDims.WF S5000x512 S512x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S50000x10.size a
  hwx2_3 : ∀ i : grid2.Coords, EltTy.bits .f32 = 32 ∨ (Rect.block (s := S50000x10) S5000x10.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v75) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v148) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v149) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v150) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v150) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v151) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩
abbrev S50000x10 : Shape := ⟨2, ![50000, 10]⟩
abbrev S1x10 : Shape := ⟨2, ![1, 10]⟩

abbrev nBuf : Space → Nat
  | .hbm => 276
  | .vmem => 0
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S128, .f32⟩
  | 5 => ⟨S128, .f32⟩
  | 6 => ⟨S4x128x64, .f32⟩
  | 7 => ⟨S64, .f32⟩
  | 8 => ⟨S64x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000, .f32⟩
  | 51 => ⟨S1x128x128, .f32⟩
  | 52 => ⟨S128x128, .f32⟩
  | 53 => ⟨S50000x128, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x128x128, .f32⟩
  | 71 => ⟨S128x128, .f32⟩
  | 72 => ⟨S50000x128, .f32⟩
  | 73 => ⟨S50000x128, .f32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S50000x128, .f32⟩
  | 98 => ⟨S800000x1, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S_, .f32⟩
  | 115 => ⟨S50000x128, .f32⟩
  | 116 => ⟨S50000x128, .f32⟩
  | 117 => ⟨S50000x128, .f32⟩
  | 118 => ⟨S1x128x128, .f32⟩
  | 119 => ⟨S128x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S800000, .f32⟩
  | 67 => ⟨S1x128x64, .f32⟩
  | 68 => ⟨S128x64, .f32⟩
  | 69 => ⟨S50000x64, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128x64, .f32⟩
  | 87 => ⟨S128x64, .f32⟩
  | 88 => ⟨S50000x64, .f32⟩
  | 89 => ⟨S50000x64, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S1x128x64, .f32⟩
  | 111 => ⟨S128x64, .f32⟩
  | 112 => ⟨S50000x64, .f32⟩
  | 113 => ⟨S50000x64, .f32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_2 (i : Nat) : BufTy := match i % 128 with
  | 0 => ⟨S800000x1, .i32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S1x128x64, .f32⟩
  | 7 => ⟨S128x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x10, .f32⟩
  | 17 => ⟨S1x10, .f32⟩
  | 18 => ⟨S50000x10, .f32⟩
  | 19 => ⟨S50000x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_cst_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_23 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_25 : Ref sig .tc := ⟨.hbm, 164, rfl⟩
abbrev main_v123 : Ref sig .tc := ⟨.hbm, 165, rfl⟩
abbrev main_v124 : Ref sig .tc := ⟨.hbm, 166, rfl⟩
abbrev main_cst_26 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_27 : Ref sig .tc := ⟨.hbm, 171, rfl⟩
abbrev main_call2_v0 : Ref sig .tc := ⟨.hbm, 172, rfl⟩
abbrev main_call2_v1 : Ref sig .tc := ⟨.hbm, 173, rfl⟩
abbrev main_v128 : Ref sig .tc := ⟨.hbm, 174, rfl⟩
abbrev main_c_28 : Ref sig .tc := ⟨.hbm, 175, rfl⟩
abbrev main_v129 : Ref sig .tc := ⟨.hbm, 176, rfl⟩
abbrev main_v130 : Ref sig .tc := ⟨.hbm, 177, rfl⟩
abbrev main_c_29 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_c_30 : Ref sig .tc := ⟨.hbm, 184, rfl⟩
abbrev main_v136 : Ref sig .tc := ⟨.hbm, 185, rfl⟩
abbrev main_v137 : Ref sig .tc := ⟨.hbm, 186, rfl⟩
abbrev main_c_31 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_c_32 : Ref sig .tc := ⟨.hbm, 199, rfl⟩
abbrev main_v149 : Ref sig .tc := ⟨.hbm, 200, rfl⟩
abbrev main_v150 : Ref sig .tc := ⟨.hbm, 201, rfl⟩
abbrev main_c_33 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_34 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_35 : Ref sig .tc := ⟨.hbm, 219, rfl⟩
abbrev main_v166 : Ref sig .tc := ⟨.hbm, 220, rfl⟩
abbrev main_v167 : Ref sig .tc := ⟨.hbm, 221, rfl⟩
abbrev main_c_36 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_37 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_cst_38 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_c_39 : Ref sig .tc := ⟨.hbm, 243, rfl⟩
abbrev main_v186 : Ref sig .tc := ⟨.hbm, 244, rfl⟩
abbrev main_v187 : Ref sig .tc := ⟨.hbm, 245, rfl⟩
abbrev main_c_40 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_cst_41 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_42 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_call3_cst : Ref sig .tc := ⟨.hbm, 269, rfl⟩
abbrev main_call3_v0 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S4x128x64_S1x128x64_0_0_0 : S4x128x64.Slices ![0, 0, 0] S1x128x64
  shapeCasts_S1x128x64_S128x64 : S1x128x64.ShapeCasts S128x64
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x10_S50000x10_1_0_0_1_n_n_wf : DotDims.WF S50000x64 S64x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.K_Body0.lean ====
/-
  Launch 0 of the program: what its body leaves in the output window's staging buffer, the body's triple, the
  proof data of the pipeline and the body obligation, all at a parameter `V` — the buffer contents the launch is
  entered from. The body reads its three input blocks whole, multiplies rows by columns into a zero accumulator,
  adds the bias row, clamps at zero and stores the block whole; it also loads the output buffer, a value it never uses.
-/
import proofs.«180556_j46755013984834_1_alg».proof.Proof.Gen.Kernel.Launch
import proofs.«180556_j46755013984834_1_alg».proof.Proof.Gen.Kernel.Skeleton
import proofs.«180556_j46755013984834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window with a
    constant block index is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window with a
    constant block index is fetched once and keeps its block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window with a
    constant block index is fetched once and keeps its block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S5000x512 := Rect.unit (s := S5000x512) ![0, 0] S5000x512.size inb_S5000x512_S5000x512_0_0
abbrev rW0 : Rect S512x128 := Rect.unit (s := S512x128) ![0, 0] S512x128.size inb_S512x128_S512x128_0_0
abbrev rB0 : Rect S128 := Rect.unit (s := S128) ![0] S128.size inb_S128_S128_0
abbrev rO0 : Rect S5000x128 := Rect.unit (s := S5000x128) ![0, 0] S5000x128.size inb_S5000x128_S5000x128_0_0

/-- The output window's staging buffer after the body, from the three input blocks: its one store. -/
def out0 (x0 : Vec F S5000x512 .f32) (x1 : Vec F S512x128 .f32) (x2 : Vec F S128 .f32) : Vec F S5000x128 .f32 :=
  View.canon [⟨rO0, k0_pay1 (View.ld x0 rX0) (View.ld x1 rW0) (View.ld x2 rB0)⟩]

/-- The one store covers the buffer. -/
theorem cover0 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging memrefs: the inputs' contents are read and kept, the output's ends at `out0` of them. -/
theorem sound_kernel0 (c : Dev nD) (E : Set ℕ) (i : grid0.Coords)
    (arg1 : Memref sig .tc .vmem S5000x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The arrays as the launch finds them; after the body at point `t` each input's buffer at its block and the output's
    at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K_Body1.lean ====
/-
  Launch 1 of the program: what its body leaves in the output window's staging buffer, the body's triple, the
  proof data of the pipeline and the body obligation, all at a parameter `V` — the buffer contents the launch is
  entered from. The body reads its three input blocks whole, multiplies rows by columns into a zero accumulator,
  adds the bias row, clamps at zero and stores the block whole; it also loads the output buffer, a value it never uses.
-/
import proofs.«180556_j46755013984834_1_alg».proof.Proof.Gen.Kernel.Launch
import proofs.«180556_j46755013984834_1_alg».proof.Proof.Gen.Kernel.Skeleton
import proofs.«180556_j46755013984834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window with a
    constant block index is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a window with a
    constant block index is fetched once and keeps its block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a window with a
    constant block index is fetched once and keeps its block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S5000x512 := Rect.unit (s := S5000x512) ![0, 0] S5000x512.size inb_S5000x512_S5000x512_0_0
abbrev rW1 : Rect S512x64 := Rect.unit (s := S512x64) ![0, 0] S512x64.size inb_S512x64_S512x64_0_0
abbrev rB1 : Rect S64 := Rect.unit (s := S64) ![0] S64.size inb_S64_S64_0
abbrev rO1 : Rect S5000x64 := Rect.unit (s := S5000x64) ![0, 0] S5000x64.size inb_S5000x64_S5000x64_0_0

/-- The output window's staging buffer after the body, from the three input blocks: its one store. -/
def out1 (x0 : Vec F S5000x512 .f32) (x1 : Vec F S512x64 .f32) (x2 : Vec F S64 .f32) : Vec F S5000x64 .f32 :=
  View.canon [⟨rO1, k1_pay1 (View.ld x0 rX1) (View.ld x1 rW1) (View.ld x2 rB1)⟩]

/-- The one store covers the buffer. -/
theorem cover1 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
/-- The body on whole staging memrefs: the inputs' contents are read and kept, the output's ends at `out1` of them. -/
theorem sound_kernel1 (c : Dev nD) (E : Set ℕ) (i : grid1.Coords)
    (arg1 : Memref sig .tc .vmem S5000x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S5000x64 .f32) (harg4 : arg4.IsWhole)
    (x0 : Vec F S5000x512 .f32) (x1 : Vec F S512x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The arrays as the launch finds them; after the body at point `t` each input's buffer at its block and the output's
    at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K_Body2.lean ====
/-
  Launch 2 of the program: what its body leaves in the output window's staging buffer, the body's triple, the
  proof data of the pipeline and the body obligation, all at a parameter `V` — the buffer contents the launch is
  entered from. The body reads its three input blocks whole, multiplies rows by columns into a zero accumulator,
  adds the bias row and stores the block whole; it also loads the output buffer, a value it never uses.
-/
import proofs.«180556_j46755013984834_1_alg».proof.Proof.Gen.Kernel.Launch
import proofs.«180556_j46755013984834_1_alg».proof.Proof.Gen.Kernel.Skeleton
import proofs.«180556_j46755013984834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window with a
    constant block index is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window with a
    constant block index is fetched once and keeps its block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window with a
    constant block index is fetched once and keeps its block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x64 := Rect.unit (s := S5000x64) ![0, 0] S5000x64.size inb_S5000x64_S5000x64_0_0
abbrev rW2 : Rect S64x10 := Rect.unit (s := S64x10) ![0, 0] S64x10.size inb_S64x10_S64x10_0_0
abbrev rB2 : Rect S10 := Rect.unit (s := S10) ![0] S10.size inb_S10_S10_0
abbrev rO2 : Rect S5000x10 := Rect.unit (s := S5000x10) ![0, 0] S5000x10.size inb_S5000x10_S5000x10_0_0

/-- The output window's staging buffer after the body, from the three input blocks: its one store. -/
def out2 (x0 : Vec F S5000x64 .f32) (x1 : Vec F S64x10 .f32) (x2 : Vec F S10 .f32) : Vec F S5000x10 .f32 :=
  View.canon [⟨rO2, k2_pay1 (View.ld x0 rX2) (View.ld x1 rW2) (View.ld x2 rB2)⟩]

/-- The one store covers the buffer. -/
theorem cover2 (p0 : Vec F S5000x10 .f32) (y : S5000x10.Idx) :
    ∃ pc ∈ ([⟨rO2, p0⟩] : List (View.Piece (Elt F) S5000x10 .f32)), y ∈ pc.1.set :=
  View.cover_of_tiled [⟨rO2, p0⟩] S5000x10.size (by rfl) y

set_option maxHeartbeats 1000000 in
/-- The body on whole staging memrefs: the inputs' contents are read and kept, the output's ends at `out2` of them. -/
theorem sound_kernel2 (c : Dev nD) (E : Set ℕ) (i : grid2.Coords)
    (arg1 : Memref sig .tc .vmem S5000x64 .f32) (harg1 : arg1.IsWhole) (arg2 : Memref sig .tc .vmem S64x10 .f32) (harg2 : arg2.IsWhole)
    (arg3 : Memref sig .tc .vmem S10 .f32) (harg3 : arg3.IsWhole) (arg4 : Memref sig .tc .vmem S5000x10 .f32) (harg4 : arg4.IsWhole)
    (x0 : Vec F S5000x64 .f32) (x1 : Vec F S64x10 .f32) (x2 : Vec F S10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The arrays as the launch finds them; after the body at point `t` each input's buffer at its block and the output's
    at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K_Bounds.lean ====
/-
  The buffer contents at each boundary of the program's run: the launch memory, then a fold through the host
  stretches and the three launches. A host stretch leaves every buffer at the composed value of its operations;
  a launch leaves its own arrays at what its write-backs fold to and every other buffer as it found it.
-/
import proofs.«180556_j46755013984834_1_alg».proof.Proof.K_Body0
import proofs.«180556_j46755013984834_1_alg».proof.Proof.K_Body1
import proofs.«180556_j46755013984834_1_alg».proof.Proof.K_Body2

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the outlined select. -/
abbrev W2 : Dev nD → Valuation τ sig (Elt F) := fun c => StableHlo.after hostOps0_1 (W1 m ρ c)
/-- After the third host stretch: launch 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At launch 0's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch between launches 0 and 1: launch 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At launch 1's exit: launch 2's entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At launch 2's exit: the end of the run. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

end Cert.Kernel.Fr

end
-- ==== Proof.K_Run.lean ====
/-
  The run of the whole program on the thread state "every unscoped buffer of the core at the boundary's contents, the
  generator register at some state, nothing owed": three host stretches, launch 0, a host stretch, launches 1 and 2, each
  segment entered from what the one before it left. The conclusion reads every unscoped buffer of every core, in any
  final state, at the contents of the last boundary.
-/
import proofs.«180556_j46755013984834_1_alg».proof.Proof.K_Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines and the thread state -/

/-- No pipeline has a prefetched table: the admissible contents are the trivial ones. -/
abbrev adm : (p : Fin 3) → (pcfgs (F := F) p).Adm := fun p => (cfgs p).toPCfg_adm

/-- Each pipeline's proof data at the contents its launch is entered from: launch 0 after the third host stretch,
    launch 1 after the fourth, launch 2 straight after launch 1. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c

abbrev 𝒱₀ : Variants := Variants.none
/-- No core owes another anything, so no pair carries a level. -/
abbrev L : GSem nD τ sig → Finset Unit := fun _ => ∅
abbrev lv : GSem nD τ sig → Unit → ℕ := fun _ _ => 0

/-- What accompanies the buffers through every segment: the generator register at some state and the core owing nothing. -/
abbrev R (c : Dev nD) : sProp 𝕄 := iprop((∃ r, prngReg c r) ∗ ∃ W, owes (c : Thread nD τ) (0 : CellTallies nD τ sig Unit) W)

/-- A stretch of host operations as a segment over the unscoped buffers held at `W`: it leaves them at the composed
    value of its operations on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

/-- An unscoped reference of the core is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state less the `owes`: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The three launches as segments -/

set_option backward.isDefEq.respectTransparency.types false in
/-- Launch 0 over the thread state: entered with every unscoped buffer at `W3`, left with them at `W4`. Its arrays are
    split out of the unscoped buffers on entry and joined back at their final contents on exit; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W5`, left with them at `W6`. Its arrays are
    split out of the unscoped buffers on entry and joined back at their final contents on exit; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W6`, left with them at `W7`. Its arrays are
    split out of the unscoped buffers on entry and joined back at their final contents on exit; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The seven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ) ]

/-- The program is the run of its segments: it is the chain of its items, which is the segments' run unfolded. -/
theorem main_run (c : Dev nD) : main (F := F) c = Pipeline.Seg.run (segs m ρ) := (main_chain c).trans (by chain_rfl)

set_option backward.isDefEq.respectTransparency.types false in
/-- From any memory with zero counters, every weakly fair execution of the program terminates without fault, and in every
    final state each unscoped buffer of each core holds the last boundary's contents. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Fr

end
-- ==== Proof.K_Args.lean ====
/-
  The argument arrays at the end of the run are the launch contents: no host operation writes an argument, and a
  launch reads an argument only through an input window, whose array it leaves as it found it.
-/
import proofs.«180556_j46755013984834_1_alg».proof.Proof.K_Bounds

set_option maxRecDepth 16384

noncomputable section

namespace Cert.Kernel.Fr

open Cert.Kernel Cert.Kernel.Gen
open Idealize.ShloMosaic Idealize.ShloMosaic.TcCoe
open Idealize.SL Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

set_option maxHeartbeats 4000000 in
/-- The first three host stretches write no argument. -/
theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

theorem W4_arg0 (c : Dev nD) : W4 m ρ c (Proc.devRef .tc main_arg0) = m ((c.tc : Thread nD τ).loc main_arg0) :=
  (W4_of_ne m ρ c main_arg0 (by decide)).trans (W3_arg0 m ρ c)

set_option maxHeartbeats 4000000 in
theorem W5_arg0 (c : Dev nD) : W5 m ρ c (Proc.devRef .tc main_arg0) = m ((c.tc : Thread nD τ).loc main_arg0) := by
  refine Eq.trans ?_ (W4_arg0 m ρ c)
  show StableHlo.after hostOps1 (W4 m ρ c) (Proc.devRef .tc main_arg0) = _
  after_results_simp

theorem W6_arg0 (c : Dev nD) : W6 m ρ c (Proc.devRef .tc main_arg0) = m ((c.tc : Thread nD τ).loc main_arg0) :=
  (W6_of_ne m ρ c main_arg0 (by decide)).trans (W5_arg0 m ρ c)

theorem W7_arg0 (c : Dev nD) : W7 m ρ c (Proc.devRef .tc main_arg0) = m ((c.tc : Thread nD τ).loc main_arg0) :=
  (W7_of_ne m ρ c main_arg0 (by decide)).trans (W6_arg0 m ρ c)

set_option maxHeartbeats 4000000 in
/-- The first three host stretches write no argument. -/
theorem W3_arg1 (c : Dev nD) : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results_simp

theorem W4_arg1 (c : Dev nD) : W4 m ρ c (Proc.devRef .tc main_arg1) = m ((c.tc : Thread nD τ).loc main_arg1) :=
  (W4_of_ne m ρ c main_arg1 (by decide)).trans (W3_arg1 m ρ c)

set_option maxHeartbeats 4000000 in
theorem W5_arg1 (c : Dev nD) : W5 m ρ c (Proc.devRef .tc main_arg1) = m ((c.tc : Thread nD τ).loc main_arg1) := by
  refine Eq.trans ?_ (W4_arg1 m ρ c)
  show StableHlo.after hostOps1 (W4 m ρ c) (Proc.devRef .tc main_arg1) = _
  after_results_simp

theorem W6_arg1 (c : Dev nD) : W6 m ρ c (Proc.devRef .tc main_arg1) = m ((c.tc : Thread nD τ).loc main_arg1) :=
  (W6_of_ne m ρ c main_arg1 (by decide)).trans (W5_arg1 m ρ c)

theorem W7_arg1 (c : Dev nD) : W7 m ρ c (Proc.devRef .tc main_arg1) = m ((c.tc : Thread nD τ).loc main_arg1) :=
  (W7_of_ne m ρ c main_arg1 (by decide)).trans (W6_arg1 m ρ c)

set_option maxHeartbeats 4000000 in
/-- The first three host stretches write no argument. -/
theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

theorem W4_arg2 (c : Dev nD) : W4 m ρ c (Proc.devRef .tc main_arg2) = m ((c.tc : Thread nD τ).loc main_arg2) :=
  (W4_of_ne m ρ c main_arg2 (by decide)).trans (W3_arg2 m ρ c)

set_option maxHeartbeats 4000000 in
theorem W5_arg2 (c : Dev nD) : W5 m ρ c (Proc.devRef .tc main_arg2) = m ((c.tc : Thread nD τ).loc main_arg2) := by
  refine Eq.trans ?_ (W4_arg2 m ρ c)
  show StableHlo.after hostOps1 (W4 m ρ c) (Proc.devRef .tc main_arg2) = _
  after_results_simp

theorem W6_arg2 (c : Dev nD) : W6 m ρ c (Proc.devRef .tc main_arg2) = m ((c.tc : Thread nD τ).loc main_arg2) :=
  (W6_of_ne m ρ c main_arg2 (by decide)).trans (W5_arg2 m ρ c)

theorem W7_arg2 (c : Dev nD) : W7 m ρ c (Proc.devRef .tc main_arg2) = m ((c.tc : Thread nD τ).loc main_arg2) :=
  (W7_of_ne m ρ c main_arg2 (by decide)).trans (W6_arg2 m ρ c)

set_option maxHeartbeats 4000000 in
/-- The first three host stretches write no argument. -/
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp

theorem W4_arg3 (c : Dev nD) : W4 m ρ c (Proc.devRef .tc main_arg3) = m ((c.tc : Thread nD τ).loc main_arg3) :=
  ((W4_arr m ρ c 2).trans (((dat0 (V3 m ρ) c).arrAt_in 2 rfl _).trans (A_eq0 (V3 m ρ) c 2))).trans (W3_arg3 m ρ c)

set_option maxHeartbeats 4000000 in
theorem W5_arg3 (c : Dev nD) : W5 m ρ c (Proc.devRef .tc main_arg3) = m ((c.tc : Thread nD τ).loc main_arg3) := by
  refine Eq.trans ?_ (W4_arg3 m ρ c)
  show StableHlo.after hostOps1 (W4 m ρ c) (Proc.devRef .tc main_arg3) = _
  after_results_simp

theorem W6_arg3 (c : Dev nD) : W6 m ρ c (Proc.devRef .tc main_arg3) = m ((c.tc : Thread nD τ).loc main_arg3) :=
  (W6_of_ne m ρ c main_arg3 (by decide)).trans (W5_arg3 m ρ c)

theorem W7_arg3 (c : Dev nD) : W7 m ρ c (Proc.devRef .tc main_arg3) = m ((c.tc : Thread nD τ).loc main_arg3) :=
  (W7_of_ne m ρ c main_arg3 (by decide)).trans (W6_arg3 m ρ c)

set_option maxHeartbeats 4000000 in
/-- The first three host stretches write no argument. -/
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp

theorem W4_arg4 (c : Dev nD) : W4 m ρ c (Proc.devRef .tc main_arg4) = m ((c.tc : Thread nD τ).loc main_arg4) :=
  (W4_of_ne m ρ c main_arg4 (by decide)).trans (W3_arg4 m ρ c)

set_option maxHeartbeats 4000000 in
theorem W5_arg4 (c : Dev nD) : W5 m ρ c (Proc.devRef .tc main_arg4) = m ((c.tc : Thread nD τ).loc main_arg4) := by
  refine Eq.trans ?_ (W4_arg4 m ρ c)
  show StableHlo.after hostOps1 (W4 m ρ c) (Proc.devRef .tc main_arg4) = _
  after_results_simp

theorem W6_arg4 (c : Dev nD) : W6 m ρ c (Proc.devRef .tc main_arg4) = m ((c.tc : Thread nD τ).loc main_arg4) :=
  (W6_of_ne m ρ c main_arg4 (by decide)).trans (W5_arg4 m ρ c)

theorem W7_arg4 (c : Dev nD) : W7 m ρ c (Proc.devRef .tc main_arg4) = m ((c.tc : Thread nD τ).loc main_arg4) :=
  (W7_of_ne m ρ c main_arg4 (by decide)).trans (W6_arg4 m ρ c)

set_option maxHeartbeats 4000000 in
/-- The first three host stretches write no argument. -/
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

theorem W4_arg5 (c : Dev nD) : W4 m ρ c (Proc.devRef .tc main_arg5) = m ((c.tc : Thread nD τ).loc main_arg5) :=
  (W4_of_ne m ρ c main_arg5 (by decide)).trans (W3_arg5 m ρ c)

set_option maxHeartbeats 4000000 in
theorem W5_arg5 (c : Dev nD) : W5 m ρ c (Proc.devRef .tc main_arg5) = m ((c.tc : Thread nD τ).loc main_arg5) := by
  refine Eq.trans ?_ (W4_arg5 m ρ c)
  show StableHlo.after hostOps1 (W4 m ρ c) (Proc.devRef .tc main_arg5) = _
  after_results_simp

theorem W6_arg5 (c : Dev nD) : W6 m ρ c (Proc.devRef .tc main_arg5) = m ((c.tc : Thread nD τ).loc main_arg5) :=
  (W6_of_ne m ρ c main_arg5 (by decide)).trans (W5_arg5 m ρ c)

theorem W7_arg5 (c : Dev nD) : W7 m ρ c (Proc.devRef .tc main_arg5) = m ((c.tc : Thread nD τ).loc main_arg5) :=
  (W7_of_ne m ρ c main_arg5 (by decide)).trans (W6_arg5 m ρ c)

set_option maxHeartbeats 4000000 in
/-- The first three host stretches write no argument. -/
theorem W3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp

theorem W4_arg6 (c : Dev nD) : W4 m ρ c (Proc.devRef .tc main_arg6) = m ((c.tc : Thread nD τ).loc main_arg6) :=
  (W4_of_ne m ρ c main_arg6 (by decide)).trans (W3_arg6 m ρ c)

set_option maxHeartbeats 4000000 in
theorem W5_arg6 (c : Dev nD) : W5 m ρ c (Proc.devRef .tc main_arg6) = m ((c.tc : Thread nD τ).loc main_arg6) := by
  refine Eq.trans ?_ (W4_arg6 m ρ c)
  show StableHlo.after hostOps1 (W4 m ρ c) (Proc.devRef .tc main_arg6) = _
  after_results_simp

theorem W6_arg6 (c : Dev nD) : W6 m ρ c (Proc.devRef .tc main_arg6) = m ((c.tc : Thread nD τ).loc main_arg6) :=
  (W6_of_ne m ρ c main_arg6 (by decide)).trans (W5_arg6 m ρ c)

theorem W7_arg6 (c : Dev nD) : W7 m ρ c (Proc.devRef .tc main_arg6) = m ((c.tc : Thread nD τ).loc main_arg6) :=
  (W7_of_ne m ρ c main_arg6 (by decide)).trans (W6_arg6 m ρ c)

set_option maxHeartbeats 4000000 in
/-- The first three host stretches write no argument. -/
theorem W3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp

theorem W4_arg7 (c : Dev nD) : W4 m ρ c (Proc.devRef .tc main_arg7) = m ((c.tc : Thread nD τ).loc main_arg7) :=
  (W4_of_ne m ρ c main_arg7 (by decide)).trans (W3_arg7 m ρ c)

set_option maxHeartbeats 4000000 in
theorem W5_arg7 (c : Dev nD) : W5 m ρ c (Proc.devRef .tc main_arg7) = m ((c.tc : Thread nD τ).loc main_arg7) := by
  refine Eq.trans ?_ (W4_arg7 m ρ c)
  show StableHlo.after hostOps1 (W4 m ρ c) (Proc.devRef .tc main_arg7) = _
  after_results_simp

theorem W6_arg7 (c : Dev nD) : W6 m ρ c (Proc.devRef .tc main_arg7) = m ((c.tc : Thread nD τ).loc main_arg7) :=
  ((W6_arr m ρ c 2).trans (((dat1 (V5 m ρ) c).arrAt_in 2 rfl _).trans (A_eq1 (V5 m ρ) c 2))).trans (W5_arg7 m ρ c)

theorem W7_arg7 (c : Dev nD) : W7 m ρ c (Proc.devRef .tc main_arg7) = m ((c.tc : Thread nD τ).loc main_arg7) :=
  (W7_of_ne m ρ c main_arg7 (by decide)).trans (W6_arg7 m ρ c)

set_option maxHeartbeats 4000000 in
/-- The first three host stretches write no argument. -/
theorem W3_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_simp

theorem W4_arg8 (c : Dev nD) : W4 m ρ c (Proc.devRef .tc main_arg8) = m ((c.tc : Thread nD τ).loc main_arg8) :=
  (W4_of_ne m ρ c main_arg8 (by decide)).trans (W3_arg8 m ρ c)

set_option maxHeartbeats 4000000 in
theorem W5_arg8 (c : Dev nD) : W5 m ρ c (Proc.devRef .tc main_arg8) = m ((c.tc : Thread nD τ).loc main_arg8) := by
  refine Eq.trans ?_ (W4_arg8 m ρ c)
  show StableHlo.after hostOps1 (W4 m ρ c) (Proc.devRef .tc main_arg8) = _
  after_results_simp

theorem W6_arg8 (c : Dev nD) : W6 m ρ c (Proc.devRef .tc main_arg8) = m ((c.tc : Thread nD τ).loc main_arg8) :=
  (W6_of_ne m ρ c main_arg8 (by decide)).trans (W5_arg8 m ρ c)

theorem W7_arg8 (c : Dev nD) : W7 m ρ c (Proc.devRef .tc main_arg8) = m ((c.tc : Thread nD τ).loc main_arg8) :=
  ((W7_arr m ρ c 1).trans (((dat2 (V6 m ρ) c).arrAt_in 1 rfl _).trans (A_eq2 (V6 m ρ) c 1))).trans (W6_arg8 m ρ c)

set_option maxHeartbeats 4000000 in
/-- The first three host stretches write no argument. -/
theorem W3_arg9 (c : Dev nD) : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  after_results_simp

theorem W4_arg9 (c : Dev nD) : W4 m ρ c (Proc.devRef .tc main_arg9) = m ((c.tc : Thread nD τ).loc main_arg9) :=
  (W4_of_ne m ρ c main_arg9 (by decide)).trans (W3_arg9 m ρ c)

set_option maxHeartbeats 4000000 in
theorem W5_arg9 (c : Dev nD) : W5 m ρ c (Proc.devRef .tc main_arg9) = m ((c.tc : Thread nD τ).loc main_arg9) := by
  refine Eq.trans ?_ (W4_arg9 m ρ c)
  show StableHlo.after hostOps1 (W4 m ρ c) (Proc.devRef .tc main_arg9) = _
  after_results_simp

theorem W6_arg9 (c : Dev nD) : W6 m ρ c (Proc.devRef .tc main_arg9) = m ((c.tc : Thread nD τ).loc main_arg9) :=
  (W6_of_ne m ρ c main_arg9 (by decide)).trans (W5_arg9 m ρ c)

theorem W7_arg9 (c : Dev nD) : W7 m ρ c (Proc.devRef .tc main_arg9) = m ((c.tc : Thread nD τ).loc main_arg9) :=
  ((W7_arr m ρ c 2).trans (((dat2 (V6 m ρ) c).arrAt_in 2 rfl _).trans (A_eq2 (V6 m ρ) c 2))).trans (W6_arg9 m ρ c)

end Cert.Kernel.Fr

end
-- ==== Proof.KI_Body0.lean ====
/-
  Launch 0 of the program: what its body leaves in the output window's staging buffer, the body's triple, the
  proof data of the pipeline and the body obligation, all at a parameter `V` — the buffer contents the launch is
  entered from. The body reads its three input blocks whole, multiplies rows by columns into a zero accumulator,
  adds the bias row, clamps at zero and stores the block whole; it also loads the output buffer, a value it never uses.
-/
import proofs.«180556_j46755013984834_1_alg».proof.Proof.Gen.KernelIdeal.Launch
import proofs.«180556_j46755013984834_1_alg».proof.Proof.Gen.KernelIdeal.Skeleton
import proofs.«180556_j46755013984834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window with a
    constant block index is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window with a
    constant block index is fetched once and keeps its block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window with a
    constant block index is fetched once and keeps its block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S5000x512 := Rect.unit (s := S5000x512) ![0, 0] S5000x512.size inb_S5000x512_S5000x512_0_0
abbrev rW0 : Rect S512x128 := Rect.unit (s := S512x128) ![0, 0] S512x128.size inb_S512x128_S512x128_0_0
abbrev rB0 : Rect S128 := Rect.unit (s := S128) ![0] S128.size inb_S128_S128_0
abbrev rO0 : Rect S5000x128 := Rect.unit (s := S5000x128) ![0, 0] S5000x128.size inb_S5000x128_S5000x128_0_0

/-- The output window's staging buffer after the body, from the three input blocks: its one store. -/
def out0 (x0 : Vec F S5000x512 .f32) (x1 : Vec F S512x128 .f32) (x2 : Vec F S128 .f32) : Vec F S5000x128 .f32 :=
  View.canon [⟨rO0, k0_pay1 (View.ld x0 rX0) (View.ld x1 rW0) (View.ld x2 rB0)⟩]

/-- The one store covers the buffer. -/
theorem cover0 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging memrefs: the inputs' contents are read and kept, the output's ends at `out0` of them. -/
theorem sound_kernel0 (c : Dev nD) (E : Set ℕ) (i : grid0.Coords)
    (arg1 : Memref sig .tc .vmem S5000x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The arrays as the launch finds them; after the body at point `t` each input's buffer at its block and the output's
    at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI_Body1.lean ====
/-
  Launch 1 of the program: what its body leaves in the output window's staging buffer, the body's triple, the
  proof data of the pipeline and the body obligation, all at a parameter `V` — the buffer contents the launch is
  entered from. The body reads its three input blocks whole, multiplies rows by columns into a zero accumulator,
  adds the bias row, clamps at zero and stores the block whole; it also loads the output buffer, a value it never uses.
-/
import proofs.«180556_j46755013984834_1_alg».proof.Proof.Gen.KernelIdeal.Launch
import proofs.«180556_j46755013984834_1_alg».proof.Proof.Gen.KernelIdeal.Skeleton
import proofs.«180556_j46755013984834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window with a
    constant block index is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a window with a
    constant block index is fetched once and keeps its block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a window with a
    constant block index is fetched once and keeps its block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S5000x512 := Rect.unit (s := S5000x512) ![0, 0] S5000x512.size inb_S5000x512_S5000x512_0_0
abbrev rW1 : Rect S512x64 := Rect.unit (s := S512x64) ![0, 0] S512x64.size inb_S512x64_S512x64_0_0
abbrev rB1 : Rect S64 := Rect.unit (s := S64) ![0] S64.size inb_S64_S64_0
abbrev rO1 : Rect S5000x64 := Rect.unit (s := S5000x64) ![0, 0] S5000x64.size inb_S5000x64_S5000x64_0_0

/-- The output window's staging buffer after the body, from the three input blocks: its one store. -/
def out1 (x0 : Vec F S5000x512 .f32) (x1 : Vec F S512x64 .f32) (x2 : Vec F S64 .f32) : Vec F S5000x64 .f32 :=
  View.canon [⟨rO1, k1_pay1 (View.ld x0 rX1) (View.ld x1 rW1) (View.ld x2 rB1)⟩]

/-- The one store covers the buffer. -/
theorem cover1 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 1000000 in
/-- The body on whole staging memrefs: the inputs' contents are read and kept, the output's ends at `out1` of them. -/
theorem sound_kernel1 (c : Dev nD) (E : Set ℕ) (i : grid1.Coords)
    (arg1 : Memref sig .tc .vmem S5000x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S5000x64 .f32) (harg4 : arg4.IsWhole)
    (x0 : Vec F S5000x512 .f32) (x1 : Vec F S512x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The arrays as the launch finds them; after the body at point `t` each input's buffer at its block and the output's
    at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI_Body2.lean ====
/-
  Launch 2 of the program: what its body leaves in the output window's staging buffer, the body's triple, the
  proof data of the pipeline and the body obligation, all at a parameter `V` — the buffer contents the launch is
  entered from. The body reads its three input blocks whole, multiplies rows by columns into a zero accumulator,
  adds the bias row and stores the block whole; it also loads the output buffer, a value it never uses.
-/
import proofs.«180556_j46755013984834_1_alg».proof.Proof.Gen.KernelIdeal.Launch
import proofs.«180556_j46755013984834_1_alg».proof.Proof.Gen.KernelIdeal.Skeleton
import proofs.«180556_j46755013984834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window with a
    constant block index is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window with a
    constant block index is fetched once and keeps its block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window with a
    constant block index is fetched once and keeps its block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x64 := Rect.unit (s := S5000x64) ![0, 0] S5000x64.size inb_S5000x64_S5000x64_0_0
abbrev rW2 : Rect S64x10 := Rect.unit (s := S64x10) ![0, 0] S64x10.size inb_S64x10_S64x10_0_0
abbrev rB2 : Rect S10 := Rect.unit (s := S10) ![0] S10.size inb_S10_S10_0
abbrev rO2 : Rect S5000x10 := Rect.unit (s := S5000x10) ![0, 0] S5000x10.size inb_S5000x10_S5000x10_0_0

/-- The output window's staging buffer after the body, from the three input blocks: its one store. -/
def out2 (x0 : Vec F S5000x64 .f32) (x1 : Vec F S64x10 .f32) (x2 : Vec F S10 .f32) : Vec F S5000x10 .f32 :=
  View.canon [⟨rO2, k2_pay1 (View.ld x0 rX2) (View.ld x1 rW2) (View.ld x2 rB2)⟩]

/-- The one store covers the buffer. -/
theorem cover2 (p0 : Vec F S5000x10 .f32) (y : S5000x10.Idx) :
    ∃ pc ∈ ([⟨rO2, p0⟩] : List (View.Piece (Elt F) S5000x10 .f32)), y ∈ pc.1.set :=
  View.cover_of_tiled [⟨rO2, p0⟩] S5000x10.size (by rfl) y

set_option maxHeartbeats 1000000 in
/-- The body on whole staging memrefs: the inputs' contents are read and kept, the output's ends at `out2` of them. -/
theorem sound_kernel2 (c : Dev nD) (E : Set ℕ) (i : grid2.Coords)
    (arg1 : Memref sig .tc .vmem S5000x64 .f32) (harg1 : arg1.IsWhole) (arg2 : Memref sig .tc .vmem S64x10 .f32) (harg2 : arg2.IsWhole)
    (arg3 : Memref sig .tc .vmem S10 .f32) (harg3 : arg3.IsWhole) (arg4 : Memref sig .tc .vmem S5000x10 .f32) (harg4 : arg4.IsWhole)
    (x0 : Vec F S5000x64 .f32) (x1 : Vec F S64x10 .f32) (x2 : Vec F S10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The arrays as the launch finds them; after the body at point `t` each input's buffer at its block and the output's
    at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI_Bounds.lean ====
/-
  The buffer contents at each boundary of the program's run: the launch memory, then a fold through the host
  stretches and the three launches. A host stretch leaves every buffer at the composed value of its operations;
  a launch leaves its own arrays at what its write-backs fold to and every other buffer as it found it.
-/
import proofs.«180556_j46755013984834_1_alg».proof.Proof.KI_Body0
import proofs.«180556_j46755013984834_1_alg».proof.Proof.KI_Body1
import proofs.«180556_j46755013984834_1_alg».proof.Proof.KI_Body2

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the outlined select. -/
abbrev W2 : Dev nD → Valuation τ sig (Elt F) := fun c => StableHlo.after hostOps0_1 (W1 m ρ c)
/-- After the third host stretch: launch 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At launch 0's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch between launches 0 and 1: launch 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At launch 1's exit: launch 2's entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At launch 2's exit: the end of the run. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

end Cert.KernelIdeal.Fr

end
-- ==== Proof.KI_Run.lean ====
/-
  The run of the whole program on the thread state "every unscoped buffer of the core at the boundary's contents, the
  generator register at some state, nothing owed": three host stretches, launch 0, a host stretch, launches 1 and 2, each
  segment entered from what the one before it left. The conclusion reads every unscoped buffer of every core, in any
  final state, at the contents of the last boundary.
-/
import proofs.«180556_j46755013984834_1_alg».proof.Proof.KI_Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines and the thread state -/

/-- No pipeline has a prefetched table: the admissible contents are the trivial ones. -/
abbrev adm : (p : Fin 3) → (pcfgs (F := F) p).Adm := fun p => (cfgs p).toPCfg_adm

/-- Each pipeline's proof data at the contents its launch is entered from: launch 0 after the third host stretch,
    launch 1 after the fourth, launch 2 straight after launch 1. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c

abbrev 𝒱₀ : Variants := Variants.none
/-- No core owes another anything, so no pair carries a level. -/
abbrev L : GSem nD τ sig → Finset Unit := fun _ => ∅
abbrev lv : GSem nD τ sig → Unit → ℕ := fun _ _ => 0

/-- What accompanies the buffers through every segment: the generator register at some state and the core owing nothing. -/
abbrev R (c : Dev nD) : sProp 𝕄 := iprop((∃ r, prngReg c r) ∗ ∃ W, owes (c : Thread nD τ) (0 : CellTallies nD τ sig Unit) W)

/-- A stretch of host operations as a segment over the unscoped buffers held at `W`: it leaves them at the composed
    value of its operations on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

/-- An unscoped reference of the core is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state less the `owes`: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The three launches as segments -/

set_option backward.isDefEq.respectTransparency.types false in
/-- Launch 0 over the thread state: entered with every unscoped buffer at `W3`, left with them at `W4`. Its arrays are
    split out of the unscoped buffers on entry and joined back at their final contents on exit; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W5`, left with them at `W6`. Its arrays are
    split out of the unscoped buffers on entry and joined back at their final contents on exit; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W6`, left with them at `W7`. Its arrays are
    split out of the unscoped buffers on entry and joined back at their final contents on exit; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The seven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ) ]

/-- The program is the run of its segments: it is the chain of its items, which is the segments' run unfolded. -/
theorem main_run (c : Dev nD) : main (F := F) c = Pipeline.Seg.run (segs m ρ) := (main_chain c).trans (by chain_rfl)

set_option backward.isDefEq.respectTransparency.types false in
/-- From any memory with zero counters, every weakly fair execution of the program terminates without fault, and in every
    final state each unscoped buffer of each core holds the last boundary's contents. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Fr

end
-- ==== Proof.KI_Args.lean ====
/-
  The argument arrays at the end of the run are the launch contents: no host operation writes an argument, and a
  launch reads an argument only through an input window, whose array it leaves as it found it.
-/
import proofs.«180556_j46755013984834_1_alg».proof.Proof.KI_Bounds

set_option maxRecDepth 16384

noncomputable section

namespace Cert.KernelIdeal.Fr

open Cert.KernelIdeal Cert.KernelIdeal.Gen
open Idealize.ShloMosaic Idealize.ShloMosaic.TcCoe
open Idealize.SL Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

set_option maxHeartbeats 4000000 in
/-- The first three host stretches write no argument. -/
theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

theorem W4_arg0 (c : Dev nD) : W4 m ρ c (Proc.devRef .tc main_arg0) = m ((c.tc : Thread nD τ).loc main_arg0) :=
  (W4_of_ne m ρ c main_arg0 (by decide)).trans (W3_arg0 m ρ c)

set_option maxHeartbeats 4000000 in
theorem W5_arg0 (c : Dev nD) : W5 m ρ c (Proc.devRef .tc main_arg0) = m ((c.tc : Thread nD τ).loc main_arg0) := by
  refine Eq.trans ?_ (W4_arg0 m ρ c)
  show StableHlo.after hostOps1 (W4 m ρ c) (Proc.devRef .tc main_arg0) = _
  after_results_simp

theorem W6_arg0 (c : Dev nD) : W6 m ρ c (Proc.devRef .tc main_arg0) = m ((c.tc : Thread nD τ).loc main_arg0) :=
  (W6_of_ne m ρ c main_arg0 (by decide)).trans (W5_arg0 m ρ c)

theorem W7_arg0 (c : Dev nD) : W7 m ρ c (Proc.devRef .tc main_arg0) = m ((c.tc : Thread nD τ).loc main_arg0) :=
  (W7_of_ne m ρ c main_arg0 (by decide)).trans (W6_arg0 m ρ c)

set_option maxHeartbeats 4000000 in
/-- The first three host stretches write no argument. -/
theorem W3_arg1 (c : Dev nD) : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results_simp

theorem W4_arg1 (c : Dev nD) : W4 m ρ c (Proc.devRef .tc main_arg1) = m ((c.tc : Thread nD τ).loc main_arg1) :=
  (W4_of_ne m ρ c main_arg1 (by decide)).trans (W3_arg1 m ρ c)

set_option maxHeartbeats 4000000 in
theorem W5_arg1 (c : Dev nD) : W5 m ρ c (Proc.devRef .tc main_arg1) = m ((c.tc : Thread nD τ).loc main_arg1) := by
  refine Eq.trans ?_ (W4_arg1 m ρ c)
  show StableHlo.after hostOps1 (W4 m ρ c) (Proc.devRef .tc main_arg1) = _
  after_results_simp

theorem W6_arg1 (c : Dev nD) : W6 m ρ c (Proc.devRef .tc main_arg1) = m ((c.tc : Thread nD τ).loc main_arg1) :=
  (W6_of_ne m ρ c main_arg1 (by decide)).trans (W5_arg1 m ρ c)

theorem W7_arg1 (c : Dev nD) : W7 m ρ c (Proc.devRef .tc main_arg1) = m ((c.tc : Thread nD τ).loc main_arg1) :=
  (W7_of_ne m ρ c main_arg1 (by decide)).trans (W6_arg1 m ρ c)

set_option maxHeartbeats 4000000 in
/-- The first three host stretches write no argument. -/
theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

theorem W4_arg2 (c : Dev nD) : W4 m ρ c (Proc.devRef .tc main_arg2) = m ((c.tc : Thread nD τ).loc main_arg2) :=
  (W4_of_ne m ρ c main_arg2 (by decide)).trans (W3_arg2 m ρ c)

set_option maxHeartbeats 4000000 in
theorem W5_arg2 (c : Dev nD) : W5 m ρ c (Proc.devRef .tc main_arg2) = m ((c.tc : Thread nD τ).loc main_arg2) := by
  refine Eq.trans ?_ (W4_arg2 m ρ c)
  show StableHlo.after hostOps1 (W4 m ρ c) (Proc.devRef .tc main_arg2) = _
  after_results_simp

theorem W6_arg2 (c : Dev nD) : W6 m ρ c (Proc.devRef .tc main_arg2) = m ((c.tc : Thread nD τ).loc main_arg2) :=
  (W6_of_ne m ρ c main_arg2 (by decide)).trans (W5_arg2 m ρ c)

theorem W7_arg2 (c : Dev nD) : W7 m ρ c (Proc.devRef .tc main_arg2) = m ((c.tc : Thread nD τ).loc main_arg2) :=
  (W7_of_ne m ρ c main_arg2 (by decide)).trans (W6_arg2 m ρ c)

set_option maxHeartbeats 4000000 in
/-- The first three host stretches write no argument. -/
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp

theorem W4_arg3 (c : Dev nD) : W4 m ρ c (Proc.devRef .tc main_arg3) = m ((c.tc : Thread nD τ).loc main_arg3) :=
  ((W4_arr m ρ c 2).trans (((dat0 (V3 m ρ) c).arrAt_in 2 rfl _).trans (A_eq0 (V3 m ρ) c 2))).trans (W3_arg3 m ρ c)

set_option maxHeartbeats 4000000 in
theorem W5_arg3 (c : Dev nD) : W5 m ρ c (Proc.devRef .tc main_arg3) = m ((c.tc : Thread nD τ).loc main_arg3) := by
  refine Eq.trans ?_ (W4_arg3 m ρ c)
  show StableHlo.after hostOps1 (W4 m ρ c) (Proc.devRef .tc main_arg3) = _
  after_results_simp

theorem W6_arg3 (c : Dev nD) : W6 m ρ c (Proc.devRef .tc main_arg3) = m ((c.tc : Thread nD τ).loc main_arg3) :=
  (W6_of_ne m ρ c main_arg3 (by decide)).trans (W5_arg3 m ρ c)

theorem W7_arg3 (c : Dev nD) : W7 m ρ c (Proc.devRef .tc main_arg3) = m ((c.tc : Thread nD τ).loc main_arg3) :=
  (W7_of_ne m ρ c main_arg3 (by decide)).trans (W6_arg3 m ρ c)

set_option maxHeartbeats 4000000 in
/-- The first three host stretches write no argument. -/
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp

theorem W4_arg4 (c : Dev nD) : W4 m ρ c (Proc.devRef .tc main_arg4) = m ((c.tc : Thread nD τ).loc main_arg4) :=
  (W4_of_ne m ρ c main_arg4 (by decide)).trans (W3_arg4 m ρ c)

set_option maxHeartbeats 4000000 in
theorem W5_arg4 (c : Dev nD) : W5 m ρ c (Proc.devRef .tc main_arg4) = m ((c.tc : Thread nD τ).loc main_arg4) := by
  refine Eq.trans ?_ (W4_arg4 m ρ c)
  show StableHlo.after hostOps1 (W4 m ρ c) (Proc.devRef .tc main_arg4) = _
  after_results_simp

theorem W6_arg4 (c : Dev nD) : W6 m ρ c (Proc.devRef .tc main_arg4) = m ((c.tc : Thread nD τ).loc main_arg4) :=
  (W6_of_ne m ρ c main_arg4 (by decide)).trans (W5_arg4 m ρ c)

theorem W7_arg4 (c : Dev nD) : W7 m ρ c (Proc.devRef .tc main_arg4) = m ((c.tc : Thread nD τ).loc main_arg4) :=
  (W7_of_ne m ρ c main_arg4 (by decide)).trans (W6_arg4 m ρ c)

set_option maxHeartbeats 4000000 in
/-- The first three host stretches write no argument. -/
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

theorem W4_arg5 (c : Dev nD) : W4 m ρ c (Proc.devRef .tc main_arg5) = m ((c.tc : Thread nD τ).loc main_arg5) :=
  (W4_of_ne m ρ c main_arg5 (by decide)).trans (W3_arg5 m ρ c)

set_option maxHeartbeats 4000000 in
theorem W5_arg5 (c : Dev nD) : W5 m ρ c (Proc.devRef .tc main_arg5) = m ((c.tc : Thread nD τ).loc main_arg5) := by
  refine Eq.trans ?_ (W4_arg5 m ρ c)
  show StableHlo.after hostOps1 (W4 m ρ c) (Proc.devRef .tc main_arg5) = _
  after_results_simp

theorem W6_arg5 (c : Dev nD) : W6 m ρ c (Proc.devRef .tc main_arg5) = m ((c.tc : Thread nD τ).loc main_arg5) :=
  (W6_of_ne m ρ c main_arg5 (by decide)).trans (W5_arg5 m ρ c)

theorem W7_arg5 (c : Dev nD) : W7 m ρ c (Proc.devRef .tc main_arg5) = m ((c.tc : Thread nD τ).loc main_arg5) :=
  (W7_of_ne m ρ c main_arg5 (by decide)).trans (W6_arg5 m ρ c)

set_option maxHeartbeats 4000000 in
/-- The first three host stretches write no argument. -/
theorem W3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp

theorem W4_arg6 (c : Dev nD) : W4 m ρ c (Proc.devRef .tc main_arg6) = m ((c.tc : Thread nD τ).loc main_arg6) :=
  (W4_of_ne m ρ c main_arg6 (by decide)).trans (W3_arg6 m ρ c)

set_option maxHeartbeats 4000000 in
theorem W5_arg6 (c : Dev nD) : W5 m ρ c (Proc.devRef .tc main_arg6) = m ((c.tc : Thread nD τ).loc main_arg6) := by
  refine Eq.trans ?_ (W4_arg6 m ρ c)
  show StableHlo.after hostOps1 (W4 m ρ c) (Proc.devRef .tc main_arg6) = _
  after_results_simp

theorem W6_arg6 (c : Dev nD) : W6 m ρ c (Proc.devRef .tc main_arg6) = m ((c.tc : Thread nD τ).loc main_arg6) :=
  (W6_of_ne m ρ c main_arg6 (by decide)).trans (W5_arg6 m ρ c)

theorem W7_arg6 (c : Dev nD) : W7 m ρ c (Proc.devRef .tc main_arg6) = m ((c.tc : Thread nD τ).loc main_arg6) :=
  (W7_of_ne m ρ c main_arg6 (by decide)).trans (W6_arg6 m ρ c)

set_option maxHeartbeats 4000000 in
/-- The first three host stretches write no argument. -/
theorem W3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp

theorem W4_arg7 (c : Dev nD) : W4 m ρ c (Proc.devRef .tc main_arg7) = m ((c.tc : Thread nD τ).loc main_arg7) :=
  (W4_of_ne m ρ c main_arg7 (by decide)).trans (W3_arg7 m ρ c)

set_option maxHeartbeats 4000000 in
theorem W5_arg7 (c : Dev nD) : W5 m ρ c (Proc.devRef .tc main_arg7) = m ((c.tc : Thread nD τ).loc main_arg7) := by
  refine Eq.trans ?_ (W4_arg7 m ρ c)
  show StableHlo.after hostOps1 (W4 m ρ c) (Proc.devRef .tc main_arg7) = _
  after_results_simp

theorem W6_arg7 (c : Dev nD) : W6 m ρ c (Proc.devRef .tc main_arg7) = m ((c.tc : Thread nD τ).loc main_arg7) :=
  ((W6_arr m ρ c 2).trans (((dat1 (V5 m ρ) c).arrAt_in 2 rfl _).trans (A_eq1 (V5 m ρ) c 2))).trans (W5_arg7 m ρ c)

theorem W7_arg7 (c : Dev nD) : W7 m ρ c (Proc.devRef .tc main_arg7) = m ((c.tc : Thread nD τ).loc main_arg7) :=
  (W7_of_ne m ρ c main_arg7 (by decide)).trans (W6_arg7 m ρ c)

set_option maxHeartbeats 4000000 in
/-- The first three host stretches write no argument. -/
theorem W3_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_simp

theorem W4_arg8 (c : Dev nD) : W4 m ρ c (Proc.devRef .tc main_arg8) = m ((c.tc : Thread nD τ).loc main_arg8) :=
  (W4_of_ne m ρ c main_arg8 (by decide)).trans (W3_arg8 m ρ c)

set_option maxHeartbeats 4000000 in
theorem W5_arg8 (c : Dev nD) : W5 m ρ c (Proc.devRef .tc main_arg8) = m ((c.tc : Thread nD τ).loc main_arg8) := by
  refine Eq.trans ?_ (W4_arg8 m ρ c)
  show StableHlo.after hostOps1 (W4 m ρ c) (Proc.devRef .tc main_arg8) = _
  after_results_simp

theorem W6_arg8 (c : Dev nD) : W6 m ρ c (Proc.devRef .tc main_arg8) = m ((c.tc : Thread nD τ).loc main_arg8) :=
  (W6_of_ne m ρ c main_arg8 (by decide)).trans (W5_arg8 m ρ c)

theorem W7_arg8 (c : Dev nD) : W7 m ρ c (Proc.devRef .tc main_arg8) = m ((c.tc : Thread nD τ).loc main_arg8) :=
  ((W7_arr m ρ c 1).trans (((dat2 (V6 m ρ) c).arrAt_in 1 rfl _).trans (A_eq2 (V6 m ρ) c 1))).trans (W6_arg8 m ρ c)

set_option maxHeartbeats 4000000 in
/-- The first three host stretches write no argument. -/
theorem W3_arg9 (c : Dev nD) : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  after_results_simp

theorem W4_arg9 (c : Dev nD) : W4 m ρ c (Proc.devRef .tc main_arg9) = m ((c.tc : Thread nD τ).loc main_arg9) :=
  (W4_of_ne m ρ c main_arg9 (by decide)).trans (W3_arg9 m ρ c)

set_option maxHeartbeats 4000000 in
theorem W5_arg9 (c : Dev nD) : W5 m ρ c (Proc.devRef .tc main_arg9) = m ((c.tc : Thread nD τ).loc main_arg9) := by
  refine Eq.trans ?_ (W4_arg9 m ρ c)
  show StableHlo.after hostOps1 (W4 m ρ c) (Proc.devRef .tc main_arg9) = _
  after_results_simp

theorem W6_arg9 (c : Dev nD) : W6 m ρ c (Proc.devRef .tc main_arg9) = m ((c.tc : Thread nD τ).loc main_arg9) :=
  (W6_of_ne m ρ c main_arg9 (by decide)).trans (W5_arg9 m ρ c)

theorem W7_arg9 (c : Dev nD) : W7 m ρ c (Proc.devRef .tc main_arg9) = m ((c.tc : Thread nD τ).loc main_arg9) :=
  ((W7_arr m ρ c 2).trans (((dat2 (V6 m ρ) c).arrAt_in 2 rfl _).trans (A_eq2 (V6 m ρ) c 2))).trans (W6_arg9 m ρ c)

end Cert.KernelIdeal.Fr

end
-- ==== Proof.Frames.lean ====
/-
  The two frames of the kernel's program, at the word-level instance and at the ideal one: the run over the host
  stretches and the three launches ends with every unscoped buffer at the last boundary's contents, and there the
  argument arrays hold what they were launched with.
-/
import proofs.«180556_j46755013984834_1_alg».proof.Defs
import proofs.«180556_j46755013984834_1_alg».proof.Proof.Gen.Kernel
import proofs.«180556_j46755013984834_1_alg».proof.Proof.Gen.KernelIdeal
import proofs.«180556_j46755013984834_1_alg».proof.Proof.Gen.Pre_finite_inputs
import proofs.«180556_j46755013984834_1_alg».proof.Proof.K_Run
import proofs.«180556_j46755013984834_1_alg».proof.Proof.K_Args
import proofs.«180556_j46755013984834_1_alg».proof.Proof.KI_Run
import proofs.«180556_j46755013984834_1_alg».proof.Proof.KI_Args

set_option maxRecDepth 16384

noncomputable section

namespace Cert.Proof

open Idealize.ShloMosaic Idealize.SL.Sem

/-- The program as printed runs to the end, faults nowhere, and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W7_arg0 m ρ c),
      (h c _ (Cert.Kernel.Fr.mem_uc Cert.Kernel.main_arg1 (by decide))).trans (Cert.Kernel.Fr.W7_arg1 m ρ c),
      (h c _ (Cert.Kernel.Fr.mem_uc Cert.Kernel.main_arg2 (by decide))).trans (Cert.Kernel.Fr.W7_arg2 m ρ c),
      (h c _ (Cert.Kernel.Fr.mem_uc Cert.Kernel.main_arg3 (by decide))).trans (Cert.Kernel.Fr.W7_arg3 m ρ c),
      (h c _ (Cert.Kernel.Fr.mem_uc Cert.Kernel.main_arg4 (by decide))).trans (Cert.Kernel.Fr.W7_arg4 m ρ c),
      (h c _ (Cert.Kernel.Fr.mem_uc Cert.Kernel.main_arg5 (by decide))).trans (Cert.Kernel.Fr.W7_arg5 m ρ c),
      (h c _ (Cert.Kernel.Fr.mem_uc Cert.Kernel.main_arg6 (by decide))).trans (Cert.Kernel.Fr.W7_arg6 m ρ c),
      (h c _ (Cert.Kernel.Fr.mem_uc Cert.Kernel.main_arg7 (by decide))).trans (Cert.Kernel.Fr.W7_arg7 m ρ c),
      (h c _ (Cert.Kernel.Fr.mem_uc Cert.Kernel.main_arg8 (by decide))).trans (Cert.Kernel.Fr.W7_arg8 m ρ c),
      (h c _ (Cert.Kernel.Fr.mem_uc Cert.Kernel.main_arg9 (by decide))).trans (Cert.Kernel.Fr.W7_arg9 m ρ c)⟩)
    (Cert.Kernel.Fr.run_main (F := Bits) m ρ)

/-- The same of the program read at the extended reals. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W7_arg0 m ρ c),
      (h c _ (Cert.KernelIdeal.Fr.mem_uc Cert.KernelIdeal.main_arg1 (by decide))).trans (Cert.KernelIdeal.Fr.W7_arg1 m ρ c),
      (h c _ (Cert.KernelIdeal.Fr.mem_uc Cert.KernelIdeal.main_arg2 (by decide))).trans (Cert.KernelIdeal.Fr.W7_arg2 m ρ c),
      (h c _ (Cert.KernelIdeal.Fr.mem_uc Cert.KernelIdeal.main_arg3 (by decide))).trans (Cert.KernelIdeal.Fr.W7_arg3 m ρ c),
      (h c _ (Cert.KernelIdeal.Fr.mem_uc Cert.KernelIdeal.main_arg4 (by decide))).trans (Cert.KernelIdeal.Fr.W7_arg4 m ρ c),
      (h c _ (Cert.KernelIdeal.Fr.mem_uc Cert.KernelIdeal.main_arg5 (by decide))).trans (Cert.KernelIdeal.Fr.W7_arg5 m ρ c),
      (h c _ (Cert.KernelIdeal.Fr.mem_uc Cert.KernelIdeal.main_arg6 (by decide))).trans (Cert.KernelIdeal.Fr.W7_arg6 m ρ c),
      (h c _ (Cert.KernelIdeal.Fr.mem_uc Cert.KernelIdeal.main_arg7 (by decide))).trans (Cert.KernelIdeal.Fr.W7_arg7 m ρ c),
      (h c _ (Cert.KernelIdeal.Fr.mem_uc Cert.KernelIdeal.main_arg8 (by decide))).trans (Cert.KernelIdeal.Fr.W7_arg8 m ρ c),
      (h c _ (Cert.KernelIdeal.Fr.mem_uc Cert.KernelIdeal.main_arg9 (by decide))).trans (Cert.KernelIdeal.Fr.W7_arg9 m ρ c)⟩)
    (Cert.KernelIdeal.Fr.run_main (F := Ideal) m ρ)

end Cert.Proof

end
-- ==== Proof.RefRun.lean ====
/-
  The run of the reference program, read one stretch at a time.

  The program is a straight line of 266 operations on tensor values, each written once. Run from the launch contents, a
  buffer ends at the fold of the operations' results; that fold is read here in thirteen stretches. At each cut between
  stretches a small set of values is still to be read by later operations: the ten arguments and a handful of stages.
  `LiveJ V x0 … x9` says that contents `V` hold, in each such buffer, the stage's value as a function of the arguments'
  contents `x0 … x9`. Each stretch takes the statement at its left cut to the statement at its right cut, from ARBITRARY
  contents satisfying the former, so that no stretch unfolds an earlier one; composing the thirteen steps from the launch
  contents gives the result buffer at the last stage's value and every argument unchanged.
-/
import proofs.«180556_j46755013984834_1_alg».proof.Proof.RefReadP
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- A property of every element of two lists holds of every element of their concatenation. -/
theorem forall_append' {α : Type _} {p : α → Prop} {l₁ l₂ : List α} (h₁ : l₁.Forall p) (h₂ : l₂.Forall p) : (l₁ ++ l₂).Forall p :=
  List.forall_iff_forall_mem.mpr fun a h => (List.mem_append.mp h).elim
    (List.forall_iff_forall_mem.mp h₁ a) (List.forall_iff_forall_mem.mp h₂ a)

/-! ## The operations, in thirteen stretches -/

/-- Operations 0 … 20. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x0DA24260#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select ]
theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem seg1_fresh : (seg1 : List (HloOp τ sig (Elt F))).Forall fun op => op.fresh = ∅ := by
  simp only [List.Forall]; repeat' constructor

/-- Operations 21 … 40. -/
abbrev seg2 : List (HloOp τ sig (Elt F)) :=
  [ nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v21 (broadcastInDim S800000 ![] bcast_S_S800000 : (⟨S_, .i32⟩ : BufTy).Contents (Elt F) → (⟨S800000, .i32⟩ : BufTy).Contents (Elt F)),
    binary main_v3 main_v21 main_v22 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v23 (broadcastInDim S800000 ![] bcast_S_S800000 : (⟨S_, .i32⟩ : BufTy).Contents (Elt F) → (⟨S800000, .i32⟩ : BufTy).Contents (Elt F)),
    binary main_v3 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_v3 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v13 main_v26 main_v27 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v20 main_v27 main_v28 (mulf : (⟨S800000, .f32⟩ : BufTy).Contents (Elt F) → (⟨S800000, .f32⟩ : BufTy).Contents (Elt F) → (⟨S800000, .f32⟩ : BufTy).Contents (Elt F)),
    unary main_v28 main_v29 (Host.negf : (⟨S800000, .f32⟩ : BufTy).Contents (Elt F) → (⟨S800000, .f32⟩ : BufTy).Contents (Elt F)) ]
theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
theorem seg2_fresh : (seg2 : List (HloOp τ sig (Elt F))).Forall fun op => op.fresh = ∅ := by
  simp only [List.Forall]; repeat' constructor

/-- Operations 41 … 59. -/
abbrev seg3 : List (HloOp τ sig (Elt F)) :=
  [ unary main_arg2 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v30 main_v31 rfl shapeCasts_S1x128x128_S128x128,
    binary main_arg0 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v33 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_arg0 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v41 (broadcastInDim S800000x128 ![0, 1] bcast_S800000x1_S800000x128_0_1 : (⟨S800000x1, .f32⟩ : BufTy).Contents (Elt F) → (⟨S800000x128, .f32⟩ : BufTy).Contents (Elt F)),
    binary main_v41 main_v40 main_v42 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem seg3_sub : (seg3 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem seg3_fresh : (seg3 : List (HloOp τ sig (Elt F))).Forall fun op => op.fresh = ∅ := by
  simp only [List.Forall]; repeat' constructor

/-- Operations 60 … 79. -/
abbrev seg4 : List (HloOp τ sig (Elt F)) :=
  [ unary main_arg2 main_v46 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v46 main_v47 rfl shapeCasts_S1x128x128_S128x128,
    binary main_v45 main_v47 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v32 main_v48 main_v49 (addf : (⟨S50000x128, .f32⟩ : BufTy).Contents (Elt F) → (⟨S50000x128, .f32⟩ : BufTy).Contents (Elt F) → (⟨S50000x128, .f32⟩ : BufTy).Contents (Elt F)),
    unary main_v29 main_v50 (broadcastInDim S800000x1 ![0] bcast_S800000_S800000x1_0 : (⟨S800000, .f32⟩ : BufTy).Contents (Elt F) → (⟨S800000x1, .f32⟩ : BufTy).Contents (Elt F)),
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v45 main_v56 main_v57 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v50 main_v58 (broadcastInDim S800000x128 ![0, 1] bcast_S800000x1_S800000x128_0_1 : (⟨S800000x1, .f32⟩ : BufTy).Contents (Elt F) → (⟨S800000x128, .f32⟩ : BufTy).Contents (Elt F)),
    binary main_v58 main_v57 main_v59 (mulf : (⟨S800000x128, .f32⟩ : BufTy).Contents (Elt F) → (⟨S800000x128, .f32⟩ : BufTy).Contents (Elt F) → (⟨S800000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem seg4_sub : (seg4 : List (HloOp τ sig (Elt F))).Forall fun op => op.bufs ⊆ tcRefs τ sig :=
  ⟨unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem seg4_fresh : (seg4 : List (HloOp τ sig (Elt F))).Forall fun op => op.fresh = ∅ := by
  simp only [List.Forall]; repeat' constructor

/-- Operations 80 … 99. -/
abbrev seg5 : List (HloOp τ sig (Elt F)) :=
  [ nullary main_cst_13 (constant S_ .f32 0x40000000#32),
    unary main_cst_13 main_v63 (broadcastInDim S50000x128 ![] bcast_S_S50000x128 : (⟨S_, .f32⟩ : BufTy).Contents (Elt F) → (⟨S50000x128, .f32⟩ : BufTy).Contents (Elt F)),
    binary main_v63 main_v62 main_v64 (mulf : (⟨S50000x128, .f32⟩ : BufTy).Contents (Elt F) → (⟨S50000x128, .f32⟩ : BufTy).Contents (Elt F) → (⟨S50000x128, .f32⟩ : BufTy).Contents (Elt F)),
    binary main_v64 main_arg0 main_v65 (subf : (⟨S50000x128, .f32⟩ : BufTy).Contents (Elt F) → (⟨S50000x128, .f32⟩ : BufTy).Contents (Elt F) → (⟨S50000x128, .f32⟩ : BufTy).Contents (Elt F)),
    unary main_arg2 main_v66 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v68 main_v69 (addf : (⟨S50000x128, .f32⟩ : BufTy).Contents (Elt F) → (⟨S50000x128, .f32⟩ : BufTy).Contents (Elt F) → (⟨S50000x128, .f32⟩ : BufTy).Contents (Elt F)),
    unary main_v29 main_v70 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v65 main_v76 main_v77 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v70 main_v78 (broadcastInDim S800000x128 ![0, 1] bcast_S800000x1_S800000x128_0_1 : (⟨S800000x1, .f32⟩ : BufTy).Contents (Elt F) → (⟨S800000x128, .f32⟩ : BufTy).Contents (Elt F)),
    binary main_v78 main_v77 main_v79 (mulf : (⟨S800000x128, .f32⟩ : BufTy).Contents (Elt F) → (⟨S800000x128, .f32⟩ : BufTy).Contents (Elt F) → (⟨S800000x128, .f32⟩ : BufTy).Contents (Elt F)) ]
theorem seg5_sub : (seg5 : List (HloOp τ sig (Elt F))).Forall fun op => op.bufs ⊆ tcRefs τ sig :=
  ⟨nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩
theorem seg5_fresh : (seg5 : List (HloOp τ sig (Elt F))).Forall fun op => op.fresh = ∅ := by
  simp only [List.Forall]; repeat' constructor

/-- Operations 100 … 117. -/
abbrev seg6 : List (HloOp τ sig (Elt F)) :=
  [ nullary main_cst_16 (constant S_ .f32 0x00000000#32),
    unary main_cst_16 main_v80 (broadcastInDim S50000x128 ![] bcast_S_S50000x128 : (⟨S_, .f32⟩ : BufTy).Contents (Elt F) → (⟨S50000x128, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_17 (constant S_ .f32 0x40000000#32),
    unary main_cst_17 main_v83 (broadcastInDim S50000x128 ![] bcast_S_S50000x128 : (⟨S_, .f32⟩ : BufTy).Contents (Elt F) → (⟨S50000x128, .f32⟩ : BufTy).Contents (Elt F)),
    binary main_v83 main_v82 main_v84 (mulf : (⟨S50000x128, .f32⟩ : BufTy).Contents (Elt F) → (⟨S50000x128, .f32⟩ : BufTy).Contents (Elt F) → (⟨S50000x128, .f32⟩ : BufTy).Contents (Elt F)),
    binary main_v84 main_v45 main_v85 (subf : (⟨S50000x128, .f32⟩ : BufTy).Contents (Elt F) → (⟨S50000x128, .f32⟩ : BufTy).Contents (Elt F) → (⟨S50000x128, .f32⟩ : BufTy).Contents (Elt F)),
    unary main_arg2 main_v86 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v86 main_v87 rfl shapeCasts_S1x128x128_S128x128,
    binary main_v85 main_v87 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v69 main_v88 main_v89 (addf : (⟨S50000x128, .f32⟩ : BufTy).Contents (Elt F) → (⟨S50000x128, .f32⟩ : BufTy).Contents (Elt F) → (⟨S50000x128, .f32⟩ : BufTy).Contents (Elt F)),
    unary main_arg3 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v92) (TRef.of (T := ⟨S50000x128, .f32⟩) main_call1_v0) (TRef.of (T := ⟨S50000x128, .f32⟩) main_v93) maximumf ]
theorem seg6_sub : (seg6 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
theorem seg6_fresh : (seg6 : List (HloOp τ sig (Elt F))).Forall fun op => op.fresh = ∅ := by
  simp only [List.Forall]; repeat' constructor

/-- Operations 118 … 141. -/
abbrev seg7 : List (HloOp τ sig (Elt F)) :=
  [ nullary main_cst_18 (constant S_ .f32 0x00000000#32),
    binary main_v93 main_cst_18 main_v94 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v95 (broadcastInDim S128 ![] bcast_S_S128 : (⟨S_, .f32⟩ : BufTy).Contents (Elt F) → (⟨S128, .f32⟩ : BufTy).Contents (Elt F)),
    binary main_v94 main_v95 main_v96 (Host.divf : (⟨S128, .f32⟩ : BufTy).Contents (Elt F) → (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v93 main_v98 main_v99 (subf : (⟨S50000x128, .f32⟩ : BufTy).Contents (Elt F) → (⟨S50000x128, .f32⟩ : BufTy).Contents (Elt F) → (⟨S50000x128, .f32⟩ : BufTy).Contents (Elt F)),
    binary main_v99 main_v99 main_v100 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v100 main_cst_20 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)),
    unary main_v96 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v93 main_v105 main_v106 (subf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v107 (broadcastInDim S128 ![] bcast_S_S128 : (⟨S_, .f32⟩ : BufTy).Contents (Elt F) → (⟨S128, .f32⟩ : BufTy).Contents (Elt F)),
    binary main_v103 main_v107 main_v108 (addf : (⟨S128, .f32⟩ : BufTy).Contents (Elt F) → (⟨S128, .f32⟩ : BufTy).Contents (Elt F) → (⟨S128, .f32⟩ : BufTy).Contents (Elt F)),
    unary main_v108 main_v109 (Host.rsqrt : (⟨S128, .f32⟩ : BufTy).Contents (Elt F) → (⟨S128, .f32⟩ : BufTy).Contents (Elt F)),
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v106 main_v111 main_v112 (mulf : (⟨S50000x128, .f32⟩ : BufTy).Contents (Elt F) → (⟨S50000x128, .f32⟩ : BufTy).Contents (Elt F) → (⟨S50000x128, .f32⟩ : BufTy).Contents (Elt F)) ]
theorem seg7_sub : (seg7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
theorem seg7_fresh : (seg7 : List (HloOp τ sig (Elt F))).Forall fun op => op.fresh = ∅ := by
  simp only [List.Forall]; repeat' constructor

/-- Operations 142 … 164. -/
abbrev seg8 : List (HloOp τ sig (Elt F)) :=
  [ unary main_arg4 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v112 main_v114 main_v115 (mulf : (⟨S50000x128, .f32⟩ : BufTy).Contents (Elt F) → (⟨S50000x128, .f32⟩ : BufTy).Contents (Elt F) → (⟨S50000x128, .f32⟩ : BufTy).Contents (Elt F)),
    unary main_arg5 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v115 main_v117 main_v118 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3F800000#32),
    unary main_cst_23 main_v119 (broadcastInDim S800000 ![] bcast_S_S800000 : (⟨S_, .f32⟩ : BufTy).Contents (Elt F) → (⟨S800000, .f32⟩ : BufTy).Contents (Elt F)),
    nullary main_cst_24 (constant S_ .f32 0x00000000#32),
    unary main_cst_24 main_v120 (broadcastInDim S50000 ![] bcast_S_S50000 : (⟨S_, .f32⟩ : BufTy).Contents (Elt F) → (⟨S50000, .f32⟩ : BufTy).Contents (Elt F)),
    unary main_v1 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_25 (constant S_ .f32 0x00000000#32),
    unary main_cst_25 main_v123 (broadcastInDim S50000 ![] bcast_S_S50000 : (⟨S_, .f32⟩ : BufTy).Contents (Elt F) → (⟨S50000, .f32⟩ : BufTy).Contents (Elt F)),
    binary main_v122 main_v123 main_v124 (cmpf .ogt : (⟨S50000, .f32⟩ : BufTy).Contents (Elt F) → (⟨S50000, .f32⟩ : BufTy).Contents (Elt F) → (⟨S50000, .i1⟩ : BufTy).Contents (Elt F)),
    nullary main_cst_26 (constant S_ .f32 0x0DA24260#32),
    unary main_cst_26 main_v125 (broadcastInDim S50000 ![] bcast_S_S50000 : (⟨S_, .f32⟩ : BufTy).Contents (Elt F) → (⟨S50000, .f32⟩ : BufTy).Contents (Elt F)),
    binary main_v122 main_v125 main_v126 (maximumf : (⟨S50000, .f32⟩ : BufTy).Contents (Elt F) → (⟨S50000, .f32⟩ : BufTy).Contents (Elt F) → (⟨S50000, .f32⟩ : BufTy).Contents (Elt F)),
    unary main_v126 main_v127 (Host.rsqrt : (⟨S50000, .f32⟩ : BufTy).Contents (Elt F) → (⟨S50000, .f32⟩ : BufTy).Contents (Elt F)),
    nullary main_cst_27 (constant S_ .f32 0x00000000#32),
    TRef.unary (TRef.of (T := ⟨S_, .f32⟩) main_cst_27) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v124) (TRef.of (T := ⟨S50000, .f32⟩) main_v127) (TRef.of (T := ⟨S50000, .f32⟩) main_call2_v1) (TRef.of (T := ⟨S50000, .f32⟩) main_v128) select ]
theorem seg8_sub : (seg8 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem seg8_fresh : (seg8 : List (HloOp τ sig (Elt F))).Forall fun op => op.fresh = ∅ := by
  simp only [List.Forall]; repeat' constructor

/-- Operations 165 … 184. -/
abbrev seg9 : List (HloOp τ sig (Elt F)) :=
  [ nullary main_c_28 (constantI S_ 32 0#32),
    unary main_c_28 main_v129 (broadcastInDim S800000 ![] bcast_S_S800000 : (⟨S_, .i32⟩ : BufTy).Contents (Elt F) → (⟨S800000, .i32⟩ : BufTy).Contents (Elt F)),
    binary main_v1 main_v129 main_v130 (cmpi .slt : (⟨S800000, .i32⟩ : BufTy).Contents (Elt F) → (⟨S800000, .i32⟩ : BufTy).Contents (Elt F) → (⟨S800000, .i1⟩ : BufTy).Contents (Elt F)),
    nullary main_c_29 (constantI S_ 32 50000#32),
    unary main_c_29 main_v131 (broadcastInDim S800000 ![] bcast_S_S800000 : (⟨S_, .i32⟩ : BufTy).Contents (Elt F) → (⟨S800000, .i32⟩ : BufTy).Contents (Elt F)),
    binary main_v1 main_v131 main_v132 (addi : (⟨S800000, .i32⟩ : BufTy).Contents (Elt F) → (⟨S800000, .i32⟩ : BufTy).Contents (Elt F) → (⟨S800000, .i32⟩ : BufTy).Contents (Elt F)),
    ternary main_v130 main_v132 main_v1 main_v133 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v133 main_v134 (broadcastInDim S800000x1 ![0] bcast_S800000_S800000x1_0 : (⟨S800000, .i32⟩ : BufTy).Contents (Elt F) → (⟨S800000x1, .i32⟩ : BufTy).Contents (Elt F)),
    binary main_v128 main_v134 main_v135 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_30 (constantI S_ 32 0#32),
    unary main_c_30 main_v136 (broadcastInDim S800000 ![] bcast_S_S800000 : (⟨S_, .i32⟩ : BufTy).Contents (Elt F) → (⟨S800000, .i32⟩ : BufTy).Contents (Elt F)),
    binary main_v3 main_v136 main_v137 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v138 (broadcastInDim S800000 ![] bcast_S_S800000 : (⟨S_, .i32⟩ : BufTy).Contents (Elt F) → (⟨S800000, .i32⟩ : BufTy).Contents (Elt F)),
    binary main_v3 main_v138 main_v139 (addi : (⟨S800000, .i32⟩ : BufTy).Contents (Elt F) → (⟨S800000, .i32⟩ : BufTy).Contents (Elt F) → (⟨S800000, .i32⟩ : BufTy).Contents (Elt F)),
    ternary main_v137 main_v139 main_v3 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v140 main_v141 (broadcastInDim S800000x1 ![0] bcast_S800000_S800000x1_0 : (⟨S800000, .i32⟩ : BufTy).Contents (Elt F) → (⟨S800000x1, .i32⟩ : BufTy).Contents (Elt F)),
    binary main_v128 main_v141 main_v142 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v135 main_v142 main_v143 (mulf : (⟨S800000, .f32⟩ : BufTy).Contents (Elt F) → (⟨S800000, .f32⟩ : BufTy).Contents (Elt F) → (⟨S800000, .f32⟩ : BufTy).Contents (Elt F)),
    unary main_v143 main_v144 (Host.negf : (⟨S800000, .f32⟩ : BufTy).Contents (Elt F) → (⟨S800000, .f32⟩ : BufTy).Contents (Elt F)) ]
theorem seg9_sub : (seg9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
theorem seg9_fresh : (seg9 : List (HloOp τ sig (Elt F))).Forall fun op => op.fresh = ∅ := by
  simp only [List.Forall]; repeat' constructor

/-- Operations 185 … 203. -/
abbrev seg10 : List (HloOp τ sig (Elt F)) :=
  [ unary main_arg6 main_v145 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v145 main_v146 rfl shapeCasts_S1x128x64_S128x64,
    binary main_v118 main_v146 main_v147 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v144 main_v148 (broadcastInDim S800000x1 ![0] bcast_S800000_S800000x1_0 : (⟨S800000, .f32⟩ : BufTy).Contents (Elt F) → (⟨S800000x1, .f32⟩ : BufTy).Contents (Elt F)),
    nullary main_c_32 (constantI S_ 32 0#32),
    unary main_c_32 main_v149 (broadcastInDim S800000 ![] bcast_S_S800000 : (⟨S_, .i32⟩ : BufTy).Contents (Elt F) → (⟨S800000, .i32⟩ : BufTy).Contents (Elt F)),
    binary main_v1 main_v149 main_v150 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v151 (broadcastInDim S800000 ![] bcast_S_S800000 : (⟨S_, .i32⟩ : BufTy).Contents (Elt F) → (⟨S800000, .i32⟩ : BufTy).Contents (Elt F)),
    binary main_v1 main_v151 main_v152 (addi : (⟨S800000, .i32⟩ : BufTy).Contents (Elt F) → (⟨S800000, .i32⟩ : BufTy).Contents (Elt F) → (⟨S800000, .i32⟩ : BufTy).Contents (Elt F)),
    ternary main_v150 main_v152 main_v1 main_v153 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v153 main_v154 (broadcastInDim S800000x1 ![0] bcast_S800000_S800000x1_0 : (⟨S800000, .i32⟩ : BufTy).Contents (Elt F) → (⟨S800000x1, .i32⟩ : BufTy).Contents (Elt F)),
    binary main_v118 main_v154 main_v155 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v148 main_v156 (broadcastInDim S800000x128 ![0, 1] bcast_S800000x1_S800000x128_0_1 : (⟨S800000x1, .f32⟩ : BufTy).Contents (Elt F) → (⟨S800000x128, .f32⟩ : BufTy).Contents (Elt F)),
    binary main_v156 main_v155 main_v157 (mulf : (⟨S800000x128, .f32⟩ : BufTy).Contents (Elt F) → (⟨S800000x128, .f32⟩ : BufTy).Contents (Elt F) → (⟨S800000x128, .f32⟩ : BufTy).Contents (Elt F)),
    nullary main_cst_34 (constant S_ .f32 0x00000000#32),
    unary main_cst_34 main_v158 (broadcastInDim S50000x128 ![] bcast_S_S50000x128 : (⟨S_, .f32⟩ : BufTy).Contents (Elt F) → (⟨S50000x128, .f32⟩ : BufTy).Contents (Elt F)),
    unary main_v3 main_v159 (broadcastInDim S800000x1 ![0] bcast_S800000_S800000x1_0 : (⟨S800000, .i32⟩ : BufTy).Contents (Elt F) → (⟨S800000x1, .i32⟩ : BufTy).Contents (Elt F)),
    ternary main_v158 main_v159 main_v157 main_v160 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem seg10_sub : (seg10 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem seg10_fresh : (seg10 : List (HloOp τ sig (Elt F))).Forall fun op => op.fresh = ∅ := by
  simp only [List.Forall]; repeat' constructor

/-- Operations 204 … 227. -/
abbrev seg11 : List (HloOp τ sig (Elt F)) :=
  [ unary main_arg6 main_v161 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v161 main_v162 rfl shapeCasts_S1x128x64_S128x64,
    binary main_v160 main_v162 main_v163 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v147 main_v163 main_v164 (addf : (⟨S50000x64, .f32⟩ : BufTy).Contents (Elt F) → (⟨S50000x64, .f32⟩ : BufTy).Contents (Elt F) → (⟨S50000x64, .f32⟩ : BufTy).Contents (Elt F)),
    unary main_v144 main_v165 (broadcastInDim S800000x1 ![0] bcast_S800000_S800000x1_0 : (⟨S800000, .f32⟩ : BufTy).Contents (Elt F) → (⟨S800000x1, .f32⟩ : BufTy).Contents (Elt F)),
    nullary main_c_35 (constantI S_ 32 0#32),
    unary main_c_35 main_v166 (broadcastInDim S800000 ![] bcast_S_S800000 : (⟨S_, .i32⟩ : BufTy).Contents (Elt F) → (⟨S800000, .i32⟩ : BufTy).Contents (Elt F)),
    binary main_v1 main_v166 main_v167 (cmpi .slt : (⟨S800000, .i32⟩ : BufTy).Contents (Elt F) → (⟨S800000, .i32⟩ : BufTy).Contents (Elt F) → (⟨S800000, .i1⟩ : BufTy).Contents (Elt F)),
    nullary main_c_36 (constantI S_ 32 50000#32),
    unary main_c_36 main_v168 (broadcastInDim S800000 ![] bcast_S_S800000 : (⟨S_, .i32⟩ : BufTy).Contents (Elt F) → (⟨S800000, .i32⟩ : BufTy).Contents (Elt F)),
    binary main_v1 main_v168 main_v169 (addi : (⟨S800000, .i32⟩ : BufTy).Contents (Elt F) → (⟨S800000, .i32⟩ : BufTy).Contents (Elt F) → (⟨S800000, .i32⟩ : BufTy).Contents (Elt F)),
    ternary main_v167 main_v169 main_v1 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v170 main_v171 (broadcastInDim S800000x1 ![0] bcast_S800000_S800000x1_0 : (⟨S800000, .i32⟩ : BufTy).Contents (Elt F) → (⟨S800000x1, .i32⟩ : BufTy).Contents (Elt F)),
    binary main_v160 main_v171 main_v172 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v165 main_v173 (broadcastInDim S800000x128 ![0, 1] bcast_S800000x1_S800000x128_0_1 : (⟨S800000x1, .f32⟩ : BufTy).Contents (Elt F) → (⟨S800000x128, .f32⟩ : BufTy).Contents (Elt F)),
    binary main_v173 main_v172 main_v174 (mulf : (⟨S800000x128, .f32⟩ : BufTy).Contents (Elt F) → (⟨S800000x128, .f32⟩ : BufTy).Contents (Elt F) → (⟨S800000x128, .f32⟩ : BufTy).Contents (Elt F)),
    nullary main_cst_37 (constant S_ .f32 0x00000000#32),
    unary main_cst_37 main_v175 (broadcastInDim S50000x128 ![] bcast_S_S50000x128 : (⟨S_, .f32⟩ : BufTy).Contents (Elt F) → (⟨S50000x128, .f32⟩ : BufTy).Contents (Elt F)),
    unary main_v3 main_v176 (broadcastInDim S800000x1 ![0] bcast_S800000_S800000x1_0 : (⟨S800000, .i32⟩ : BufTy).Contents (Elt F) → (⟨S800000x1, .i32⟩ : BufTy).Contents (Elt F)),
    ternary main_v175 main_v176 main_v174 main_v177 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_38 (constant S_ .f32 0x40000000#32),
    unary main_cst_38 main_v178 (broadcastInDim S50000x128 ![] bcast_S_S50000x128 : (⟨S_, .f32⟩ : BufTy).Contents (Elt F) → (⟨S50000x128, .f32⟩ : BufTy).Contents (Elt F)),
    binary main_v178 main_v177 main_v179 (mulf : (⟨S50000x128, .f32⟩ : BufTy).Contents (Elt F) → (⟨S50000x128, .f32⟩ : BufTy).Contents (Elt F) → (⟨S50000x128, .f32⟩ : BufTy).Contents (Elt F)),
    binary main_v179 main_v118 main_v180 (subf : (⟨S50000x128, .f32⟩ : BufTy).Contents (Elt F) → (⟨S50000x128, .f32⟩ : BufTy).Contents (Elt F) → (⟨S50000x128, .f32⟩ : BufTy).Contents (Elt F)) ]
theorem seg11_sub : (seg11 : List (HloOp τ sig (Elt F))).Forall fun op => op.bufs ⊆ tcRefs τ sig :=
  ⟨unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩
theorem seg11_fresh : (seg11 : List (HloOp τ sig (Elt F))).Forall fun op => op.fresh = ∅ := by
  simp only [List.Forall]; repeat' constructor

/-- Operations 228 … 251. -/
abbrev seg12 : List (HloOp τ sig (Elt F)) :=
  [ unary main_arg6 main_v181 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v181 main_v182 rfl shapeCasts_S1x128x64_S128x64,
    binary main_v180 main_v182 main_v183 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v164 main_v183 main_v184 (addf : (⟨S50000x64, .f32⟩ : BufTy).Contents (Elt F) → (⟨S50000x64, .f32⟩ : BufTy).Contents (Elt F) → (⟨S50000x64, .f32⟩ : BufTy).Contents (Elt F)),
    unary main_v144 main_v185 (broadcastInDim S800000x1 ![0] bcast_S800000_S800000x1_0 : (⟨S800000, .f32⟩ : BufTy).Contents (Elt F) → (⟨S800000x1, .f32⟩ : BufTy).Contents (Elt F)),
    nullary main_c_39 (constantI S_ 32 0#32),
    unary main_c_39 main_v186 (broadcastInDim S800000 ![] bcast_S_S800000 : (⟨S_, .i32⟩ : BufTy).Contents (Elt F) → (⟨S800000, .i32⟩ : BufTy).Contents (Elt F)),
    binary main_v1 main_v186 main_v187 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v188 (broadcastInDim S800000 ![] bcast_S_S800000 : (⟨S_, .i32⟩ : BufTy).Contents (Elt F) → (⟨S800000, .i32⟩ : BufTy).Contents (Elt F)),
    binary main_v1 main_v188 main_v189 (addi : (⟨S800000, .i32⟩ : BufTy).Contents (Elt F) → (⟨S800000, .i32⟩ : BufTy).Contents (Elt F) → (⟨S800000, .i32⟩ : BufTy).Contents (Elt F)),
    ternary main_v187 main_v189 main_v1 main_v190 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v190 main_v191 (broadcastInDim S800000x1 ![0] bcast_S800000_S800000x1_0 : (⟨S800000, .i32⟩ : BufTy).Contents (Elt F) → (⟨S800000x1, .i32⟩ : BufTy).Contents (Elt F)),
    binary main_v180 main_v191 main_v192 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v185 main_v193 (broadcastInDim S800000x128 ![0, 1] bcast_S800000x1_S800000x128_0_1 : (⟨S800000x1, .f32⟩ : BufTy).Contents (Elt F) → (⟨S800000x128, .f32⟩ : BufTy).Contents (Elt F)),
    binary main_v193 main_v192 main_v194 (mulf : (⟨S800000x128, .f32⟩ : BufTy).Contents (Elt F) → (⟨S800000x128, .f32⟩ : BufTy).Contents (Elt F) → (⟨S800000x128, .f32⟩ : BufTy).Contents (Elt F)),
    nullary main_cst_41 (constant S_ .f32 0x00000000#32),
    unary main_cst_41 main_v195 (broadcastInDim S50000x128 ![] bcast_S_S50000x128 : (⟨S_, .f32⟩ : BufTy).Contents (Elt F) → (⟨S50000x128, .f32⟩ : BufTy).Contents (Elt F)),
    unary main_v3 main_v196 (broadcastInDim S800000x1 ![0] bcast_S800000_S800000x1_0 : (⟨S800000, .i32⟩ : BufTy).Contents (Elt F) → (⟨S800000x1, .i32⟩ : BufTy).Contents (Elt F)),
    ternary main_v195 main_v196 main_v194 main_v197 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_42 (constant S_ .f32 0x40000000#32),
    unary main_cst_42 main_v198 (broadcastInDim S50000x128 ![] bcast_S_S50000x128 : (⟨S_, .f32⟩ : BufTy).Contents (Elt F) → (⟨S50000x128, .f32⟩ : BufTy).Contents (Elt F)),
    binary main_v198 main_v197 main_v199 (mulf : (⟨S50000x128, .f32⟩ : BufTy).Contents (Elt F) → (⟨S50000x128, .f32⟩ : BufTy).Contents (Elt F) → (⟨S50000x128, .f32⟩ : BufTy).Contents (Elt F)),
    binary main_v199 main_v160 main_v200 (subf : (⟨S50000x128, .f32⟩ : BufTy).Contents (Elt F) → (⟨S50000x128, .f32⟩ : BufTy).Contents (Elt F) → (⟨S50000x128, .f32⟩ : BufTy).Contents (Elt F)) ]
theorem seg12_sub : (seg12 : List (HloOp τ sig (Elt F))).Forall fun op => op.bufs ⊆ tcRefs τ sig :=
  ⟨unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩
theorem seg12_fresh : (seg12 : List (HloOp τ sig (Elt F))).Forall fun op => op.fresh = ∅ := by
  simp only [List.Forall]; repeat' constructor

/-- Operations 252 … 265. -/
abbrev seg13 : List (HloOp τ sig (Elt F)) :=
  [ unary main_arg6 main_v201 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v201 main_v202 rfl shapeCasts_S1x128x64_S128x64,
    binary main_v200 main_v202 main_v203 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v184 main_v203 main_v204 (addf : (⟨S50000x64, .f32⟩ : BufTy).Contents (Elt F) → (⟨S50000x64, .f32⟩ : BufTy).Contents (Elt F) → (⟨S50000x64, .f32⟩ : BufTy).Contents (Elt F)),
    unary main_arg7 main_v205 (broadcastInDim S1x64 ![1] bcast_S64_S1x64_1 : (⟨S64, .f32⟩ : BufTy).Contents (Elt F) → (⟨S1x64, .f32⟩ : BufTy).Contents (Elt F)),
    unary main_v205 main_v206 (broadcastInDim S50000x64 ![0, 1] bcast_S1x64_S50000x64_0_1 : (⟨S1x64, .f32⟩ : BufTy).Contents (Elt F) → (⟨S50000x64, .f32⟩ : BufTy).Contents (Elt F)),
    binary main_v204 main_v206 main_v207 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v207) (TRef.of (T := ⟨S50000x64, .f32⟩) main_call3_v0) (TRef.of (T := ⟨S50000x64, .f32⟩) main_v208) maximumf,
    binary main_v208 main_arg8 main_v209 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    unary main_arg9 main_v210 (broadcastInDim S1x10 ![1] bcast_S10_S1x10_1 : (⟨S10, .f32⟩ : BufTy).Contents (Elt F) → (⟨S1x10, .f32⟩ : BufTy).Contents (Elt F)),
    unary main_v210 main_v211 (broadcastInDim S50000x10 ![0, 1] bcast_S1x10_S50000x10_0_1 : (⟨S1x10, .f32⟩ : BufTy).Contents (Elt F) → (⟨S50000x10, .f32⟩ : BufTy).Contents (Elt F)),
    binary main_v209 main_v211 main_v212 (addf : (⟨S50000x10, .f32⟩ : BufTy).Contents (Elt F) → (⟨S50000x10, .f32⟩ : BufTy).Contents (Elt F) → (⟨S50000x10, .f32⟩ : BufTy).Contents (Elt F)) ]
theorem seg13_sub : (seg13 : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem seg13_fresh : (seg13 : List (HloOp τ sig (Elt F))).Forall fun op => op.fresh = ∅ := by
  simp only [List.Forall]; repeat' constructor

/-! ## The whole line -/

/-- The program's 266 operations, in order. -/
abbrev ops : List (HloOp τ sig (Elt F)) :=
  seg1 ++ (seg2 ++ (seg3 ++ (seg4 ++ (seg5 ++ (seg6 ++ (seg7 ++ (seg8 ++ (seg9 ++ (seg10 ++ (seg11 ++ (seg12 ++ (seg13))))))))))))

set_option maxRecDepth 8192 in
set_option maxHeartbeats 40000000 in
/-- The program is the line of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  forall_append' seg1_sub (forall_append' seg2_sub (forall_append' seg3_sub (forall_append' seg4_sub (forall_append' seg5_sub (forall_append' seg6_sub (forall_append' seg7_sub (forall_append' seg8_sub (forall_append' seg9_sub (forall_append' seg10_sub (forall_append' seg11_sub (forall_append' seg12_sub (seg13_sub))))))))))))
/-- No operation allocates. -/
theorem ops_fresh : (ops : List (HloOp τ sig (Elt F))).Forall fun op => op.fresh = ∅ :=
  forall_append' seg1_fresh (forall_append' seg2_fresh (forall_append' seg3_fresh (forall_append' seg4_fresh (forall_append' seg5_fresh (forall_append' seg6_fresh (forall_append' seg7_fresh (forall_append' seg8_fresh (forall_append' seg9_fresh (forall_append' seg10_fresh (forall_append' seg11_fresh (forall_append' seg12_fresh (seg13_fresh))))))))))))
/-- The line's fold is the stretches' folds, one after the other. -/
theorem after_ops (V : Valuation τ sig (Elt F)) :
    after (ops : List (HloOp τ sig (Elt F))) V = after seg13 (after seg12 (after seg11 (after seg10 (after seg9 (after seg8 (after seg7 (after seg6 (after seg5 (after seg4 (after seg3 (after seg2 (after seg1 (V))))))))))))) := by
  unfold ops; simp only [StableHlo.after_append]

/-! ## What is live at each cut -/

/-- At cut 0 (before operation 0): the arguments. -/
abbrev Live0 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9

/-- At cut 1 (before operation 21): the arguments and the stages `main_v1`, `main_v3`, `main_v13`. -/
abbrev Live1 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v13) = val_main_v13 (F := F) x1

/-- At cut 2 (before operation 41): the arguments and the stages `main_v1`, `main_v3`, `main_v29`. -/
abbrev Live2 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v29) = val_main_v29 (F := F) x1

/-- At cut 3 (before operation 60): the arguments and the stages `main_v1`, `main_v3`, `main_v29`, `main_v32`, `main_v45`. -/
abbrev Live3 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v29) = val_main_v29 (F := F) x1
  ∧ V (Proc.devRef .tc main_v32) = val_main_v32 (F := F) x0 x2
  ∧ V (Proc.devRef .tc main_v45) = val_main_v45 (F := F) x0 x1

/-- At cut 4 (before operation 80): the arguments and the stages `main_v1`, `main_v3`, `main_v29`, `main_v45`, `main_v49`, `main_v62`. -/
abbrev Live4 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v29) = val_main_v29 (F := F) x1
  ∧ V (Proc.devRef .tc main_v45) = val_main_v45 (F := F) x0 x1
  ∧ V (Proc.devRef .tc main_v49) = val_main_v49 (F := F) x0 x1 x2
  ∧ V (Proc.devRef .tc main_v62) = val_main_v62 (F := F) x0 x1

/-- At cut 5 (before operation 100): the arguments and the stages `main_v1`, `main_v3`, `main_v45`, `main_v69`, `main_v79`. -/
abbrev Live5 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v45) = val_main_v45 (F := F) x0 x1
  ∧ V (Proc.devRef .tc main_v69) = val_main_v69 (F := F) x0 x1 x2
  ∧ V (Proc.devRef .tc main_v79) = val_main_v79 (F := F) x0 x1

/-- At cut 6 (before operation 118): the arguments and the stages `main_v1`, `main_v3`, `main_v93`. -/
abbrev Live6 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v93) = val_main_v93 (F := F) x0 x1 x2 x3

/-- At cut 7 (before operation 142): the arguments and the stages `main_v1`, `main_v3`, `main_v112`. -/
abbrev Live7 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v112) = val_main_v112 (F := F) x0 x1 x2 x3

/-- At cut 8 (before operation 165): the arguments and the stages `main_v1`, `main_v3`, `main_v118`, `main_v128`. -/
abbrev Live8 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v118) = val_main_v118 (F := F) x0 x1 x2 x3 x4 x5
  ∧ V (Proc.devRef .tc main_v128) = val_main_v128 (F := F) x1

/-- At cut 9 (before operation 185): the arguments and the stages `main_v1`, `main_v3`, `main_v118`, `main_v144`. -/
abbrev Live9 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v118) = val_main_v118 (F := F) x0 x1 x2 x3 x4 x5
  ∧ V (Proc.devRef .tc main_v144) = val_main_v144 (F := F) x1

/-- At cut 10 (before operation 204): the arguments and the stages `main_v1`, `main_v3`, `main_v118`, `main_v144`, `main_v147`, `main_v160`. -/
abbrev Live10 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v118) = val_main_v118 (F := F) x0 x1 x2 x3 x4 x5
  ∧ V (Proc.devRef .tc main_v144) = val_main_v144 (F := F) x1
  ∧ V (Proc.devRef .tc main_v147) = val_main_v147 (F := F) x0 x1 x2 x3 x4 x5 x6
  ∧ V (Proc.devRef .tc main_v160) = val_main_v160 (F := F) x0 x1 x2 x3 x4 x5

/-- At cut 11 (before operation 228): the arguments and the stages `main_v1`, `main_v3`, `main_v144`, `main_v160`, `main_v164`, `main_v180`. -/
abbrev Live11 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v1) = val_main_v1 (F := F) x1
  ∧ V (Proc.devRef .tc main_v3) = val_main_v3 (F := F) x1
  ∧ V (Proc.devRef .tc main_v144) = val_main_v144 (F := F) x1
  ∧ V (Proc.devRef .tc main_v160) = val_main_v160 (F := F) x0 x1 x2 x3 x4 x5
  ∧ V (Proc.devRef .tc main_v164) = val_main_v164 (F := F) x0 x1 x2 x3 x4 x5 x6
  ∧ V (Proc.devRef .tc main_v180) = val_main_v180 (F := F) x0 x1 x2 x3 x4 x5

/-- At cut 12 (before operation 252): the arguments and the stages `main_v184`, `main_v200`. -/
abbrev Live12 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v184) = val_main_v184 (F := F) x0 x1 x2 x3 x4 x5 x6
  ∧ V (Proc.devRef .tc main_v200) = val_main_v200 (F := F) x0 x1 x2 x3 x4 x5

/-- At cut 13 (before operation 266): the arguments and the stages `main_v212`. -/
abbrev Live13 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_v212) = val_main_v212 (F := F) x0 x1 x2 x3 x4 x5 x6 x7 x8 x9

/-! ## The stretches -/

set_option maxRecDepth 8192 in
set_option maxHeartbeats 40000000 in
/-- Stretch 1: operations 0 … 20. -/
theorem step1 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live0 V x0 x1 x2 x3 x4 x5 x6 x7 x8 x9) : Live1 (after seg1 V) x0 x1 x2 x3 x4 x5 x6 x7 x8 x9 := by
  obtain ⟨h_arg0, h_arg1, h_arg2, h_arg3, h_arg4, h_arg5, h_arg6, h_arg7, h_arg8, h_arg9⟩ := h
  refine ⟨?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; (try simp only [h_arg1]); rfl
  · after_results_simp; (try simp only [h_arg1]); rfl
  · after_results_simp; (try simp only [h_arg1]); rfl

set_option maxRecDepth 8192 in
set_option maxHeartbeats 40000000 in
/-- Stretch 2: operations 21 … 40. -/
theorem step2 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live1 V x0 x1 x2 x3 x4 x5 x6 x7 x8 x9) : Live2 (after seg2 V) x0 x1 x2 x3 x4 x5 x6 x7 x8 x9 := by
  obtain ⟨h_arg0, h_arg1, h_arg2, h_arg3, h_arg4, h_arg5, h_arg6, h_arg7, h_arg8, h_arg9, h_v1, h_v3, h_v13⟩ := h
  refine ⟨?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; (try simp only [h_v1, h_v13, h_v3]); rfl

set_option maxRecDepth 8192 in
set_option maxHeartbeats 40000000 in
/-- Stretch 3: operations 41 … 59. -/
theorem step3 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live2 V x0 x1 x2 x3 x4 x5 x6 x7 x8 x9) : Live3 (after seg3 V) x0 x1 x2 x3 x4 x5 x6 x7 x8 x9 := by
  obtain ⟨h_arg0, h_arg1, h_arg2, h_arg3, h_arg4, h_arg5, h_arg6, h_arg7, h_arg8, h_arg9, h_v1, h_v3, h_v29⟩ := h
  refine ⟨?_, ?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v29
  · after_results_simp; (try simp only [h_arg2, h_arg0, h_v29, h_v1, h_v3]); rfl
  · after_results_simp; (try simp only [h_arg2, h_arg0, h_v29, h_v1, h_v3]); rfl

set_option maxRecDepth 8192 in
set_option maxHeartbeats 40000000 in
/-- Stretch 4: operations 60 … 79. -/
theorem step4 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live3 V x0 x1 x2 x3 x4 x5 x6 x7 x8 x9) : Live4 (after seg4 V) x0 x1 x2 x3 x4 x5 x6 x7 x8 x9 := by
  obtain ⟨h_arg0, h_arg1, h_arg2, h_arg3, h_arg4, h_arg5, h_arg6, h_arg7, h_arg8, h_arg9, h_v1, h_v3, h_v29, h_v32, h_v45⟩ := h
  refine ⟨?_, ?_, ?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v29
  · after_results_simp; exact h_v45
  · after_results_simp; (try simp only [h_arg2, h_v45, h_v32, h_v29, h_v1, h_v3]); rfl
  · after_results_simp; (try simp only [h_arg2, h_v45, h_v32, h_v29, h_v1, h_v3]); rfl

set_option maxRecDepth 8192 in
set_option maxHeartbeats 40000000 in
/-- Stretch 5: operations 80 … 99. -/
theorem step5 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live4 V x0 x1 x2 x3 x4 x5 x6 x7 x8 x9) : Live5 (after seg5 V) x0 x1 x2 x3 x4 x5 x6 x7 x8 x9 := by
  obtain ⟨h_arg0, h_arg1, h_arg2, h_arg3, h_arg4, h_arg5, h_arg6, h_arg7, h_arg8, h_arg9, h_v1, h_v3, h_v29, h_v45, h_v49, h_v62⟩ := h
  refine ⟨?_, ?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v45
  · after_results_simp; (try simp only [h_v62, h_arg0, h_arg2, h_v49, h_v29, h_v1]); rfl
  · after_results_simp; (try simp only [h_v62, h_arg0, h_arg2, h_v49, h_v29, h_v1]); rfl

set_option maxRecDepth 8192 in
set_option maxHeartbeats 40000000 in
/-- Stretch 6: operations 100 … 117. -/
theorem step6 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live5 V x0 x1 x2 x3 x4 x5 x6 x7 x8 x9) : Live6 (after seg6 V) x0 x1 x2 x3 x4 x5 x6 x7 x8 x9 := by
  obtain ⟨h_arg0, h_arg1, h_arg2, h_arg3, h_arg4, h_arg5, h_arg6, h_arg7, h_arg8, h_arg9, h_v1, h_v3, h_v45, h_v69, h_v79⟩ := h
  refine ⟨?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; (try simp only [h_v3, h_v79, h_v45, h_arg2, h_v69, h_arg3]); rfl

set_option maxRecDepth 8192 in
set_option maxHeartbeats 40000000 in
/-- Stretch 7: operations 118 … 141. -/
theorem step7 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live6 V x0 x1 x2 x3 x4 x5 x6 x7 x8 x9) : Live7 (after seg7 V) x0 x1 x2 x3 x4 x5 x6 x7 x8 x9 := by
  obtain ⟨h_arg0, h_arg1, h_arg2, h_arg3, h_arg4, h_arg5, h_arg6, h_arg7, h_arg8, h_arg9, h_v1, h_v3, h_v93⟩ := h
  refine ⟨?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; (try simp only [h_v93]); rfl

set_option maxRecDepth 8192 in
set_option maxHeartbeats 40000000 in
/-- Stretch 8: operations 142 … 164. -/
theorem step8 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live7 V x0 x1 x2 x3 x4 x5 x6 x7 x8 x9) : Live8 (after seg8 V) x0 x1 x2 x3 x4 x5 x6 x7 x8 x9 := by
  obtain ⟨h_arg0, h_arg1, h_arg2, h_arg3, h_arg4, h_arg5, h_arg6, h_arg7, h_arg8, h_arg9, h_v1, h_v3, h_v112⟩ := h
  refine ⟨?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; (try simp only [h_arg4, h_v112, h_arg5, h_v1]); rfl
  · after_results_simp; (try simp only [h_arg4, h_v112, h_arg5, h_v1]); rfl

set_option maxRecDepth 8192 in
set_option maxHeartbeats 40000000 in
/-- Stretch 9: operations 165 … 184. -/
theorem step9 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live8 V x0 x1 x2 x3 x4 x5 x6 x7 x8 x9) : Live9 (after seg9 V) x0 x1 x2 x3 x4 x5 x6 x7 x8 x9 := by
  obtain ⟨h_arg0, h_arg1, h_arg2, h_arg3, h_arg4, h_arg5, h_arg6, h_arg7, h_arg8, h_arg9, h_v1, h_v3, h_v118, h_v128⟩ := h
  refine ⟨?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v118
  · after_results_simp; (try simp only [h_v1, h_v128, h_v3]); rfl

set_option maxRecDepth 8192 in
set_option maxHeartbeats 40000000 in
/-- Stretch 10: operations 185 … 203. -/
theorem step10 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live9 V x0 x1 x2 x3 x4 x5 x6 x7 x8 x9) : Live10 (after seg10 V) x0 x1 x2 x3 x4 x5 x6 x7 x8 x9 := by
  obtain ⟨h_arg0, h_arg1, h_arg2, h_arg3, h_arg4, h_arg5, h_arg6, h_arg7, h_arg8, h_arg9, h_v1, h_v3, h_v118, h_v144⟩ := h
  refine ⟨?_, ?_, ?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v118
  · after_results_simp; exact h_v144
  · after_results_simp; (try simp only [h_arg6, h_v118, h_v144, h_v1, h_v3]); rfl
  · after_results_simp; (try simp only [h_arg6, h_v118, h_v144, h_v1, h_v3]); rfl

set_option maxRecDepth 8192 in
set_option maxHeartbeats 40000000 in
/-- Stretch 11: operations 204 … 227. -/
theorem step11 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live10 V x0 x1 x2 x3 x4 x5 x6 x7 x8 x9) : Live11 (after seg11 V) x0 x1 x2 x3 x4 x5 x6 x7 x8 x9 := by
  obtain ⟨h_arg0, h_arg1, h_arg2, h_arg3, h_arg4, h_arg5, h_arg6, h_arg7, h_arg8, h_arg9, h_v1, h_v3, h_v118, h_v144, h_v147, h_v160⟩ := h
  refine ⟨?_, ?_, ?_, ?_, ?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; exact h_v1
  · after_results_simp; exact h_v3
  · after_results_simp; exact h_v144
  · after_results_simp; exact h_v160
  · after_results_simp; (try simp only [h_arg6, h_v160, h_v147, h_v144, h_v1, h_v3, h_v118]); rfl
  · after_results_simp; (try simp only [h_arg6, h_v160, h_v147, h_v144, h_v1, h_v3, h_v118]); rfl

set_option maxRecDepth 8192 in
set_option maxHeartbeats 40000000 in
/-- Stretch 12: operations 228 … 251. -/
theorem step12 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live11 V x0 x1 x2 x3 x4 x5 x6 x7 x8 x9) : Live12 (after seg12 V) x0 x1 x2 x3 x4 x5 x6 x7 x8 x9 := by
  obtain ⟨h_arg0, h_arg1, h_arg2, h_arg3, h_arg4, h_arg5, h_arg6, h_arg7, h_arg8, h_arg9, h_v1, h_v3, h_v144, h_v160, h_v164, h_v180⟩ := h
  refine ⟨?_, ?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; (try simp only [h_arg6, h_v180, h_v164, h_v144, h_v1, h_v3, h_v160]); rfl
  · after_results_simp; (try simp only [h_arg6, h_v180, h_v164, h_v144, h_v1, h_v3, h_v160]); rfl

set_option maxRecDepth 8192 in
set_option maxHeartbeats 40000000 in
/-- Stretch 13: operations 252 … 265. -/
theorem step13 (V : Valuation τ sig (Elt F)) (x0 : (⟨S50000x128, .f32⟩ : BufTy).Contents (Elt F)) (x1 : (⟨S2x800000, .i32⟩ : BufTy).Contents (Elt F)) (x2 : (⟨S4x128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S4x128x64, .f32⟩ : BufTy).Contents (Elt F)) (x7 : (⟨S64, .f32⟩ : BufTy).Contents (Elt F)) (x8 : (⟨S64x10, .f32⟩ : BufTy).Contents (Elt F)) (x9 : (⟨S10, .f32⟩ : BufTy).Contents (Elt F))
    (h : Live12 V x0 x1 x2 x3 x4 x5 x6 x7 x8 x9) : Live13 (after seg13 V) x0 x1 x2 x3 x4 x5 x6 x7 x8 x9 := by
  obtain ⟨h_arg0, h_arg1, h_arg2, h_arg3, h_arg4, h_arg5, h_arg6, h_arg7, h_arg8, h_arg9, h_v184, h_v200⟩ := h
  refine ⟨?_, ?_, ?_, ?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp; exact h_arg7
  · after_results_simp; exact h_arg8
  · after_results_simp; exact h_arg9
  · after_results_simp; (try simp only [h_arg6, h_v200, h_v184, h_arg7, h_arg8, h_arg9]); rfl

/-! ## The run -/

/-- The line's fold from the launch contents holds the last stage's value in the result buffer and every argument as launched. -/
theorem live_end (m : (ℓ : Loc nD τ sig) → Buf (Elt F) ℓ) (c : Dev nD) :
    Live13 (after (ops : List (HloOp τ sig (Elt F))) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have L0 : Live0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := ⟨rfl, rfl, rfl, rfl, rfl, rfl, rfl, rfl, rfl, rfl⟩
  have L1 := step1 _ _ _ _ _ _ _ _ _ _ _ L0
  have L2 := step2 _ _ _ _ _ _ _ _ _ _ _ L1
  have L3 := step3 _ _ _ _ _ _ _ _ _ _ _ L2
  have L4 := step4 _ _ _ _ _ _ _ _ _ _ _ L3
  have L5 := step5 _ _ _ _ _ _ _ _ _ _ _ L4
  have L6 := step6 _ _ _ _ _ _ _ _ _ _ _ L5
  have L7 := step7 _ _ _ _ _ _ _ _ _ _ _ L6
  have L8 := step8 _ _ _ _ _ _ _ _ _ _ _ L7
  have L9 := step9 _ _ _ _ _ _ _ _ _ _ _ L8
  have L10 := step10 _ _ _ _ _ _ _ _ _ _ _ L9
  have L11 := step11 _ _ _ _ _ _ _ _ _ _ _ L10
  have L12 := step12 _ _ _ _ _ _ _ _ _ _ _ L11
  have L13 := step13 _ _ _ _ _ _ _ _ _ _ _ L12
  rw [after_ops]; exact L13

/-- On every device, for any float values, from any memory with zero counters: every weakly fair execution of the program
    terminates, the result buffer at the last stage's value of the arguments' launch contents, the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v212) = val_main_v212 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨a0, a1, a2, a3, a4, a5, a6, a7, a8, a9, hv⟩ := live_end (F := F) m c
      exact ⟨(h c main_v212).trans hv, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9⟩)
    (run_seq scopedRefs_eq scopedSems_eq defs main (fun _ => ops) main_eq (fun _ => ops_sub) m ρ
      (fun _ => List.forall_iff_forall_mem.mp ops_fresh))

end Cert.ReferenceIdeal.Line

end
-- ==== Proof.RefFrame.lean ====
/-
  The reference is a straight line of host operations: its run ends, faults nowhere, and writes no argument.
-/
import proofs.«180556_j46755013984834_1_alg».proof.Defs
import proofs.«180556_j46755013984834_1_alg».proof.Proof.Gen.ReferenceIdeal
import proofs.«180556_j46755013984834_1_alg».proof.Proof.RefRun
import proofs.«180556_j46755013984834_1_alg».proof.Proof.Gen.Pre_finite_inputs

noncomputable section

namespace Cert.Proof

open Idealize.ShloMosaic Idealize.SL.Sem

/-- Every weakly fair execution of the reference ends with its argument arrays as launched: its run with the
    result dropped. -/
theorem frame_ri : Cert.frame_ReferenceIdeal := fun m ρ _ =>
  (θ_run Cert.ReferenceIdeal.defs _ _).mono (fun _ h c => (h c).2) (Cert.ReferenceIdeal.Line.ref_run (F := Ideal) m ρ)

end Cert.Proof

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«180556_j46755013984834_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.Spec.lean ====
/-
  The dense layers the three launches compute, as whole-array functions on the extended reals.

  `dense X W b` is rows times columns plus a bias vector: entry (r, c) is the sum over k of X (r, k) * W (k, c),
  plus b c. `denseRelu` clamps it at zero from below. Each launch computes such a layer block of rows by
  block of rows; the reference computes the first two as four products of 128 columns each, added up.
-/
import proofs.«180556_j46755013984834_1_alg».proof.Proof.LibMatProd

noncomputable section

namespace Cert.Spec

open Idealize.ShloMosaic Idealize.ShloMosaic.ValueIdx

/-- Rows times columns plus a bias vector repeated over the rows. -/
def dense {M K N : ℕ} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => Cert.Lib.MatProd.prod X W j + b (ix1 (j 1))

/-- The same, clamped at zero from below. -/
def denseRelu {M K N : ℕ} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => max (dense X W b j) 0

theorem dense_apply {M K N : ℕ} (X : (⟨2, ![M, K]⟩ : Shape).Idx → EReal) (W : (⟨2, ![K, N]⟩ : Shape).Idx → EReal)
    (b : (⟨1, ![N]⟩ : Shape).Idx → EReal) (r : Fin M) (c : Fin N) :
    dense X W b (ix2 r c) = (∑ k : Fin K, X (ix2 r k) * W (ix2 k c)) + b (ix1 c) := rfl

theorem denseRelu_apply {M K N : ℕ} (X : (⟨2, ![M, K]⟩ : Shape).Idx → EReal) (W : (⟨2, ![K, N]⟩ : Shape).Idx → EReal)
    (b : (⟨1, ![N]⟩ : Shape).Idx → EReal) (r : Fin M) (c : Fin N) :
    denseRelu X W b (ix2 r c) = max ((∑ k : Fin K, X (ix2 r k) * W (ix2 k c)) + b (ix1 c)) 0 := rfl

end Cert.Spec

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«180556_j46755013984834_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibMlpLayers.lean ====
/-
  The layers of a small perceptron as a kernel body prints them, read at an entry on the extended reals.

  A kernel loads a layer's bias as a vector `[N]`, casts it to the one row `[1, N]` and broadcasts that row over the
  `M` rows of a `tpu.matmul` into the zero accumulator. Read at `(p, c)` the sum is over the contracted coordinate of
  left `(p, k)` times right `(k, c)`, plus the bias at `c` (`Cert.Lib.DenseLayer.layer_apply`, which this file
  imports, with the cast of the vector to a row read back): `linear_apply`; under `math.tanh`: `tanh_layer_apply`.
  A read-out layer has ONE output column: its matmul is `[M, K] × [K, 1]`, two scalars `[1]` are each cast to
  `[1, 1]`, broadcast down the column and added, and the column `[M, 1]` is cast to the vector `[M]`; read at `p` it is
  the sum over `k` of left `(p, k)` times right `(k, 0)`, plus the first scalar, plus the second: `readout_apply`.
  `shapeCast_a1_a_apply` is the cast of a column to a vector read at an index. Every statement takes the
  contraction record through the six facts of a plain matrix product, each decidable at a literal record, and the
  operands at any float formats (a change of format is the identity on the extended reals).
-/
import proofs.«180556_j46755013984834_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.MlpLayers

open Idealize.ShloMosaic Idealize.ShloMosaic.ValueIdx

/-- A column `[a, 1]` cast to the vector `[a]` reads, at `i`, the column at `(i, 0)`: the two indices have the same
    row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A matmul into the zero accumulator plus a bias VECTOR `[N]` (cast to a row, the row broadcast over the rows),
    read at `(p, c)`: the sum over the contracted coordinate, plus the vector at `c`. -/
theorem linear_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    addf (matmul D none L R (constant (F := Ideal) ⟨2, ![M, N]⟩ .f32 0x00000000#32))
        (broadcastTo ⟨2, ![M, N]⟩ (shapeCast ⟨2, ![1, N]⟩ b hc) hb) (ix2 p c)
      = (∑ k : Fin K, L (ix2 p k) * R (ix2 k c)) + b (ix1 c) := by
  rw [Cert.Lib.DenseLayer.layer_apply D hr hs hl0 hl1 hr0 hr1 L R _ hb p c, shapeCast_a_1a_apply]

/-- The same under `math.tanh`: a hidden unit. -/
theorem tanh_layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    tanh (addf (matmul D none L R (constant (F := Ideal) ⟨2, ![M, N]⟩ .f32 0x00000000#32))
        (broadcastTo ⟨2, ![M, N]⟩ (shapeCast ⟨2, ![1, N]⟩ b hc) hb)) (ix2 p c)
      = Ideal.tanh ((∑ k : Fin K, L (ix2 p k) * R (ix2 k c)) + b (ix1 c)) :=
  congrArg Ideal.tanh (linear_apply D hr hs hl0 hl1 hr0 hr1 L R b hc hb p c)

/-- A read-out: a matmul `[M, K] × [K, 1]` into zero, plus two scalars `[1]` each cast to `[1, 1]` and broadcast
    down the column, the column cast to the vector `[M]`; read at `p`: the sum over the contracted coordinate of left
    `(p, k)` times right `(k, 0)`, plus the first scalar, plus the second. -/
theorem readout_apply {M K : ℕ} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    {φ₁ φ₂ : FTy} (L : FVec Ideal ⟨2, ![M, K]⟩ φ₁) (R : FVec Ideal ⟨2, ![K, 1]⟩ φ₂)
    (b s : FVec Ideal ⟨1, ![1]⟩ .f32) (hc : (⟨1, ![1]⟩ : Shape).ShapeCasts ⟨2, ![1, 1]⟩)
    (hb : (⟨2, ![1, 1]⟩ : Shape).Broadcasts ⟨2, ![M, 1]⟩) (hv : (⟨2, ![M, 1]⟩ : Shape).ShapeCasts ⟨1, ![M]⟩)
    (p : Fin M) :
    shapeCast ⟨1, ![M]⟩ (addf (addf (matmul D none L R (constant (F := Ideal) ⟨2, ![M, 1]⟩ .f32 0x00000000#32))
        (broadcastTo ⟨2, ![M, 1]⟩ (shapeCast ⟨2, ![1, 1]⟩ b hc) hb))
        (broadcastTo ⟨2, ![M, 1]⟩ (shapeCast ⟨2, ![1, 1]⟩ s hc) hb)) hv (ix1 p)
      = (∑ k : Fin K, L (ix2 p k) * R (ix2 k (0 : Fin 1))) + b (ix1 (0 : Fin 1)) + s (ix1 (0 : Fin 1)) := by
  rw [shapeCast_a1_a_apply, addf_apply, linear_apply D hr hs hl0 hl1 hr0 hr1 L R b hc hb p 0,
    broadcastTo_1b_ab_apply, shapeCast_a_1a_apply]

end Cert.Lib.MlpLayers

end
-- ==== Proof.KI_Val0.lean ====
/-
  Launch 0 of the program at the ideal values: the array its output window ends holding, as one function of the
  three arrays it reads. The body computes, block of 5000 rows by block of 5000 rows, rows times columns plus the bias
  vector, clamped at zero from below; the ten blocks tile the 50000 rows, so the array ends at the whole layer.
-/
import proofs.«180556_j46755013984834_1_alg».proof.Proof.KI_Body0
import proofs.«180556_j46755013984834_1_alg».proof.Proof.Spec
import proofs.«180556_j46755013984834_1_alg».proof.Proof.LibMatProd
import proofs.«180556_j46755013984834_1_alg».proof.Proof.LibMlpLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-! ## The body's arithmetic at an entry -/

/-- Entry (p, q) of what the body stores: the sum over k of left (p, k) times right (k, q), plus the bias at q,
    clamped at zero from below. -/
theorem pay0_apply (x0 : Vec Ideal S5000x512 .f32) (x1 : Vec Ideal S512x128 .f32) (x2 : Vec Ideal S128 .f32)
    (p : Fin 5000) (q : Fin 128) :
    k0_pay1 x0 x1 x2 (ix2 p q) = max ((∑ k : Fin 512, x0 (ix2 p k) * x1 (ix2 k q)) + x2 (ix1 q)) 0 := by
  unfold k0_pay1
  simp only [shapeCast_self]
  rw [maximumf_apply, Cert.Lib.MlpLayers.linear_apply dot_S5000x512_S512x128_S5000x128_1_0_0_1_n_n rfl rfl (fun _ _ => rfl)
    (fun _ _ => rfl) (fun _ _ => rfl) (fun _ _ => rfl) x0 x1 x2 shapeCasts_S128_S1x128 broadcasts_S1x128_S5000x128 p q, broadcast_apply]
  show max _ (Ideal.ofBits .f32 0x00000000#32) = _
  rw [Ideal.ofBits_zero_f32]

/-! ## Where the blocks sit -/

theorem zero2_0 : (![0, 0] : Fin 2 → Nat) = fun _ => 0 := funext fun a => by fin_cases a <;> rfl
theorem zero1_0 : (![0] : Fin 1 → Nat) = fun _ => 0 := funext fun a => by fin_cases a <;> rfl

/-- The block indices over the grid: the left operand's and the output's blocks move down the rows with the point, the
    right operand and the bias are one block each. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The left operand's block at point t, read at (p, k), is the array at (5000 t + p, k). -/
theorem left_block0 (c : Dev nD) (t : Fin cfg0.N) (p : Fin 5000) (k : Fin 512) (h : t.val * 5000 + p.val < 50000) :
    (iblk0 V c 0 t : Vec Ideal S5000x512 .f32) (ix2 p k)
      = (V c main_v75 : S50000x512.Idx → EReal) (ix2 ⟨t.val * 5000 + p.val, h⟩ k) := by
  obtain ⟨e0, e1, -⟩ := block_index0 t
  unfold iblk0
  rw [View.read_apply]
  show V c main_v75 _ = V c main_v75 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 512 + 1 * k.val = k.val; rw [e1]; omega

/-- The right operand's block at any point is the array. -/
theorem right_block0 (c : Dev nD) (t : Fin cfg0.N) (k : Fin 512) (q : Fin 128) :
    (iblk0 V c 1 t : Vec Ideal S512x128 .f32) (ix2 k q) = (V c main_v76 : S512x128.Idx → EReal) (ix2 k q) := by
  obtain ⟨-, -, e0, e1, -⟩ := block_index0 t
  unfold iblk0
  rw [View.read_apply]
  show V c main_v76 _ = V c main_v76 _
  congr 1
  funext a
  apply Fin.ext
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- The bias's block at any point is the vector. -/
theorem bias_block0 (c : Dev nD) (t : Fin cfg0.N) (q : Fin 128) :
    (iblk0 V c 2 t : Vec Ideal S128 .f32) (ix1 q) = (V c main_arg3 : S128.Idx → EReal) (ix1 q) := by
  obtain ⟨-, -, -, -, e0, -⟩ := block_index0 t
  unfold iblk0
  rw [View.read_apply]
  show V c main_arg3 _ = V c main_arg3 _
  congr 1
  funext a
  apply Fin.ext
  match a with
  | ⟨0, _⟩ => show win0_2.index t (0 : Fin 1) * 128 + 1 * q.val = q.val; rw [e0]; omega

/-! ## One point's block of the layer -/

/-- The layer of the three arrays the launch reads. -/
abbrev layer0 (c : Dev nD) : S50000x128.Idx → EReal :=
  Cert.Spec.denseRelu (M := 50000) (K := 512) (N := 128) (V c main_v75) (V c main_v76) (V c main_arg3)

/-- What point t's body stores, read at y, is the layer at row 5000 t + y 0, column y 1. -/
theorem stored0 (c : Dev nD) (t : Fin cfg0.N) (y : S5000x128.Idx) (i : S50000x128.Idx)
    (h0 : (i 0).val = t.val * 5000 + (y 0).val) (h1 : (i 1).val = (y 1).val) :
    k0_pay1 (iblk0 V c 0 t) (iblk0 V c 1 t) (iblk0 V c 2 t) y = layer0 V c i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : t.val * 5000 + p.val < 50000 := by have := r.isLt; have e : r.val = t.val * 5000 + p.val := h0; omega
  obtain rfl : r = ⟨t.val * 5000 + p.val, hr⟩ := Fin.ext h0
  obtain rfl : s = q := Fin.ext h1
  rw [pay0_apply]
  show _ = Cert.Spec.denseRelu (M := 50000) (K := 512) (N := 128) (V c main_v75) (V c main_v76) (V c main_arg3) (ix2 ⟨t.val * 5000 + p.val, hr⟩ s)
  rw [Cert.Spec.denseRelu_apply, bias_block0 V c t s]
  congr 2
  exact Finset.sum_congr rfl fun k _ => by rw [left_block0 V c t p k hr, right_block0 V c t k s]

/-- WHAT POINT t WRITES BACK is its block of the layer. -/
theorem flushed0_eq (c : Dev nD) (t : Fin cfg0.N) :
    (dat0 (F := Ideal) V c).flushed 3 t = ((cfg0.win 3).blk t).view.read (Elt Ideal) (layer0 V c) := by
  show (cfg0.win 3).cut (grid0.coords t) ((dat0 V c).after 3 t) = _
  rw [after0_3]
  unfold out0
  rw [View.canon_unit_zero zero2_0]
  simp only [View.ld_unit_zero (S := S5000x512) zero2_0, View.ld_unit_zero (S := S512x128) zero2_0, View.ld_unit_zero (S := S128) zero1_0]
  obtain ⟨-, -, -, -, -, e0, e1⟩ := block_index0 t
  funext y
  rw [View.read_apply]
  refine (stored0 V c t y _ ?_ ?_).trans rfl
  · show win0_3.index t (0 : Fin 2) * 5000 + 1 * (y 0).val = t.val * 5000 + (y 0).val; rw [e0]; omega
  · show win0_3.index t (1 : Fin 2) * 128 + 1 * (y 1).val = (y 1).val; rw [e1]; omega

/-! ## The blocks tile the array -/

/-- An index of the array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v77).slice (win0_3.rect t)).set ↔ _
  rw [View.set_slice_whole, Rect.mem_set_unit]
  exact Iff.rfl

/-- Row r is in the block of point r / 5000. -/
theorem covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, e0, e1⟩ := block_index0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-! ## The array after the launch -/

/-- THE ARRAY the launch's output window ends holding is the layer of the three arrays it reads. -/
theorem final0 (c : Dev nD) : (dat0 (F := Ideal) V c).arrAt 3 cfg0.N
    = Cert.Spec.denseRelu (M := 50000) (K := 512) (N := 128) (V c main_v75) (V c main_v76) (V c main_arg3) :=
  (dat0 V c).arrAt_eq_of_cover 3 (layer0 V c) (fun t _ => flushed0_eq V c t) (covered0)

end Cert.KernelIdeal.Val

end
-- ==== Proof.KI_Val1.lean ====
/-
  Launch 1 of the program at the ideal values: the array its output window ends holding, as one function of the
  three arrays it reads. The body computes, block of 5000 rows by block of 5000 rows, rows times columns plus the bias
  vector, clamped at zero from below; the ten blocks tile the 50000 rows, so the array ends at the whole layer.
-/
import proofs.«180556_j46755013984834_1_alg».proof.Proof.KI_Body1
import proofs.«180556_j46755013984834_1_alg».proof.Proof.Spec
import proofs.«180556_j46755013984834_1_alg».proof.Proof.LibMatProd
import proofs.«180556_j46755013984834_1_alg».proof.Proof.LibMlpLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-! ## The body's arithmetic at an entry -/

/-- Entry (p, q) of what the body stores: the sum over k of left (p, k) times right (k, q), plus the bias at q,
    clamped at zero from below. -/
theorem pay1_apply (x0 : Vec Ideal S5000x512 .f32) (x1 : Vec Ideal S512x64 .f32) (x2 : Vec Ideal S64 .f32)
    (p : Fin 5000) (q : Fin 64) :
    k1_pay1 x0 x1 x2 (ix2 p q) = max ((∑ k : Fin 512, x0 (ix2 p k) * x1 (ix2 k q)) + x2 (ix1 q)) 0 := by
  unfold k1_pay1
  simp only [shapeCast_self]
  rw [maximumf_apply, Cert.Lib.MlpLayers.linear_apply dot_S5000x512_S512x64_S5000x64_1_0_0_1_n_n rfl rfl (fun _ _ => rfl)
    (fun _ _ => rfl) (fun _ _ => rfl) (fun _ _ => rfl) x0 x1 x2 shapeCasts_S64_S1x64 broadcasts_S1x64_S5000x64 p q, broadcast_apply]
  show max _ (Ideal.ofBits .f32 0x00000000#32) = _
  rw [Ideal.ofBits_zero_f32]

/-! ## Where the blocks sit -/

theorem zero2_1 : (![0, 0] : Fin 2 → Nat) = fun _ => 0 := funext fun a => by fin_cases a <;> rfl
theorem zero1_1 : (![0] : Fin 1 → Nat) = fun _ => 0 := funext fun a => by fin_cases a <;> rfl

/-- The block indices over the grid: the left operand's and the output's blocks move down the rows with the point, the
    right operand and the bias are one block each. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The left operand's block at point t, read at (p, k), is the array at (5000 t + p, k). -/
theorem left_block1 (c : Dev nD) (t : Fin cfg1.N) (p : Fin 5000) (k : Fin 512) (h : t.val * 5000 + p.val < 50000) :
    (iblk1 V c 0 t : Vec Ideal S5000x512 .f32) (ix2 p k)
      = (V c main_v148 : S50000x512.Idx → EReal) (ix2 ⟨t.val * 5000 + p.val, h⟩ k) := by
  obtain ⟨e0, e1, -⟩ := block_index1 t
  unfold iblk1
  rw [View.read_apply]
  show V c main_v148 _ = V c main_v148 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 512 + 1 * k.val = k.val; rw [e1]; omega

/-- The right operand's block at any point is the array. -/
theorem right_block1 (c : Dev nD) (t : Fin cfg1.N) (k : Fin 512) (q : Fin 64) :
    (iblk1 V c 1 t : Vec Ideal S512x64 .f32) (ix2 k q) = (V c main_v149 : S512x64.Idx → EReal) (ix2 k q) := by
  obtain ⟨-, -, e0, e1, -⟩ := block_index1 t
  unfold iblk1
  rw [View.read_apply]
  show V c main_v149 _ = V c main_v149 _
  congr 1
  funext a
  apply Fin.ext
  match a with
  | ⟨0, _⟩ => show win1_1.index t (0 : Fin 2) * 512 + 1 * k.val = k.val; rw [e0]; omega
  | ⟨1, _⟩ => show win1_1.index t (1 : Fin 2) * 64 + 1 * q.val = q.val; rw [e1]; omega

/-- The bias's block at any point is the vector. -/
theorem bias_block1 (c : Dev nD) (t : Fin cfg1.N) (q : Fin 64) :
    (iblk1 V c 2 t : Vec Ideal S64 .f32) (ix1 q) = (V c main_arg7 : S64.Idx → EReal) (ix1 q) := by
  obtain ⟨-, -, -, -, e0, -⟩ := block_index1 t
  unfold iblk1
  rw [View.read_apply]
  show V c main_arg7 _ = V c main_arg7 _
  congr 1
  funext a
  apply Fin.ext
  match a with
  | ⟨0, _⟩ => show win1_2.index t (0 : Fin 1) * 64 + 1 * q.val = q.val; rw [e0]; omega

/-! ## One point's block of the layer -/

/-- The layer of the three arrays the launch reads. -/
abbrev layer1 (c : Dev nD) : S50000x64.Idx → EReal :=
  Cert.Spec.denseRelu (M := 50000) (K := 512) (N := 64) (V c main_v148) (V c main_v149) (V c main_arg7)

/-- What point t's body stores, read at y, is the layer at row 5000 t + y 0, column y 1. -/
theorem stored1 (c : Dev nD) (t : Fin cfg1.N) (y : S5000x64.Idx) (i : S50000x64.Idx)
    (h0 : (i 0).val = t.val * 5000 + (y 0).val) (h1 : (i 1).val = (y 1).val) :
    k1_pay1 (iblk1 V c 0 t) (iblk1 V c 1 t) (iblk1 V c 2 t) y = layer1 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  have hr : t.val * 5000 + p.val < 50000 := by have := r.isLt; have e : r.val = t.val * 5000 + p.val := h0; omega
  obtain rfl : r = ⟨t.val * 5000 + p.val, hr⟩ := Fin.ext h0
  obtain rfl : s = q := Fin.ext h1
  rw [pay1_apply]
  show _ = Cert.Spec.denseRelu (M := 50000) (K := 512) (N := 64) (V c main_v148) (V c main_v149) (V c main_arg7) (ix2 ⟨t.val * 5000 + p.val, hr⟩ s)
  rw [Cert.Spec.denseRelu_apply, bias_block1 V c t s]
  congr 2
  exact Finset.sum_congr rfl fun k _ => by rw [left_block1 V c t p k hr, right_block1 V c t k s]

/-- WHAT POINT t WRITES BACK is its block of the layer. -/
theorem flushed1_eq (c : Dev nD) (t : Fin cfg1.N) :
    (dat1 (F := Ideal) V c).flushed 3 t = ((cfg1.win 3).blk t).view.read (Elt Ideal) (layer1 V c) := by
  show (cfg1.win 3).cut (grid1.coords t) ((dat1 V c).after 3 t) = _
  rw [after1_3]
  unfold out1
  rw [View.canon_unit_zero zero2_1]
  simp only [View.ld_unit_zero (S := S5000x512) zero2_1, View.ld_unit_zero (S := S512x64) zero2_1, View.ld_unit_zero (S := S64) zero1_1]
  obtain ⟨-, -, -, -, -, e0, e1⟩ := block_index1 t
  funext y
  rw [View.read_apply]
  refine (stored1 V c t y _ ?_ ?_).trans rfl
  · show win1_3.index t (0 : Fin 2) * 5000 + 1 * (y 0).val = t.val * 5000 + (y 0).val; rw [e0]; omega
  · show win1_3.index t (1 : Fin 2) * 64 + 1 * (y 1).val = (y 1).val; rw [e1]; omega

/-! ## The blocks tile the array -/

/-- An index of the array is in point t's block iff each coordinate is in the block's range on its axis. -/
theorem mem_block1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v150).slice (win1_3.rect t)).set ↔ _
  rw [View.set_slice_whole, Rect.mem_set_unit]
  exact Iff.rfl

/-- Row r is in the block of point r / 5000. -/
theorem covered1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, e0, e1⟩ := block_index1 ⟨(i 0).val / 5000, ht⟩
  refine ⟨⟨(i 0).val / 5000, ht⟩, flush1_3 _, ?_⟩
  rw [mem_block1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e1]; omega

/-! ## The array after the launch -/

/-- THE ARRAY the launch's output window ends holding is the layer of the three arrays it reads. -/
theorem final1 (c : Dev nD) : (dat1 (F := Ideal) V c).arrAt 3 cfg1.N
    = Cert.Spec.denseRelu (M := 50000) (K := 512) (N := 64) (V c main_v148) (V c main_v149) (V c main_arg7) :=
  (dat1 V c).arrAt_eq_of_cover 3 (layer1 V c) (fun t _ => flushed1_eq V c t) (covered1)

end Cert.KernelIdeal.Val

end
-- ==== Proof.KI_Val2.lean ====
/-
  Launch 2 of the program at the ideal values: the array its output window ends holding, as one function of the
  three arrays it reads. The body computes, block of 5000 rows by block of 5000 rows, rows times columns plus the bias
  vector; the ten blocks tile the 50000 rows, so the array ends at the whole layer.
-/
import proofs.«180556_j46755013984834_1_alg».proof.Proof.KI_Body2
import proofs.«180556_j46755013984834_1_alg».proof.Proof.Spec
import proofs.«180556_j46755013984834_1_alg».proof.Proof.LibMatProd
import proofs.«180556_j46755013984834_1_alg».proof.Proof.LibMlpLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-! ## The body's arithmetic at an entry -/

/-- Entry (p, q) of what the body stores: the sum over k of left (p, k) times right (k, q), plus the bias at q. -/
theorem pay2_apply (x0 : Vec Ideal S5000x64 .f32) (x1 : Vec Ideal S64x10 .f32) (x2 : Vec Ideal S10 .f32)
    (p : Fin 5000) (q : Fin 10) :
    k2_pay1 x0 x1 x2 (ix2 p q) = (∑ k : Fin 64, x0 (ix2 p k) * x1 (ix2 k q)) + x2 (ix1 q) := by
  unfold k2_pay1
  simp only [shapeCast_self]
  rw [Cert.Lib.MlpLayers.linear_apply dot_S5000x64_S64x10_S5000x10_1_0_0_1_n_n rfl rfl (fun _ _ => rfl)
    (fun _ _ => rfl) (fun _ _ => rfl) (fun _ _ => rfl) x0 x1 x2 shapeCasts_S10_S1x10 broadcasts_S1x10_S5000x10 p q]

/-! ## Where the blocks sit -/

theorem zero2_2 : (![0, 0] : Fin 2 → Nat) = fun _ => 0 := funext fun a => by fin_cases a <;> rfl
theorem zero1_2 : (![0] : Fin 1 → Nat) = fun _ => 0 := funext fun a => by fin_cases a <;> rfl

/-- The block indices over the grid: the left operand's and the output's blocks move down the rows with the point, the
    right operand and the bias are one block each. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The left operand's block at point t, read at (p, k), is the array at (5000 t + p, k). -/
theorem left_block2 (c : Dev nD) (t : Fin cfg2.N) (p : Fin 5000) (k : Fin 64) (h : t.val * 5000 + p.val < 50000) :
    (iblk2 V c 0 t : Vec Ideal S5000x64 .f32) (ix2 p k)
      = (V c main_v150 : S50000x64.Idx → EReal) (ix2 ⟨t.val * 5000 + p.val, h⟩ k) := by
  obtain ⟨e0, e1, -⟩ := block_index2 t
  unfold iblk2
  rw [View.read_apply]
  show V c main_v150 _ = V c main_v150 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The right operand's block at any point is the array. -/
theorem right_block2 (c : Dev nD) (t : Fin cfg2.N) (k : Fin 64) (q : Fin 10) :
    (iblk2 V c 1 t : Vec Ideal S64x10 .f32) (ix2 k q) = (V c main_arg8 : S64x10.Idx → EReal) (ix2 k q) := by
  obtain ⟨-, -, e0, e1, -⟩ := block_index2 t
  unfold iblk2
  rw [View.read_apply]
  show V c main_arg8 _ = V c main_arg8 _
  congr 1
  funext a
  apply Fin.ext
  match a with
  | ⟨0, _⟩ => show win2_1.index t (0 : Fin 2) * 64 + 1 * k.val = k.val; rw [e0]; omega
  | ⟨1, _⟩ => show win2_1.index t (1 : Fin 2) * 10 + 1 * q.val = q.val; rw [e1]; omega

/-- The bias's block at any point is the vector. -/
theorem bias_block2 (c : Dev nD) (t : Fin cfg2.N) (q : Fin 10) :
    (iblk2 V c 2 t : Vec Ideal S10 .f32) (ix1 q) = (V c main_arg9 : S10.Idx → EReal) (ix1 q) := by
  obtain ⟨-, -, -, -, e0, -⟩ := block_index2 t
  unfold iblk2
  rw [View.read_apply]
  show V c main_arg9 _ = V c main_arg9 _
  congr 1
  funext a
  apply Fin.ext
  match a with
  | ⟨0, _⟩ => show win2_2.index t (0 : Fin 1) * 10 + 1 * q.val = q.val; rw [e0]; omega

/-! ## One point's block of the layer -/

/-- The layer of the three arrays the launch reads. -/
abbrev layer2 (c : Dev nD) : S50000x10.Idx → EReal :=
  Cert.Spec.dense (M := 50000) (K := 64) (N := 10) (V c main_v150) (V c main_arg8) (V c main_arg9)

/-- What point t's body stores, read at y, is the layer at row 5000 t + y 0, column y 1. -/
theorem stored2 (c : Dev nD) (t : Fin cfg2.N) (y : S5000x10.Idx) (i : S50000x10.Idx)
    (h0 : (i 0).val = t.val * 5000 + (y 0).val) (h1 : (i 1).val = (y 1).val) :
    k2_pay1 (iblk2 V c 0 t) (iblk2 V c 1 t) (iblk2 V c 2 t) y = layer2 V c i := by
  obtain ⟨p, q, rfl⟩ : ∃ (p : Fin 5000) (q : Fin 10), y = ix2 p q := ⟨y 0, y 1, eq_ix2 y⟩
  obtain ⟨r, s, rfl⟩ : ∃ (r : Fin 50000) (s : Fin 10), i = ix2 r s := ⟨i 0, i 1, eq_ix2 i⟩
  have hr : t.val * 5000 + p.val < 50000 := by have := r.isLt; have e : r.val = t.val * 5000 + p.val := h0; omega
  obtain rfl : r = ⟨t.val * 5000 + p.val, hr⟩ := Fin.ext h0
  obtain rfl : s = q := Fin.ext h1
  rw [pay2_apply]
  show _ = Cert.Spec.dense (M := 50000) (K := 64) (N := 10) (V c main_v150) (V c main_arg8) (V c main_arg9) (ix2 ⟨t.val * 5000 + p.val, hr⟩ s)
  rw [Cert.Spec.dense_apply, bias_block2 V c t s]
  congr 1
  exact Finset.sum_congr rfl fun k _ => by rw [left_block2 V c t p k hr, right_block2 V c t k s]

/-- WHAT POINT t WRITES BACK is its block of the layer. -/
theorem flushed2_eq (c : Dev nD) (t : Fin cfg2.N) :
    (dat2 (F := Ideal) V c).flushed 3 t = ((cfg2.win 3).blk t).view.read (Elt Ideal) (layer2 V c) := by
  show (cfg2.win 3).cut (grid2.coords t) ((dat2 V c).after 3 t) = _
  rw [after2_3]
  unfold out2
  rw [View.canon_unit_zero zero2_2]
  simp only [View.ld_unit_zero (S := S5000x64) zero2_2, View.ld_unit_zero (S := S64x10) zero2_2, View.ld_unit_zero (S := S10) zero1_2]
  obtain ⟨-, -, -, -, -, e0, e1⟩ := block_index2 t
  funext y
  rw [View.read_apply]
  refine (stored2 V c t y _ ?_ ?_).trans rfl
  · show win2_3.index t (0 : Fin 2) * 5000 + 1 * (y 0).val = t.val * 5000 + (y 0).val; rw [e0]; omega
  · show win2_3.index t (1 : Fin 2) * 10 + 1 * (y 1).val = (y 1).val; rw [e1]; omega

/-! ## The blocks tile the array -/

/-- An index of the array is in point t's block iff each coordinate is in the block's range on its axis. -/
theorem mem_block2 (t : Fin cfg2.N) (i : S50000x10.Idx) :
    i ∈ ((cfg2.win 3).blk t).view.set ↔ ∀ a : Fin 2, win2_3.index t a * S5000x10.size a ≤ (i a).val ∧ (i a).val < win2_3.index t a * S5000x10.size a + S5000x10.size a := by
  show i ∈ ((View.whole main_v151).slice (win2_3.rect t)).set ↔ _
  rw [View.set_slice_whole, Rect.mem_set_unit]
  exact Iff.rfl

/-- Row r is in the block of point r / 5000. -/
theorem covered2 (i : S50000x10.Idx) :
    ∃ t : Fin cfg2.N, (cfg2.win 3).flush t = true ∧ i ∈ ((cfg2.win 3).blk t).view.set := by
  have hi0 : (i 0).val < 50000 := (i 0).isLt
  have hi1 : (i 1).val < 10 := (i 1).isLt
  have hN : cfg2.N = 10 := N_2
  have ht : (i 0).val / 5000 < cfg2.N := by rw [hN]; omega
  obtain ⟨-, -, -, -, -, e0, e1⟩ := block_index2 ⟨(i 0).val / 5000, ht⟩
  refine ⟨⟨(i 0).val / 5000, ht⟩, flush2_3 _, ?_⟩
  rw [mem_block2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 10 ≤ (i 1).val ∧ (i 1).val < win2_3.index ⟨(i 0).val / 5000, ht⟩ (1 : Fin 2) * 10 + 10
    rw [e1]; omega

/-! ## The array after the launch -/

/-- THE ARRAY the launch's output window ends holding is the layer of the three arrays it reads. -/
theorem final2 (c : Dev nD) : (dat2 (F := Ideal) V c).arrAt 3 cfg2.N
    = Cert.Spec.dense (M := 50000) (K := 64) (N := 10) (V c main_v150) (V c main_arg8) (V c main_arg9) :=
  (dat2 V c).arrAt_eq_of_cover 3 (layer2 V c) (fun t _ => flushed2_eq V c t) (covered2)

end Cert.KernelIdeal.Val

end
-- ==== Proof.LibPadCat.lean ====
/-
  Two host layout operations on matrices, read at one entry, for any element type:
  a zero-interior padding after the last row and column, and a concatenation of four equally wide matrices along
  the columns.
-/
import Idealize.ShloMosaic.Lib.ValueIdx
import Idealize.ShloMosaic.Lib.Pipeline.Value
import Idealize.ShloMosaic.Lib.KernelVsHost

noncomputable section

namespace Cert.Lib.PadCat

open Idealize.ShloMosaic Idealize.ShloMosaic.ValueIdx

variable {α : Type}

/-- A matrix padded only AFTER its last row and last column (no low padding, no interior padding), read at entry
    `(q, k)`: the matrix's own entry there when `(q, k)` lies inside the matrix, and the padding value everywhere else. -/
theorem pad2_apply {a b a' b' : Nat} (hi : Fin 2 → Nat) (x : (⟨2, ![a, b]⟩ : Shape).Idx → α) {u : Shape} (v : u.Idx → α)
    (h : (⟨2, ![a, b]⟩ : Shape).Pads ![0, 0] hi ![0, 0] ⟨2, ![a', b']⟩) (hu : 0 < u.numel) (q : Fin a') (k : Fin b') :
    pad ⟨2, ![a', b']⟩ ![0, 0] hi ![0, 0] x v h hu (ix2 q k)
      = if hqk : q.val < a ∧ k.val < b then x (ix2 ⟨q.val, hqk.1⟩ ⟨k.val, hqk.2⟩) else v (Shape.Idx.first hu) := by
  by_cases hqk : q.val < a ∧ k.val < b
  · rw [dif_pos hqk]
    refine pad_apply_of_inside _ _ _ x v h hu _ (ix2 ⟨q.val, hqk.1⟩ ⟨k.val, hqk.2⟩) (fun ax => ?_)
    match ax with
    | ⟨0, _⟩ => show q.val = 0 + q.val * (0 + 1); omega
    | ⟨1, _⟩ => show k.val = 0 + k.val * (0 + 1); omega
  · rw [dif_neg hqk]
    by_cases hq : q.val < a
    · have hk : ¬ k.val < b := fun hk => hqk ⟨hq, hk⟩
      refine pad_apply_of_not_inside _ _ _ x v h hu _ (⟨1, by decide⟩ : Fin 2) ?_
      show ¬(0 ≤ k.val ∧ (k.val - 0) % (0 + 1) = 0 ∧ (k.val - 0) / (0 + 1) < b)
      omega
    · refine pad_apply_of_not_inside _ _ _ x v h hu _ (⟨0, by decide⟩ : Fin 2) ?_
      show ¬(0 ≤ q.val ∧ (q.val - 0) % (0 + 1) = 0 ∧ (q.val - 0) / (0 + 1) < a)
      omega

/-- `pad2_apply` when only columns are added: the row is always inside. -/
theorem pad2_cols_apply {a b b' : Nat} (hi : Fin 2 → Nat) (x : (⟨2, ![a, b]⟩ : Shape).Idx → α) {u : Shape} (v : u.Idx → α)
    (h : (⟨2, ![a, b]⟩ : Shape).Pads ![0, 0] hi ![0, 0] ⟨2, ![a, b']⟩) (hu : 0 < u.numel) (q : Fin a) (k : Fin b') :
    pad ⟨2, ![a, b']⟩ ![0, 0] hi ![0, 0] x v h hu (ix2 q k)
      = if hk : k.val < b then x (ix2 q ⟨k.val, hk⟩) else v (Shape.Idx.first hu) := by
  rw [pad2_apply]
  by_cases hk : k.val < b
  · rw [dif_pos ⟨q.isLt, hk⟩, dif_pos hk]
  · rw [dif_neg (fun h' => hk h'.2), dif_neg hk]

/-- `pad2_apply` when only rows are added: the column is always inside. -/
theorem pad2_rows_apply {a b a' : Nat} (hi : Fin 2 → Nat) (x : (⟨2, ![a, b]⟩ : Shape).Idx → α) {u : Shape} (v : u.Idx → α)
    (h : (⟨2, ![a, b]⟩ : Shape).Pads ![0, 0] hi ![0, 0] ⟨2, ![a', b]⟩) (hu : 0 < u.numel) (q : Fin a') (k : Fin b) :
    pad ⟨2, ![a', b]⟩ ![0, 0] hi ![0, 0] x v h hu (ix2 q k)
      = if hq : q.val < a then x (ix2 ⟨q.val, hq⟩ k) else v (Shape.Idx.first hu) := by
  rw [pad2_apply]
  by_cases hq : q.val < a
  · rw [dif_pos ⟨hq, k.isLt⟩, dif_pos hq]
  · rw [dif_neg (fun h' => hq h'.1), dif_neg hq]

/-- Four matrices of `a` rows and `w` columns laid side by side (concatenated along the columns), read at column
    `g·w + j` with `j < w`: piece `g` at column `j`. -/
theorem cat4_apply {a w W : Nat} (x0 x1 x2 x3 : (⟨2, ![a, w]⟩ : Shape).Idx → α)
    (h : Shape.Concatenates (([⟨⟨2, ![a, w]⟩, x0⟩, ⟨⟨2, ![a, w]⟩, x1⟩, ⟨⟨2, ![a, w]⟩, x2⟩, ⟨⟨2, ![a, w]⟩, x3⟩] :
      List ((s : Shape) × (s.Idx → α))).map (·.1)) ⟨2, ![a, W]⟩ (1 : Fin 2))
    (r : Fin a) (g : Fin 4) (j : Fin w) (hlt : g.val * w + j.val < W) :
    concatenate ⟨2, ![a, W]⟩ (1 : Fin 2) [⟨⟨2, ![a, w]⟩, x0⟩, ⟨⟨2, ![a, w]⟩, x1⟩, ⟨⟨2, ![a, w]⟩, x2⟩, ⟨⟨2, ![a, w]⟩, x3⟩] h
        (ix2 r ⟨g.val * w + j.val, hlt⟩)
      = (![x0, x1, x2, x3] g) (ix2 r j) := by
  have key : ∀ (k : Nat) (hk : k < 4) (xk : (⟨2, ![a, w]⟩ : Shape).Idx → α),
      ([⟨⟨2, ![a, w]⟩, x0⟩, ⟨⟨2, ![a, w]⟩, x1⟩, ⟨⟨2, ![a, w]⟩, x2⟩, ⟨⟨2, ![a, w]⟩, x3⟩] :
        List ((s : Shape) × (s.Idx → α)))[k]'(by simpa using hk) = ⟨⟨2, ![a, w]⟩, xk⟩ →
      ∀ (hlt' : k * w + j.val < W),
      concatenate ⟨2, ![a, W]⟩ (1 : Fin 2) [⟨⟨2, ![a, w]⟩, x0⟩, ⟨⟨2, ![a, w]⟩, x1⟩, ⟨⟨2, ![a, w]⟩, x2⟩, ⟨⟨2, ![a, w]⟩, x3⟩] h
        (ix2 r ⟨k * w + j.val, hlt'⟩) = xk (ix2 r j) := by
    intro k hk xk hxk hlt'
    refine concatenate_apply_piece (t := ⟨2, ![a, W]⟩) (1 : Fin 2) _ h _ k (by simpa using hk) ⟨2, ![a, w]⟩ xk hxk rfl (k * w) ?_ (ix2 r j) ?_ ?_
    · match k, hk with
      | 0, _ => simp
      | 1, _ => simp
      | 2, _ => simp; omega
      | 3, _ => simp; omega
    · intro b hb
      match b with
      | ⟨0, _⟩ => rfl
      | ⟨1, _⟩ => exact absurd rfl hb
    · rfl
  match g with
  | ⟨0, _⟩ => exact key 0 (by omega) x0 rfl hlt
  | ⟨1, _⟩ => exact key 1 (by omega) x1 rfl hlt
  | ⟨2, _⟩ => exact key 2 (by omega) x2 rfl hlt
  | ⟨3, _⟩ => exact key 3 (by omega) x3 rfl hlt

end Cert.Lib.PadCat
end
-- ==== Proof.AlgebraSum.lean ====
/-
  A dense layer over four blocks of columns.

  A product of an [M, 4·w] matrix by a [4·w, N] matrix sums, at each entry, over the 4·w contracted coordinates.
  When the left operand is four [M, w] matrices laid side by side and the right operand is a [4, w, N] array read
  row-major as [4·w, N], that sum is the sum of the four products of one [M, w] block by one [w, N] slice: a sum
  over `Fin (4·w)` split into four sums over `Fin w`, in any additive commutative monoid. On the extended reals
  no finiteness is needed for that.

  `blocks4` is the common value: the four block products added left to right, plus the bias, clamped at zero.
  `denseRelu_cat4_apply` reads the one big product as it; `host4_apply` reads the four small products as it.
-/
import Mathlib.Algebra.BigOperators.Fin
import Mathlib.Logic.Equiv.Fin.Basic
import Idealize.ShloMosaic.Lib.ValueIdx
import Idealize.ShloMosaic.Lib.ValueLayout
import Idealize.ShloMosaic.Lib.Pipeline.Value
import Idealize.ShloMosaic.PureOps.Ideal.Laws
import proofs.«180556_j46755013984834_1_alg».proof.Proof.Spec
import proofs.«180556_j46755013984834_1_alg».proof.Proof.LibMatProd
import proofs.«180556_j46755013984834_1_alg».proof.Proof.LibPadCat
import proofs.«180556_j46755013984834_1_alg».proof.Proof.LibDenseLayer

noncomputable section

namespace Cert.Bridge

open Idealize.ShloMosaic Idealize.ShloMosaic.ValueIdx

/-- A sum over `4·w` consecutive positions is the sum of the four sums over the blocks of `w` positions. -/
theorem sum_four_blocks {A : Type*} [AddCommMonoid A] {K w : ℕ} (hK : K = 4 * w) (f : Fin K → A) :
    ∑ k : Fin K, f k
      = (((∑ j : Fin w, f ⟨(0 : Fin 4).val * w + j.val, by have := j.isLt; show 0 * w + j.val < K; omega⟩)
            + ∑ j : Fin w, f ⟨(1 : Fin 4).val * w + j.val, by have := j.isLt; show 1 * w + j.val < K; omega⟩)
          + ∑ j : Fin w, f ⟨(2 : Fin 4).val * w + j.val, by have := j.isLt; show 2 * w + j.val < K; omega⟩)
        + ∑ j : Fin w, f ⟨(3 : Fin 4).val * w + j.val, by have := j.isLt; show 3 * w + j.val < K; omega⟩ := by
  subst hK
  rw [← Equiv.sum_comp (finProdFinEquiv (m := 4) (n := w)) f, Fintype.sum_prod_type, Fin.sum_univ_four]
  have e : ∀ (g : Fin 4) (j : Fin w) (h : g.val * w + j.val < 4 * w),
      f (finProdFinEquiv (g, j)) = f ⟨g.val * w + j.val, h⟩ := fun g j h =>
    congrArg f (Fin.ext (by show j.val + w * g.val = g.val * w + j.val; rw [Nat.mul_comm, Nat.add_comm]))
  exact congrArg₂ (· + ·) (congrArg₂ (· + ·) (congrArg₂ (· + ·)
    (Finset.sum_congr rfl fun j _ => e 0 j _) (Finset.sum_congr rfl fun j _ => e 1 j _))
    (Finset.sum_congr rfl fun j _ => e 2 j _)) (Finset.sum_congr rfl fun j _ => e 3 j _)

/-- Four block products added left to right, plus a bias, clamped at zero, at entry `(r, c)`. -/
def blocks4 {M w N : ℕ} (T0 T1 T2 T3 : (⟨2, ![M, w]⟩ : Shape).Idx → EReal)
    (W : (⟨3, ![4, w, N]⟩ : Shape).Idx → EReal) (b : (⟨1, ![N]⟩ : Shape).Idx → EReal) (r : Fin M) (c : Fin N) : EReal :=
  max (((((∑ j : Fin w, T0 (ix2 r j) * W (ix3 (0 : Fin 4) j c)) + ∑ j : Fin w, T1 (ix2 r j) * W (ix3 (1 : Fin 4) j c))
          + ∑ j : Fin w, T2 (ix2 r j) * W (ix3 (2 : Fin 4) j c)) + ∑ j : Fin w, T3 (ix2 r j) * W (ix3 (3 : Fin 4) j c))
        + b (ix1 c)) 0

/-- The one big product: four matrices side by side times the `[4, w, N]` weights read as `[4·w, N]`. -/
theorem denseRelu_cat4_apply {M w N K : ℕ} (hK : K = 4 * w) (T0 T1 T2 T3 : (⟨2, ![M, w]⟩ : Shape).Idx → EReal)
    (W : (⟨3, ![4, w, N]⟩ : Shape).Idx → EReal) (b : (⟨1, ![N]⟩ : Shape).Idx → EReal)
    (hcat : Shape.Concatenates (([⟨⟨2, ![M, w]⟩, T0⟩, ⟨⟨2, ![M, w]⟩, T1⟩, ⟨⟨2, ![M, w]⟩, T2⟩, ⟨⟨2, ![M, w]⟩, T3⟩] :
      List ((s : Shape) × (s.Idx → EReal))).map (·.1)) ⟨2, ![M, K]⟩ (1 : Fin 2))
    (hcast : (⟨3, ![4, w, N]⟩ : Shape).ShapeCasts ⟨2, ![K, N]⟩) (r : Fin M) (c : Fin N) :
    Cert.Spec.denseRelu
        (concatenate ⟨2, ![M, K]⟩ (1 : Fin 2) [⟨⟨2, ![M, w]⟩, T0⟩, ⟨⟨2, ![M, w]⟩, T1⟩, ⟨⟨2, ![M, w]⟩, T2⟩, ⟨⟨2, ![M, w]⟩, T3⟩] hcat)
        (shapeCast ⟨2, ![K, N]⟩ W hcast) b (ix2 r c)
      = blocks4 T0 T1 T2 T3 W b r c := by
  have hterm : ∀ (g : Fin 4) (j : Fin w) (h : g.val * w + j.val < K),
      concatenate ⟨2, ![M, K]⟩ (1 : Fin 2) [⟨⟨2, ![M, w]⟩, T0⟩, ⟨⟨2, ![M, w]⟩, T1⟩, ⟨⟨2, ![M, w]⟩, T2⟩, ⟨⟨2, ![M, w]⟩, T3⟩] hcat
          (ix2 r ⟨g.val * w + j.val, h⟩) * shapeCast ⟨2, ![K, N]⟩ W hcast (ix2 ⟨g.val * w + j.val, h⟩ c)
        = (![T0, T1, T2, T3] g) (ix2 r j) * W (ix3 g j c) := fun g j h => by
    rw [Cert.Lib.PadCat.cat4_apply T0 T1 T2 T3 hcat r g j h]
    refine congrArg (_ * ·) (shapeCast_apply W hcast _ _ ?_)
    rw [Shape.rowMajor_val_three, Shape.rowMajor_val_two]
    rfl
  rw [Cert.Spec.denseRelu_apply, sum_four_blocks hK]
  simp only [hterm]
  rfl

/-- Slice `o` of a `[4, w, N]` array, reshaped to `[w, N]`, read at `(j, c)`: the array at `(o, j, c)`. -/
theorem slice_reshape_apply {α : Type} {w N : ℕ} (W : (⟨3, ![4, w, N]⟩ : Shape).Idx → α) (o : ℕ) (ho : o < 4)
    (hs : (⟨3, ![4, w, N]⟩ : Shape).Slices ![o, 0, 0] ⟨3, ![1, w, N]⟩)
    (hc : (⟨3, ![1, w, N]⟩ : Shape).ShapeCasts ⟨2, ![w, N]⟩) (j : Fin w) (c : Fin N) :
    shapeCast ⟨2, ![w, N]⟩ (extractStridedSlice ⟨3, ![1, w, N]⟩ ![o, 0, 0] W hs) hc (ix2 j c)
      = W (ix3 (⟨o, ho⟩ : Fin 4) j c) := by
  rw [shapeCast_1ab_ab_apply]
  exact extractStridedSlice_apply _ W hs _ _ (fun a => match a with
    | ⟨0, _⟩ => by show o = o + 0; rfl
    | ⟨1, _⟩ => by show j.val = 0 + j.val; omega
    | ⟨2, _⟩ => by show c.val = 0 + c.val; omega)

/-- One block product on the host: an `[M, w]` matrix times slice `o` of the `[4, w, N]` weights. -/
theorem host_block_apply {M w N : ℕ} (D : DotDims ⟨2, ![M, w]⟩ ⟨2, ![w, N]⟩ ⟨2, ![M, N]⟩)
    (hr : D.contr.rank = 1) (hsz : D.contr.size ⟨0, by omega⟩ = w)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (T : FVec Ideal ⟨2, ![M, w]⟩ .f32) (W : FVec Ideal ⟨3, ![4, w, N]⟩ .f32) (o : ℕ) (ho : o < 4)
    (hs : (⟨3, ![4, w, N]⟩ : Shape).Slices ![o, 0, 0] ⟨3, ![1, w, N]⟩)
    (hc : (⟨3, ![1, w, N]⟩ : Shape).ShapeCasts ⟨2, ![w, N]⟩) (r : Fin M) (c : Fin N) :
    Host.dotGeneral D none T (shapeCast ⟨2, ![w, N]⟩ (extractStridedSlice ⟨3, ![1, w, N]⟩ ![o, 0, 0] W hs) hc) (ix2 r c)
      = ∑ j : Fin w, T (ix2 r j) * W (ix3 (⟨o, ho⟩ : Fin 4) j c) := by
  rw [Cert.Lib.MatProd.dotGeneral_eq_prod D hr hsz hl0 hl1 hr0 hr1, Cert.Lib.MatProd.prod_apply]
  exact Finset.sum_congr rfl fun j _ => congrArg (_ * ·) (slice_reshape_apply W o ho hs hc j c)

/-- The four small products on the host, added left to right, plus the broadcast bias, clamped against an array of
    zeros. -/
theorem host4_apply {M w N : ℕ} (D : DotDims ⟨2, ![M, w]⟩ ⟨2, ![w, N]⟩ ⟨2, ![M, N]⟩)
    (hr : D.contr.rank = 1) (hsz : D.contr.size ⟨0, by omega⟩ = w)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (T0 T1 T2 T3 : FVec Ideal ⟨2, ![M, w]⟩ .f32) (W : FVec Ideal ⟨3, ![4, w, N]⟩ .f32)
    (hs0 : (⟨3, ![4, w, N]⟩ : Shape).Slices ![0, 0, 0] ⟨3, ![1, w, N]⟩)
    (hs1 : (⟨3, ![4, w, N]⟩ : Shape).Slices ![1, 0, 0] ⟨3, ![1, w, N]⟩)
    (hs2 : (⟨3, ![4, w, N]⟩ : Shape).Slices ![2, 0, 0] ⟨3, ![1, w, N]⟩)
    (hs3 : (⟨3, ![4, w, N]⟩ : Shape).Slices ![3, 0, 0] ⟨3, ![1, w, N]⟩)
    (hc : (⟨3, ![1, w, N]⟩ : Shape).ShapeCasts ⟨2, ![w, N]⟩)
    (b : FVec Ideal ⟨1, ![N]⟩ .f32) (hN : N ≠ 1)
    (h1 : (⟨1, ![N]⟩ : Shape).BroadcastsInDim ⟨2, ![1, N]⟩ ![1])
    (h2 : (⟨2, ![1, N]⟩ : Shape).BroadcastsInDim ⟨2, ![M, N]⟩ ![0, 1])
    (z : FVec Ideal ⟨2, ![M, N]⟩ .f32) (hz : ∀ i, z i = 0) (r : Fin M) (c : Fin N) :
    maximumf
        (addf
          (addf
            (addf
              (addf
                (Host.dotGeneral D none T0 (shapeCast ⟨2, ![w, N]⟩ (extractStridedSlice ⟨3, ![1, w, N]⟩ ![0, 0, 0] W hs0) hc))
                (Host.dotGeneral D none T1 (shapeCast ⟨2, ![w, N]⟩ (extractStridedSlice ⟨3, ![1, w, N]⟩ ![1, 0, 0] W hs1) hc)))
              (Host.dotGeneral D none T2 (shapeCast ⟨2, ![w, N]⟩ (extractStridedSlice ⟨3, ![1, w, N]⟩ ![2, 0, 0] W hs2) hc)))
            (Host.dotGeneral D none T3 (shapeCast ⟨2, ![w, N]⟩ (extractStridedSlice ⟨3, ![1, w, N]⟩ ![3, 0, 0] W hs3) hc)))
          (broadcastInDim ⟨2, ![M, N]⟩ ![0, 1] h2 (broadcastInDim ⟨2, ![1, N]⟩ ![1] h1 b)))
        z (ix2 r c)
      = blocks4 T0 T1 T2 T3 W b r c := by
  rw [maximumf_apply, addf_apply, addf_apply, addf_apply, addf_apply, hz, Cert.Lib.DenseLayer.bias_apply hN,
    host_block_apply D hr hsz hl0 hl1 hr0 hr1 T0 W 0 (by omega) hs0 hc,
    host_block_apply D hr hsz hl0 hl1 hr0 hr1 T1 W 1 (by omega) hs1 hc,
    host_block_apply D hr hsz hl0 hl1 hr0 hr1 T2 W 2 (by omega) hs2 hc,
    host_block_apply D hr hsz hl0 hl1 hr0 hr1 T3 W 3 (by omega) hs3 hc]
  rfl

/-- The host's last layer: one product plus the broadcast bias. -/
theorem host_dense_apply {M K N : ℕ} (D : DotDims ⟨2, ![M, K]⟩ ⟨2, ![K, N]⟩ ⟨2, ![M, N]⟩)
    (hr : D.contr.rank = 1) (hsz : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (X : FVec Ideal ⟨2, ![M, K]⟩ .f32) (W : FVec Ideal ⟨2, ![K, N]⟩ .f32)
    (b : FVec Ideal ⟨1, ![N]⟩ .f32) (hN : N ≠ 1)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (Host.dotGeneral D none X W) (broadcastInDim ⟨2, ![M, N]⟩ ![0, 1] h2 (broadcastInDim ⟨2, ![1, N]⟩ ![1] h1 b)) (ix2 r c)
      = Cert.Spec.dense X W b (ix2 r c) := by
  rw [addf_apply, Cert.Lib.DenseLayer.bias_apply hN, Cert.Lib.MatProd.dotGeneral_eq_prod D hr hsz hl0 hl1 hr0 hr1]
  rfl

end Cert.Bridge

end
-- ==== Proof.Algebra.lean ====
/-
  The reference's two Chebyshev layers and its last layer, as dense layers.

  The reference computes each Chebyshev layer as four products of a [50000, 128] feature array by one [128, N]
  slice of the [4, 128, N] weights, added left to right, plus the bias, clamped at zero. That is the one product
  of the four feature arrays laid side by side, [50000, 512], by the weights read as [512, N], plus the bias,
  clamped at zero: the sum over 512 contracted coordinates is the sum of four sums over 128 of them, which holds
  in any additive commutative monoid, the extended reals among them. The last layer is a product plus a bias on
  both sides.
-/
import proofs.«180556_j46755013984834_1_alg».proof.KernelIdeal
import proofs.«180556_j46755013984834_1_alg».proof.Proof.Gen.KernelIdeal
import proofs.«180556_j46755013984834_1_alg».proof.Proof.RefReadP
import proofs.«180556_j46755013984834_1_alg».proof.Proof.Spec
import proofs.«180556_j46755013984834_1_alg».proof.Proof.AlgebraSum

noncomputable section

namespace Cert.Bridge

open Idealize.ShloMosaic Idealize.ShloMosaic.ValueIdx

/-- The array of zeros the first clamp compares against. -/
theorem relu1_zero (i : Cert.ReferenceIdeal.S50000x128.Idx) : Cert.ReferenceIdeal.ReadP.val_main_call1_v0 (F := Ideal) i = 0 :=
  (Cert.ReferenceIdeal.ReadP.val_main_call1_v0_apply i).trans ((Cert.ReferenceIdeal.ReadP.val_main_call1_cst_apply _).trans Ideal.ofBits_zero_f32)

/-- The array of zeros the second clamp compares against. -/
theorem relu2_zero (i : Cert.ReferenceIdeal.S50000x64.Idx) : Cert.ReferenceIdeal.ReadP.val_main_call3_v0 (F := Ideal) i = 0 :=
  (Cert.ReferenceIdeal.ReadP.val_main_call3_v0_apply i).trans ((Cert.ReferenceIdeal.ReadP.val_main_call3_cst_apply _).trans Ideal.ofBits_zero_f32)

/-- The first Chebyshev layer: the dense layer over the four feature arrays side by side is the reference's clamped sum
    of four products plus bias. -/
theorem layer1_ref (x0 : FVec Ideal Cert.KernelIdeal.S50000x128 .f32)
    (x1 : (⟨Cert.KernelIdeal.S2x800000, .i32⟩ : BufTy).Contents (Elt Ideal))
    (x2 : FVec Ideal Cert.KernelIdeal.S4x128x128 .f32) (x3 : FVec Ideal Cert.KernelIdeal.S128 .f32) :
    Cert.Spec.denseRelu (M := 50000) (K := 512) (N := 128)
      (concatenate Cert.KernelIdeal.S50000x512 1
        [⟨Cert.KernelIdeal.S50000x128, x0⟩,
         ⟨Cert.KernelIdeal.S50000x128, Cert.ReferenceIdeal.ReadP.val_main_v45 (F := Ideal) x0 x1⟩,
         ⟨Cert.KernelIdeal.S50000x128, Cert.ReferenceIdeal.ReadP.val_main_v65 (F := Ideal) x0 x1⟩,
         ⟨Cert.KernelIdeal.S50000x128, Cert.ReferenceIdeal.ReadP.val_main_v85 (F := Ideal) x0 x1⟩]
        Cert.KernelIdeal.Facts₀.concatenates_S50000x128_S50000x128_S50000x128_S50000x128_S50000x512_d1)
      (shapeCast Cert.KernelIdeal.S512x128 x2 Cert.KernelIdeal.Facts₀.shapeCasts_S4x128x128_S512x128) x3
    = Cert.ReferenceIdeal.ReadP.val_main_v93 (F := Ideal) x0 x1 x2 x3 := by
  funext i
  obtain ⟨r, c, rfl⟩ : ∃ r c, i = ix2 r c := ⟨i 0, i 1, eq_ix2 i⟩
  exact (denseRelu_cat4_apply (M := 50000) (w := 128) (N := 128) (K := 512) rfl x0
      (Cert.ReferenceIdeal.ReadP.val_main_v45 (F := Ideal) x0 x1) (Cert.ReferenceIdeal.ReadP.val_main_v65 (F := Ideal) x0 x1) (Cert.ReferenceIdeal.ReadP.val_main_v85 (F := Ideal) x0 x1) x2 x3
      Cert.KernelIdeal.Facts₀.concatenates_S50000x128_S50000x128_S50000x128_S50000x128_S50000x512_d1
      Cert.KernelIdeal.Facts₀.shapeCasts_S4x128x128_S512x128 r c).trans
    (host4_apply (M := 50000) (w := 128) (N := 128) Cert.ReferenceIdeal.dot_S50000x128_S128x128_S50000x128_1_0_0_1_n_n rfl rfl
      Cert.ReferenceIdeal.ReadP.lhs_main_v32_0 Cert.ReferenceIdeal.ReadP.lhs_main_v32_1 Cert.ReferenceIdeal.ReadP.rhs_main_v32_0 Cert.ReferenceIdeal.ReadP.rhs_main_v32_1
      x0 (Cert.ReferenceIdeal.ReadP.val_main_v45 (F := Ideal) x0 x1) (Cert.ReferenceIdeal.ReadP.val_main_v65 (F := Ideal) x0 x1) (Cert.ReferenceIdeal.ReadP.val_main_v85 (F := Ideal) x0 x1) x2
      Cert.ReferenceIdeal.Facts₀.slices_S4x128x128_S1x128x128_0_0_0 Cert.ReferenceIdeal.Facts₀.slices_S4x128x128_S1x128x128_1_0_0
      Cert.ReferenceIdeal.Facts₀.slices_S4x128x128_S1x128x128_2_0_0 Cert.ReferenceIdeal.Facts₀.slices_S4x128x128_S1x128x128_3_0_0
      Cert.ReferenceIdeal.Facts₀.shapeCasts_S1x128x128_S128x128 x3 (by decide)
      Cert.ReferenceIdeal.Facts₀.bcast_S128_S1x128_1 Cert.ReferenceIdeal.Facts₀.bcast_S1x128_S50000x128_0_1
      (Cert.ReferenceIdeal.ReadP.val_main_call1_v0 (F := Ideal)) relu1_zero r c).symm

/-- The second Chebyshev layer, the same with 64 output columns. -/
theorem layer2_ref (x0 : FVec Ideal Cert.KernelIdeal.S50000x128 .f32)
    (x1 : (⟨Cert.KernelIdeal.S2x800000, .i32⟩ : BufTy).Contents (Elt Ideal))
    (x2 : FVec Ideal Cert.KernelIdeal.S4x128x128 .f32) (x3 x4 x5 : FVec Ideal Cert.KernelIdeal.S128 .f32)
    (x6 : FVec Ideal Cert.KernelIdeal.S4x128x64 .f32) (x7 : FVec Ideal Cert.KernelIdeal.S64 .f32) :
    Cert.Spec.denseRelu (M := 50000) (K := 512) (N := 64)
      (concatenate Cert.KernelIdeal.S50000x512 1
        [⟨Cert.KernelIdeal.S50000x128, Cert.ReferenceIdeal.ReadP.val_main_v118 (F := Ideal) x0 x1 x2 x3 x4 x5⟩,
         ⟨Cert.KernelIdeal.S50000x128, Cert.ReferenceIdeal.ReadP.val_main_v160 (F := Ideal) x0 x1 x2 x3 x4 x5⟩,
         ⟨Cert.KernelIdeal.S50000x128, Cert.ReferenceIdeal.ReadP.val_main_v180 (F := Ideal) x0 x1 x2 x3 x4 x5⟩,
         ⟨Cert.KernelIdeal.S50000x128, Cert.ReferenceIdeal.ReadP.val_main_v200 (F := Ideal) x0 x1 x2 x3 x4 x5⟩]
        Cert.KernelIdeal.Facts₀.concatenates_S50000x128_S50000x128_S50000x128_S50000x128_S50000x512_d1)
      (shapeCast Cert.KernelIdeal.S512x64 x6 Cert.KernelIdeal.Facts₀.shapeCasts_S4x128x64_S512x64) x7
    = Cert.ReferenceIdeal.ReadP.val_main_v208 (F := Ideal) x0 x1 x2 x3 x4 x5 x6 x7 := by
  funext i
  obtain ⟨r, c, rfl⟩ : ∃ r c, i = ix2 r c := ⟨i 0, i 1, eq_ix2 i⟩
  exact (denseRelu_cat4_apply (M := 50000) (w := 128) (N := 64) (K := 512) rfl
      (Cert.ReferenceIdeal.ReadP.val_main_v118 (F := Ideal) x0 x1 x2 x3 x4 x5) (Cert.ReferenceIdeal.ReadP.val_main_v160 (F := Ideal) x0 x1 x2 x3 x4 x5)
      (Cert.ReferenceIdeal.ReadP.val_main_v180 (F := Ideal) x0 x1 x2 x3 x4 x5) (Cert.ReferenceIdeal.ReadP.val_main_v200 (F := Ideal) x0 x1 x2 x3 x4 x5) x6 x7
      Cert.KernelIdeal.Facts₀.concatenates_S50000x128_S50000x128_S50000x128_S50000x128_S50000x512_d1
      Cert.KernelIdeal.Facts₀.shapeCasts_S4x128x64_S512x64 r c).trans
    (host4_apply (M := 50000) (w := 128) (N := 64) Cert.ReferenceIdeal.dot_S50000x128_S128x64_S50000x64_1_0_0_1_n_n rfl rfl
      Cert.ReferenceIdeal.ReadP.lhs_main_v147_0 Cert.ReferenceIdeal.ReadP.lhs_main_v147_1 Cert.ReferenceIdeal.ReadP.rhs_main_v147_0 Cert.ReferenceIdeal.ReadP.rhs_main_v147_1
      (Cert.ReferenceIdeal.ReadP.val_main_v118 (F := Ideal) x0 x1 x2 x3 x4 x5) (Cert.ReferenceIdeal.ReadP.val_main_v160 (F := Ideal) x0 x1 x2 x3 x4 x5)
      (Cert.ReferenceIdeal.ReadP.val_main_v180 (F := Ideal) x0 x1 x2 x3 x4 x5) (Cert.ReferenceIdeal.ReadP.val_main_v200 (F := Ideal) x0 x1 x2 x3 x4 x5) x6
      Cert.ReferenceIdeal.Facts₀.slices_S4x128x64_S1x128x64_0_0_0 Cert.ReferenceIdeal.Facts₀.slices_S4x128x64_S1x128x64_1_0_0
      Cert.ReferenceIdeal.Facts₀.slices_S4x128x64_S1x128x64_2_0_0 Cert.ReferenceIdeal.Facts₀.slices_S4x128x64_S1x128x64_3_0_0
      Cert.ReferenceIdeal.Facts₀.shapeCasts_S1x128x64_S128x64 x7 (by decide)
      Cert.ReferenceIdeal.Facts₀.bcast_S64_S1x64_1 Cert.ReferenceIdeal.Facts₀.bcast_S1x64_S50000x64_0_1
      (Cert.ReferenceIdeal.ReadP.val_main_call3_v0 (F := Ideal)) relu2_zero r c).symm

/-- The last layer: a product plus a bias on both sides. -/
theorem final_ref (x0 : FVec Ideal Cert.KernelIdeal.S50000x128 .f32)
    (x1 : (⟨Cert.KernelIdeal.S2x800000, .i32⟩ : BufTy).Contents (Elt Ideal))
    (x2 : FVec Ideal Cert.KernelIdeal.S4x128x128 .f32) (x3 x4 x5 : FVec Ideal Cert.KernelIdeal.S128 .f32)
    (x6 : FVec Ideal Cert.KernelIdeal.S4x128x64 .f32) (x7 : FVec Ideal Cert.KernelIdeal.S64 .f32)
    (x8 : FVec Ideal Cert.KernelIdeal.S64x10 .f32) (x9 : FVec Ideal Cert.KernelIdeal.S10 .f32) :
    Cert.Spec.dense (M := 50000) (K := 64) (N := 10) (Cert.ReferenceIdeal.ReadP.val_main_v208 (F := Ideal) x0 x1 x2 x3 x4 x5 x6 x7) x8 x9
    = Cert.ReferenceIdeal.ReadP.val_main_v212 (F := Ideal) x0 x1 x2 x3 x4 x5 x6 x7 x8 x9 := by
  funext i
  obtain ⟨r, c, rfl⟩ : ∃ r c, i = ix2 r c := ⟨i 0, i 1, eq_ix2 i⟩
  exact (host_dense_apply (M := 50000) (K := 64) (N := 10) Cert.ReferenceIdeal.dot_S50000x64_S64x10_S50000x10_1_0_0_1_n_n rfl rfl
      Cert.ReferenceIdeal.ReadP.lhs_main_v209_0 Cert.ReferenceIdeal.ReadP.lhs_main_v209_1 Cert.ReferenceIdeal.ReadP.rhs_main_v209_0 Cert.ReferenceIdeal.ReadP.rhs_main_v209_1
      (Cert.ReferenceIdeal.ReadP.val_main_v208 (F := Ideal) x0 x1 x2 x3 x4 x5 x6 x7) x8 x9 (by decide)
      Cert.ReferenceIdeal.Facts₀.bcast_S10_S1x10_1 Cert.ReferenceIdeal.Facts₀.bcast_S1x10_S50000x10_0_1 r c).symm

end Cert.Bridge

end
-- ==== Proof.LibHostLineCut.lean ====
/-
  Reading what a long straight line of host operations leaves in a buffer, a piece at a time.

  `StableHlo.after ops V` is what the buffers hold once the operations `ops` have run in order from contents `V`.
  A stage of a long line may have several consumers, and then the line's composed term repeats it once per consumer.
  Two facts let the line be read in pieces, each stated over the stages before it as variables:

  * `after_cut`: the line run from `V` is its tail after the first `n` operations, run from what those first `n`
    leave (`after_append`: two lines one after the other are their concatenation). So a long line is read in
    stretches, each from ARBITRARY contents that satisfy what the earlier stretches established, and no stretch
    inlines an earlier one.
  * `ofBuf_toBuf` / `toBuf_ofBuf`: the operations of a called function are printed over TYPED references, each value
    written to its buffer through `TRef.toBuf` and read back through `TRef.ofBuf` — transports along the buffer's
    type equation. A value written through a typed reference and read back through the same reference is the value.
    This holds for every typed reference, by its type equation alone, so every inner write/read pair of a stretch
    cancels, whatever the buffer, and only the first read and the last write of the stretch stay in its statement.

  Nothing here depends on a program: any topology, reference signature and element interpretation.
-/
import Idealize.ShloMosaic.Lib.StableHlo.Run

noncomputable section

namespace Cert.Lib.HostLineCut

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A line cut after its first `n` operations. -/
theorem after_cut (n : ℕ) (l : List (HloOp τ sig Val)) (V : Valuation τ sig Val) :
    StableHlo.after l V = StableHlo.after (l.drop n) (StableHlo.after (l.take n) V) := by
  rw [← after_append, List.take_append_drop]

/-- Contents written through a typed reference and read back through it are the contents. -/
theorem ofBuf_toBuf {T : BufTy} (x : TRef sig T) (v : T.Contents Val) : x.ofBuf (x.toBuf v) = v := by
  obtain ⟨r, h, hd, hu⟩ := x
  subst h
  rfl

/-- Contents read through a typed reference and written back through it are the contents. -/
theorem toBuf_ofBuf {T : BufTy} (x : TRef sig T) (v : x.ref.ty.Contents Val) : x.toBuf (x.ofBuf v) = v := by
  obtain ⟨r, h, hd, hu⟩ := x
  subst h
  rfl

end Cert.Lib.HostLineCut

end
-- ==== Proof.KI_Stretch1.lean ====
/-
  The three host stretches before the first launch, read against the reference's stages: both programs slice the
  source and destination words out of the edge array, count the degrees, form the edge weights
  -(d[src]·d[dst]) with d = 1/sqrt(degree) where the degree is positive and 0 elsewhere, and run the Chebyshev
  recursion T1 = L x, T2 = 2 L T1 - x, T3 = 2 L T2 - T1 by gather, scale and scatter-add. The kernel's program then
  lays the four feature arrays side by side and flattens the weights. The composed values are the reference's,
  operation for operation; the outlined select of the second stretch is read once, on its own, so that the
  transports around its typed references cancel there and nowhere else.
-/
import proofs.«180556_j46755013984834_1_alg».proof.Proof.Gen.KernelIdeal.Launch
import proofs.«180556_j46755013984834_1_alg».proof.Proof.RefReadP
import proofs.«180556_j46755013984834_1_alg».proof.Proof.LibHostLineCut
import Idealize.ShloMosaic.Lib.StableHlo.Run

set_option maxRecDepth 16384

noncomputable section
namespace Cert.KernelIdeal.Glue
open Cert.KernelIdeal Cert.KernelIdeal.Gen
open Idealize.ShloMosaic Idealize.ShloMosaic.TcCoe Idealize.SL.Sem Idealize.ShloMosaic.StableHlo

variable (V : Valuation τ sig (Elt Ideal))

/-- The buffers after the three stretches before the first launch, from contents `V`. -/
abbrev pre1 : Valuation τ sig (Elt Ideal) := StableHlo.after hostOps0_2 (StableHlo.after hostOps0_1 (StableHlo.after hostOps0 V))

/-! ## The outlined select, from any contents -/

/-- The select's result: where the condition holds the second operand, elsewhere the scalar spread over the shape. -/
theorem where_result :
    StableHlo.after hostOps0_1 V (Proc.devRef .tc main_v13)
      = select (V (Proc.devRef .tc main_v9)) (V (Proc.devRef .tc main_v12)) (broadcastInDim S50000 ![] Facts₀.bcast_S_S50000 (V (Proc.devRef .tc main_cst_3))) := by
  after_results_simp
  simp only [Cert.Lib.HostLineCut.ofBuf_toBuf]
  rfl

theorem where_keep_main_v1 : StableHlo.after hostOps0_1 V (Proc.devRef .tc main_v1) = V (Proc.devRef .tc main_v1) := by
  after_results_simp

theorem where_keep_main_v3 : StableHlo.after hostOps0_1 V (Proc.devRef .tc main_v3) = V (Proc.devRef .tc main_v3) := by
  after_results_simp

theorem where_keep_main_arg0 : StableHlo.after hostOps0_1 V (Proc.devRef .tc main_arg0) = V (Proc.devRef .tc main_arg0) := by
  after_results_simp

theorem where_keep_main_arg1 : StableHlo.after hostOps0_1 V (Proc.devRef .tc main_arg1) = V (Proc.devRef .tc main_arg1) := by
  after_results_simp

theorem where_keep_main_arg2 : StableHlo.after hostOps0_1 V (Proc.devRef .tc main_arg2) = V (Proc.devRef .tc main_arg2) := by
  after_results_simp

/-! ## The values the first launch and the later stretches read -/

set_option maxHeartbeats 4000000 in
/-- The source words. -/
theorem stretch1_src (x1) (h1 : V (Proc.devRef .tc main_arg1) = x1) :
    pre1 V (Proc.devRef .tc main_v1) = Cert.ReferenceIdeal.ReadP.val_main_v1 (F := Ideal) x1 := by
  subst h1
  show StableHlo.after hostOps0_2 (StableHlo.after hostOps0_1 (StableHlo.after hostOps0 V)) (Proc.devRef .tc main_v1) = _
  generalize hU1 : StableHlo.after hostOps0 V = U1
  generalize hU2 : StableHlo.after hostOps0_1 U1 = U2
  after_results_simp
  subst hU2
  rw [where_keep_main_v1]
  subst hU1
  after_results_simp
  rfl

set_option maxHeartbeats 4000000 in
/-- The destination words. -/
theorem stretch1_dst (x1) (h1 : V (Proc.devRef .tc main_arg1) = x1) :
    pre1 V (Proc.devRef .tc main_v3) = Cert.ReferenceIdeal.ReadP.val_main_v3 (F := Ideal) x1 := by
  subst h1
  show StableHlo.after hostOps0_2 (StableHlo.after hostOps0_1 (StableHlo.after hostOps0 V)) (Proc.devRef .tc main_v3) = _
  generalize hU1 : StableHlo.after hostOps0 V = U1
  generalize hU2 : StableHlo.after hostOps0_1 U1 = U2
  after_results_simp
  subst hU2
  rw [where_keep_main_v3]
  subst hU1
  after_results_simp
  rfl

set_option maxHeartbeats 16000000 in
/-- The edge weights, as the reference computes them for its second layer (and, the same operations, for its first). -/
theorem stretch1_wts (x1) (h1 : V (Proc.devRef .tc main_arg1) = x1) :
    pre1 V (Proc.devRef .tc main_v29) = Cert.ReferenceIdeal.ReadP.val_main_v144 (F := Ideal) x1 := by
  subst h1
  show StableHlo.after hostOps0_2 (StableHlo.after hostOps0_1 (StableHlo.after hostOps0 V)) (Proc.devRef .tc main_v29) = _
  generalize hU1 : StableHlo.after hostOps0 V = U1
  generalize hU2 : StableHlo.after hostOps0_1 U1 = U2
  after_results_simp
  subst hU2
  rw [where_result]; (try rw [where_keep_main_v1]); (try rw [where_keep_main_v3])
  subst hU1
  after_results_simp
  rfl

set_option maxHeartbeats 64000000 in
/-- The first Chebyshev term of the first layer. -/
theorem stretch1_t1 (x0 x1) (h0 : V (Proc.devRef .tc main_arg0) = x0) (h1 : V (Proc.devRef .tc main_arg1) = x1) :
    pre1 V (Proc.devRef .tc main_v42) = Cert.ReferenceIdeal.ReadP.val_main_v45 (F := Ideal) x0 x1 := by
  subst h0; subst h1
  show StableHlo.after hostOps0_2 (StableHlo.after hostOps0_1 (StableHlo.after hostOps0 V)) (Proc.devRef .tc main_v42) = _
  generalize hU1 : StableHlo.after hostOps0 V = U1
  generalize hU2 : StableHlo.after hostOps0_1 U1 = U2
  after_results_simp
  subst hU2
  rw [where_result]; (try rw [where_keep_main_v1]); (try rw [where_keep_main_v3]); (try rw [where_keep_main_arg0])
  subst hU1
  after_results_simp
  rfl

set_option maxHeartbeats 64000000 in
/-- The second. -/
theorem stretch1_t2 (x0 x1) (h0 : V (Proc.devRef .tc main_arg0) = x0) (h1 : V (Proc.devRef .tc main_arg1) = x1) :
    pre1 V (Proc.devRef .tc main_v58) = Cert.ReferenceIdeal.ReadP.val_main_v65 (F := Ideal) x0 x1 := by
  subst h0; subst h1
  show StableHlo.after hostOps0_2 (StableHlo.after hostOps0_1 (StableHlo.after hostOps0 V)) (Proc.devRef .tc main_v58) = _
  generalize hU1 : StableHlo.after hostOps0 V = U1
  generalize hU2 : StableHlo.after hostOps0_1 U1 = U2
  after_results_simp
  subst hU2
  rw [where_result]; (try rw [where_keep_main_v1]); (try rw [where_keep_main_v3]); (try rw [where_keep_main_arg0])
  subst hU1
  after_results_simp
  rfl

set_option maxHeartbeats 64000000 in
/-- The third. -/
theorem stretch1_t3 (x0 x1) (h0 : V (Proc.devRef .tc main_arg0) = x0) (h1 : V (Proc.devRef .tc main_arg1) = x1) :
    pre1 V (Proc.devRef .tc main_v74) = Cert.ReferenceIdeal.ReadP.val_main_v85 (F := Ideal) x0 x1 := by
  subst h0; subst h1
  show StableHlo.after hostOps0_2 (StableHlo.after hostOps0_1 (StableHlo.after hostOps0 V)) (Proc.devRef .tc main_v74) = _
  generalize hU1 : StableHlo.after hostOps0 V = U1
  generalize hU2 : StableHlo.after hostOps0_1 U1 = U2
  after_results_simp
  subst hU2
  rw [where_result]; (try rw [where_keep_main_v1]); (try rw [where_keep_main_v3]); (try rw [where_keep_main_arg0])
  subst hU1
  after_results_simp
  rfl

set_option maxHeartbeats 4000000 in
/-- The first layer's weights, flattened. -/
theorem stretch1_w (x2) (h2 : V (Proc.devRef .tc main_arg2) = x2) :
    pre1 V (Proc.devRef .tc main_v76) = shapeCast S512x128 x2 Facts₀.shapeCasts_S4x128x128_S512x128 := by
  subst h2
  show StableHlo.after hostOps0_2 (StableHlo.after hostOps0_1 (StableHlo.after hostOps0 V)) (Proc.devRef .tc main_v76) = _
  generalize hU1 : StableHlo.after hostOps0 V = U1
  generalize hU2 : StableHlo.after hostOps0_1 U1 = U2
  after_results_simp
  subst hU2
  rw [where_keep_main_arg2]
  subst hU1
  after_results_simp
  rfl

/-! ## The four feature arrays, side by side -/

set_option maxHeartbeats 16000000 in
/-- The join's result reads each piece at its own buffer, from any contents before the third stretch. -/
theorem join1_read (U2 : Valuation τ sig (Elt Ideal)) :
    StableHlo.after hostOps0_2 U2 (Proc.devRef .tc main_v75)
      = concatenate S50000x512 1 [⟨S50000x128, StableHlo.after hostOps0_2 U2 (Proc.devRef .tc main_arg0)⟩, ⟨S50000x128, StableHlo.after hostOps0_2 U2 (Proc.devRef .tc main_v42)⟩, ⟨S50000x128, StableHlo.after hostOps0_2 U2 (Proc.devRef .tc main_v58)⟩, ⟨S50000x128, StableHlo.after hostOps0_2 U2 (Proc.devRef .tc main_v74)⟩] Facts₀.concatenates_S50000x128_S50000x128_S50000x128_S50000x128_S50000x512_d1 := by
  rfl

/-- A join of four pieces of one shape depends only on the pieces. -/
theorem join1_pieces {α : Type} {t s : Shape} {a : Fin t.rank} (h : Shape.Concatenates [s, s, s, s] t a)
    {p₁ p₂ p₃ p₄ q₁ q₂ q₃ q₄ : s.Idx → α} (e₁ : p₁ = q₁) (e₂ : p₂ = q₂) (e₃ : p₃ = q₃) (e₄ : p₄ = q₄) :
    concatenate t a [⟨s, p₁⟩, ⟨s, p₂⟩, ⟨s, p₃⟩, ⟨s, p₄⟩] h = concatenate t a [⟨s, q₁⟩, ⟨s, q₂⟩, ⟨s, q₃⟩, ⟨s, q₄⟩] h := by
  subst e₁ e₂ e₃ e₄; rfl

set_option maxHeartbeats 4000000 in
/-- The features themselves are an argument, which no stretch writes. -/
theorem stretch1_t0 (x0) (h0 : V (Proc.devRef .tc main_arg0) = x0) : pre1 V (Proc.devRef .tc main_arg0) = x0 := by
  subst h0
  show StableHlo.after hostOps0_2 (StableHlo.after hostOps0_1 (StableHlo.after hostOps0 V)) (Proc.devRef .tc main_arg0) = _
  after_results_simp

/-- The four feature arrays of the first layer, side by side. -/
theorem stretch1_cat (x0 x1) (h0 : V (Proc.devRef .tc main_arg0) = x0) (h1 : V (Proc.devRef .tc main_arg1) = x1) :
    pre1 V (Proc.devRef .tc main_v75) = concatenate S50000x512 1 [⟨S50000x128, x0⟩, ⟨S50000x128, Cert.ReferenceIdeal.ReadP.val_main_v45 (F := Ideal) x0 x1⟩, ⟨S50000x128, Cert.ReferenceIdeal.ReadP.val_main_v65 (F := Ideal) x0 x1⟩, ⟨S50000x128, Cert.ReferenceIdeal.ReadP.val_main_v85 (F := Ideal) x0 x1⟩] Facts₀.concatenates_S50000x128_S50000x128_S50000x128_S50000x128_S50000x512_d1 :=
  (join1_read (StableHlo.after hostOps0_1 (StableHlo.after hostOps0 V))).trans
    (join1_pieces _ (stretch1_t0 V x0 h0) (stretch1_t1 V x0 x1 h0 h1) (stretch1_t2 V x0 x1 h0 h1) (stretch1_t3 V x0 x1 h0 h1))

end Cert.KernelIdeal.Glue
end
-- ==== Proof.KI_Stretch2.lean ====
/-
  The host operations between the first and the second launch, read against the reference's stages.

  From the first launch's output h, the edge weights, the source and destination words and the two
  normalization vectors, the line computes the normalized features (each column of h minus its mean, times the
  inverse root of its variance plus a small constant, times gamma plus beta), then three sparse products
  (gather the rows at the sources, scale each by its edge weight, add them up at the destinations) chained by
  the recursion T1 = L T0, T2 = 2 L T1 - T0, T3 = 2 L T2 - T1, and places T0 … T3 side by side; it also reshapes
  the second layer's weights to one matrix. The reference applies the same operations in the same order to the
  same operands, so once the line is read off as one composed term over the buffers it starts from, and those are
  the reference's stages, the two sides are the same term.
-/
import proofs.«180556_j46755013984834_1_alg».proof.Proof.Gen.KernelIdeal.Launch
import proofs.«180556_j46755013984834_1_alg».proof.Proof.RefReadP
import proofs.«180556_j46755013984834_1_alg».proof.Proof.LibHostLineCut
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.StableHlo

/-- The concatenation of the four feature blocks reads each block at its own buffer. -/
theorem cat_result (hxs hy) (F : Valuation τ sig (Elt Ideal)) :
    (StableHlo.nary (τ := τ) ![main_v102, main_v115, main_v131, main_v147] main_v148
        (fun u => concatenate S50000x512 1 [⟨S50000x128, u 0⟩, ⟨S50000x128, u 1⟩, ⟨S50000x128, u 2⟩, ⟨S50000x128, u 3⟩]
          concatenates_S50000x128_S50000x128_S50000x128_S50000x128_S50000x512_d1) hxs hy).result F
        (no_index (Proc.devRef .tc main_v148))
      = concatenate S50000x512 1 [⟨S50000x128, F (Proc.devRef .tc main_v102)⟩, ⟨S50000x128, F (Proc.devRef .tc main_v115)⟩,
          ⟨S50000x128, F (Proc.devRef .tc main_v131)⟩, ⟨S50000x128, F (Proc.devRef .tc main_v147)⟩]
          concatenates_S50000x128_S50000x128_S50000x128_S50000x128_S50000x512_d1 :=
  StableHlo.nary_result _ _ _ hxs hy F

/-- Four blocks side by side depend only on the four blocks. -/
theorem cat_congr {a0 a1 a2 a3 b0 b1 b2 b3 : S50000x128.Idx → Elt Ideal .f32}
    (h0 : a0 = b0) (h1 : a1 = b1) (h2 : a2 = b2) (h3 : a3 = b3) :
    concatenate S50000x512 1 [⟨S50000x128, a0⟩, ⟨S50000x128, a1⟩, ⟨S50000x128, a2⟩, ⟨S50000x128, a3⟩]
        concatenates_S50000x128_S50000x128_S50000x128_S50000x128_S50000x512_d1
      = concatenate S50000x512 1 [⟨S50000x128, b0⟩, ⟨S50000x128, b1⟩, ⟨S50000x128, b2⟩, ⟨S50000x128, b3⟩]
        concatenates_S50000x128_S50000x128_S50000x128_S50000x128_S50000x512_d1 := by
  subst h0 h1 h2 h3; rfl

set_option maxHeartbeats 40000000 in
/-- The four feature blocks side by side, after the line, are the reference's four stages side by side. -/
theorem stretch2_cat (V : Valuation τ sig (Elt Ideal))
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S4x128x128, .f32⟩ : BufTy).Contents (Elt Ideal)) (x3 x4 x5 : (⟨Cert.ReferenceIdeal.S128, .f32⟩ : BufTy).Contents (Elt Ideal))
    (h77 : V (Proc.devRef .tc main_v77) = Cert.ReferenceIdeal.ReadP.val_main_v93 (F := Ideal) x0 x1 x2 x3)
    (h29 : V (Proc.devRef .tc main_v29) = Cert.ReferenceIdeal.ReadP.val_main_v144 (F := Ideal) x1)
    (h1 : V (Proc.devRef .tc main_v1) = Cert.ReferenceIdeal.ReadP.val_main_v1 (F := Ideal) x1)
    (h3 : V (Proc.devRef .tc main_v3) = Cert.ReferenceIdeal.ReadP.val_main_v3 (F := Ideal) x1)
    (h4 : V (Proc.devRef .tc main_arg4) = x4) (h5 : V (Proc.devRef .tc main_arg5) = x5) :
    StableHlo.after (hostOps1 (F := Ideal)) V (Proc.devRef .tc main_v148)
      = concatenate S50000x512 1 [⟨S50000x128, Cert.ReferenceIdeal.ReadP.val_main_v118 (F := Ideal) x0 x1 x2 x3 x4 x5⟩,
          ⟨S50000x128, Cert.ReferenceIdeal.ReadP.val_main_v160 (F := Ideal) x0 x1 x2 x3 x4 x5⟩,
          ⟨S50000x128, Cert.ReferenceIdeal.ReadP.val_main_v180 (F := Ideal) x0 x1 x2 x3 x4 x5⟩,
          ⟨S50000x128, Cert.ReferenceIdeal.ReadP.val_main_v200 (F := Ideal) x0 x1 x2 x3 x4 x5⟩]
          concatenates_S50000x128_S50000x128_S50000x128_S50000x128_S50000x512_d1 := by
  simp (disch := decide) only [after_cons, after_nil, reshape_result_ne', cat_result]
  refine cat_congr ?_ ?_ ?_ ?_
  · simp (disch := decide) only [after_cons, after_nil,
    nullary_result', unary_result', binary_result', ternary_result', quaternary_result', reshape_result', cat_result,
    unaryIndexed_result', binaryIndexed_result',
    nullary_result_ne', unary_result_ne', binary_result_ne', ternary_result_ne', quaternary_result_ne', reshape_result_ne',
    nary_result_ne', unaryIndexed_result_ne', binaryIndexed_result_ne']
    rw [h77, h4, h5]
    rfl
  · simp (disch := decide) only [after_cons, after_nil,
    nullary_result', unary_result', binary_result', ternary_result', quaternary_result', reshape_result', cat_result,
    unaryIndexed_result', binaryIndexed_result',
    nullary_result_ne', unary_result_ne', binary_result_ne', ternary_result_ne', quaternary_result_ne', reshape_result_ne',
    nary_result_ne', unaryIndexed_result_ne', binaryIndexed_result_ne']
    rw [h77, h29, h1, h3, h4, h5]
    rfl
  · simp (disch := decide) only [after_cons, after_nil,
    nullary_result', unary_result', binary_result', ternary_result', quaternary_result', reshape_result', cat_result,
    unaryIndexed_result', binaryIndexed_result',
    nullary_result_ne', unary_result_ne', binary_result_ne', ternary_result_ne', quaternary_result_ne', reshape_result_ne',
    nary_result_ne', unaryIndexed_result_ne', binaryIndexed_result_ne']
    rw [h77, h29, h1, h3, h4, h5]
    rfl
  · simp (disch := decide) only [after_cons, after_nil,
    nullary_result', unary_result', binary_result', ternary_result', quaternary_result', reshape_result', cat_result,
    unaryIndexed_result', binaryIndexed_result',
    nullary_result_ne', unary_result_ne', binary_result_ne', ternary_result_ne', quaternary_result_ne', reshape_result_ne',
    nary_result_ne', unaryIndexed_result_ne', binaryIndexed_result_ne']
    rw [h77, h29, h1, h3, h4, h5]
    rfl

set_option maxHeartbeats 4000000 in
/-- The second layer's weights, after the line, are the argument reshaped to one matrix. -/
theorem stretch2_w (V : Valuation τ sig (Elt Ideal)) (x6 : (⟨Cert.ReferenceIdeal.S4x128x64, .f32⟩ : BufTy).Contents (Elt Ideal))
    (h6 : V (Proc.devRef .tc main_arg6) = x6) :
    StableHlo.after (hostOps1 (F := Ideal)) V (Proc.devRef .tc main_v149) = shapeCast S512x64 x6 shapeCasts_S4x128x64_S512x64 := by
  after_results_simp
  rw [h6]
  rfl

set_option maxHeartbeats 4000000 in
/-- The line leaves the second layer's bias as it was. -/
theorem stretch2_keep7 (V : Valuation τ sig (Elt Ideal)) :
    StableHlo.after (hostOps1 (F := Ideal)) V (Proc.devRef .tc main_arg7) = V (Proc.devRef .tc main_arg7) := by
  after_results_simp

set_option maxHeartbeats 4000000 in
/-- The line leaves the third layer's weights as they were. -/
theorem stretch2_keep8 (V : Valuation τ sig (Elt Ideal)) :
    StableHlo.after (hostOps1 (F := Ideal)) V (Proc.devRef .tc main_arg8) = V (Proc.devRef .tc main_arg8) := by
  after_results_simp

set_option maxHeartbeats 4000000 in
/-- The line leaves the third layer's bias as it was. -/
theorem stretch2_keep9 (V : Valuation τ sig (Elt Ideal)) :
    StableHlo.after (hostOps1 (F := Ideal)) V (Proc.devRef .tc main_arg9) = V (Proc.devRef .tc main_arg9) := by
  after_results_simp

end Cert.KernelIdeal.Glue

end
-- ==== Proof.KI_Glue.lean ====
/-
  The result of the program's run is the reference's last stage, at the ideal values.

  The run is a fold: host operations, a launch, host operations, a launch, a launch. Each launch leaves its output
  array at a dense layer of the three arrays it reads; the host operations before a launch leave those arrays at
  the four feature arrays of the reference laid side by side and at its weights read as a matrix; and the dense
  layer of those is the reference's clamped sum of four products. Link by link, the output of the last launch is
  the reference's last value as a function of the ten arguments.
-/
import proofs.«180556_j46755013984834_1_alg».proof.Proof.KI_Bounds
import proofs.«180556_j46755013984834_1_alg».proof.Proof.KI_Args
import proofs.«180556_j46755013984834_1_alg».proof.Proof.KI_Val0
import proofs.«180556_j46755013984834_1_alg».proof.Proof.KI_Val1
import proofs.«180556_j46755013984834_1_alg».proof.Proof.KI_Val2
import proofs.«180556_j46755013984834_1_alg».proof.Proof.Algebra
import proofs.«180556_j46755013984834_1_alg».proof.Proof.KI_Stretch1
import proofs.«180556_j46755013984834_1_alg».proof.Proof.KI_Stretch2

set_option maxRecDepth 16384

noncomputable section

namespace Cert.KernelIdeal.Glue

open Cert.KernelIdeal Cert.KernelIdeal.Gen Cert.KernelIdeal.Fr Cert.KernelIdeal.Val
open Idealize.ShloMosaic Idealize.ShloMosaic.TcCoe
open Idealize.SL Idealize.SL.Sem Idealize.ShloMosaic.StableHlo

variable (m : (ℓ : Loc nD τ sig) → Buf (Elt Ideal) ℓ) (ρ : Dev nD → PrngReg) (c : Dev nD)

/-! ## The first launch -/

/-- The first launch reads the four feature arrays of the first layer laid side by side … -/
theorem in0_cat : V3 m ρ c main_v75
    = concatenate S50000x512 1 [⟨S50000x128, (m ((c.tc : Thread nD τ).loc main_arg0))⟩,
        ⟨S50000x128, Cert.ReferenceIdeal.ReadP.val_main_v45 (F := Ideal) (m ((c.tc : Thread nD τ).loc main_arg0)) (m ((c.tc : Thread nD τ).loc main_arg1))⟩,
        ⟨S50000x128, Cert.ReferenceIdeal.ReadP.val_main_v65 (F := Ideal) (m ((c.tc : Thread nD τ).loc main_arg0)) (m ((c.tc : Thread nD τ).loc main_arg1))⟩,
        ⟨S50000x128, Cert.ReferenceIdeal.ReadP.val_main_v85 (F := Ideal) (m ((c.tc : Thread nD τ).loc main_arg0)) (m ((c.tc : Thread nD τ).loc main_arg1))⟩] Facts₀.concatenates_S50000x128_S50000x128_S50000x128_S50000x128_S50000x512_d1 :=
  stretch1_cat (W0 m ρ c) (m ((c.tc : Thread nD τ).loc main_arg0)) (m ((c.tc : Thread nD τ).loc main_arg1)) rfl rfl

/-- … the first layer's weights read as a matrix … -/
theorem in0_w : V3 m ρ c main_v76 = shapeCast S512x128 (m ((c.tc : Thread nD τ).loc main_arg2)) Facts₀.shapeCasts_S4x128x128_S512x128 :=
  stretch1_w (W0 m ρ c) (m ((c.tc : Thread nD τ).loc main_arg2)) rfl

/-- … and the first layer's bias. -/
theorem in0_b : V3 m ρ c main_arg3 = (m ((c.tc : Thread nD τ).loc main_arg3)) := W3_arg3 m ρ c

/-- The first launch leaves its output at the reference's first layer. -/
theorem out0 : W4 m ρ c (Proc.devRef .tc main_v77) = Cert.ReferenceIdeal.ReadP.val_main_v93 (F := Ideal) (m ((c.tc : Thread nD τ).loc main_arg0)) (m ((c.tc : Thread nD τ).loc main_arg1)) (m ((c.tc : Thread nD τ).loc main_arg2)) (m ((c.tc : Thread nD τ).loc main_arg3)) :=
  (W4_arr m ρ c 3).trans ((final0 (V3 m ρ) c).trans (by
    rw [in0_cat m ρ c, in0_w m ρ c, in0_b m ρ c]
    exact Cert.Bridge.layer1_ref (m ((c.tc : Thread nD τ).loc main_arg0)) (m ((c.tc : Thread nD τ).loc main_arg1)) (m ((c.tc : Thread nD τ).loc main_arg2)) (m ((c.tc : Thread nD τ).loc main_arg3))))

/-! ## The second launch -/

/-- The first launch leaves the edge weights as the host operations before it left them. -/
theorem keep_wts : W4 m ρ c (Proc.devRef .tc main_v29) = Cert.ReferenceIdeal.ReadP.val_main_v144 (F := Ideal) (m ((c.tc : Thread nD τ).loc main_arg1)) :=
  (W4_of_ne m ρ c main_v29 (by decide)).trans (stretch1_wts (W0 m ρ c) (m ((c.tc : Thread nD τ).loc main_arg1)) rfl)

/-- The first launch leaves the edges' sources as the host operations before it left them. -/
theorem keep_src : W4 m ρ c (Proc.devRef .tc main_v1) = Cert.ReferenceIdeal.ReadP.val_main_v1 (F := Ideal) (m ((c.tc : Thread nD τ).loc main_arg1)) :=
  (W4_of_ne m ρ c main_v1 (by decide)).trans (stretch1_src (W0 m ρ c) (m ((c.tc : Thread nD τ).loc main_arg1)) rfl)

/-- The first launch leaves the edges' targets as the host operations before it left them. -/
theorem keep_dst : W4 m ρ c (Proc.devRef .tc main_v3) = Cert.ReferenceIdeal.ReadP.val_main_v3 (F := Ideal) (m ((c.tc : Thread nD τ).loc main_arg1)) :=
  (W4_of_ne m ρ c main_v3 (by decide)).trans (stretch1_dst (W0 m ρ c) (m ((c.tc : Thread nD τ).loc main_arg1)) rfl)

/-- The second launch reads the four feature arrays of the second layer laid side by side … -/
theorem in1_cat : V5 m ρ c main_v148
    = concatenate S50000x512 1 [⟨S50000x128, Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))⟩,
        ⟨S50000x128, Cert.ReferenceIdeal.ReadP.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))⟩,
        ⟨S50000x128, Cert.ReferenceIdeal.ReadP.val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))⟩,
        ⟨S50000x128, Cert.ReferenceIdeal.ReadP.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))⟩] Facts₀.concatenates_S50000x128_S50000x128_S50000x128_S50000x128_S50000x512_d1 :=
  stretch2_cat (W4 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (out0 m ρ c) (keep_wts m ρ c) (keep_src m ρ c) (keep_dst m ρ c) (W4_arg4 m ρ c) (W4_arg5 m ρ c)

/-- … the second layer's weights read as a matrix … -/
theorem in1_w : V5 m ρ c main_v149 = shapeCast S512x64 (m ((c.tc : Thread nD τ).loc main_arg6)) Facts₀.shapeCasts_S4x128x64_S512x64 :=
  stretch2_w (W4 m ρ c) (m ((c.tc : Thread nD τ).loc main_arg6)) (W4_arg6 m ρ c)

/-- … and the second layer's bias. -/
theorem in1_b : V5 m ρ c main_arg7 = (m ((c.tc : Thread nD τ).loc main_arg7)) := W5_arg7 m ρ c

/-- The second launch leaves its output at the reference's second layer. -/
theorem out1 : W6 m ρ c (Proc.devRef .tc main_v150) = Cert.ReferenceIdeal.ReadP.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W6_arr m ρ c 3).trans ((final1 (V5 m ρ) c).trans (by
    rw [in1_cat m ρ c, in1_w m ρ c, in1_b m ρ c]
    exact Cert.Bridge.layer2_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))

/-! ## The third launch -/

/-- The third launch reads the second layer … -/
theorem in2_x : V6 m ρ c main_v150 = Cert.ReferenceIdeal.ReadP.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := out1 m ρ c

/-- … the last layer's weights … -/
theorem in2_w : V6 m ρ c main_arg8 = (m ((c.tc : Thread nD τ).loc main_arg8)) := W6_arg8 m ρ c

/-- … and the last layer's bias. -/
theorem in2_b : V6 m ρ c main_arg9 = (m ((c.tc : Thread nD τ).loc main_arg9)) := W6_arg9 m ρ c

/-- THE RESULT: the third launch leaves its output at the reference's last value of the ten arguments. -/
theorem result (m : (ℓ : Loc nD τ sig) → Buf (Elt Ideal) ℓ) (ρ : Dev nD → PrngReg) (c : Dev nD) :
    Cert.KernelIdeal.Fr.W7 m ρ c (Proc.devRef .tc main_v151)
      = Cert.ReferenceIdeal.ReadP.val_main_v212 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W7_arr m ρ c 3).trans ((final2 (V6 m ρ) c).trans (by
    rw [in2_x m ρ c, in2_w m ρ c, in2_b m ρ c]
    exact Cert.Bridge.final_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))

end Cert.KernelIdeal.Glue

end
-- ==== Proof.lean ====
/-
  A Chebyshev graph network: two layers, each a sum over four hops of (hop-k features) x (hop-k weights) plus a
  bias, clamped at zero, with batch normalization between them, and a final linear layer. The kernel's program
  lays the four hop features side by side, flattens the four weight matrices on top of each other, and computes
  each layer as ONE product of [50000, 512] by [512, N], block of 5000 rows by block, in a launch; the reference
  computes four products of [50000, 128] by [128, N] and adds them. At the extended reals the two are equal by
  splitting a sum over 512 places into four sums over 128 — the laws of a commutative sum only, so nothing is
  asked of the inputs. Everything else (the degrees, the edge weights, the sparse products by gather and
  scatter-add, the normalization) is the same host operations in both programs, read stage by stage.

  The frames: the kernel's program runs through its host stretches and its three launches (each body reads its
  three input blocks whole and stores its output block whole), the reference is a straight line of host operations;
  neither writes an argument. The ideal pass rewrote nothing, so there is nothing to preserve.
-/
import proofs.«180556_j46755013984834_1_alg».proof.Defs
import proofs.«180556_j46755013984834_1_alg».proof.Proof.Gen.Kernel
import proofs.«180556_j46755013984834_1_alg».proof.Proof.Gen.KernelIdeal
import proofs.«180556_j46755013984834_1_alg».proof.Proof.Gen.ReferenceIdeal
import proofs.«180556_j46755013984834_1_alg».proof.Proof.Gen.Pre_finite_inputs
import proofs.«180556_j46755013984834_1_alg».proof.Proof.Frames
import proofs.«180556_j46755013984834_1_alg».proof.Proof.RefFrame
import proofs.«180556_j46755013984834_1_alg».proof.Proof.RefRun
import proofs.«180556_j46755013984834_1_alg».proof.Proof.KI_Glue
import Idealize.ShloMosaic.Adequacy
import Idealize.ShloMosaic.Init

set_option maxRecDepth 16384

noncomputable section

namespace Cert.Proof

open Idealize.ShloMosaic Idealize.SL.Sem

/-- The ideal pass rewrote no operation. -/
theorem preserves : Cert.preserves_Kernel_KernelIdeal := trivial

/-- Both programs, from memories agreeing on the arguments, end with the reference's last stage of the arguments
    in their result buffers: the kernel's by reading its run's last boundary back through the launches and the host
    stretches, the reference's by its own run. -/
theorem algebraic : Cert.algebraic_KernelIdeal_ReferenceIdeal := by
  intro m ρ m' ρ' _ hagree
  refine ⟨fun c => Cert.ReferenceIdeal.ReadP.val_main_v212 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Fr.mem_uc Cert.KernelIdeal.main_v151 (by decide))).trans (Cert.KernelIdeal.Glue.result m ρ c),
        (h c _ (Cert.KernelIdeal.Fr.mem_uc Cert.KernelIdeal.main_arg0 (by decide))).trans (Cert.KernelIdeal.Fr.W7_arg0 m ρ c),
        (h c _ (Cert.KernelIdeal.Fr.mem_uc Cert.KernelIdeal.main_arg1 (by decide))).trans (Cert.KernelIdeal.Fr.W7_arg1 m ρ c),
        (h c _ (Cert.KernelIdeal.Fr.mem_uc Cert.KernelIdeal.main_arg2 (by decide))).trans (Cert.KernelIdeal.Fr.W7_arg2 m ρ c),
        (h c _ (Cert.KernelIdeal.Fr.mem_uc Cert.KernelIdeal.main_arg3 (by decide))).trans (Cert.KernelIdeal.Fr.W7_arg3 m ρ c),
        (h c _ (Cert.KernelIdeal.Fr.mem_uc Cert.KernelIdeal.main_arg4 (by decide))).trans (Cert.KernelIdeal.Fr.W7_arg4 m ρ c),
        (h c _ (Cert.KernelIdeal.Fr.mem_uc Cert.KernelIdeal.main_arg5 (by decide))).trans (Cert.KernelIdeal.Fr.W7_arg5 m ρ c),
        (h c _ (Cert.KernelIdeal.Fr.mem_uc Cert.KernelIdeal.main_arg6 (by decide))).trans (Cert.KernelIdeal.Fr.W7_arg6 m ρ c),
        (h c _ (Cert.KernelIdeal.Fr.mem_uc Cert.KernelIdeal.main_arg7 (by decide))).trans (Cert.KernelIdeal.Fr.W7_arg7 m ρ c),
        (h c _ (Cert.KernelIdeal.Fr.mem_uc Cert.KernelIdeal.main_arg8 (by decide))).trans (Cert.KernelIdeal.Fr.W7_arg8 m ρ c),
        (h c _ (Cert.KernelIdeal.Fr.mem_uc Cert.KernelIdeal.main_arg9 (by decide))).trans (Cert.KernelIdeal.Fr.W7_arg9 m ρ c)⟩)
      (Cert.KernelIdeal.Fr.run_main (F := Ideal) m ρ)
  · refine (θ_run Cert.ReferenceIdeal.defs _ _).mono (fun r h c => ⟨(h c).1.trans ?_, (h c).2⟩)
      (Cert.ReferenceIdeal.Line.ref_run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
